-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x200000 : Shape := ⟨2, ![2, 200000]⟩
abbrev S_ : Shape := ⟨0, ![]⟩
abbrev S4096x4096 : Shape := ⟨2, ![4096, 4096]⟩
abbrev S1x200000 : Shape := ⟨2, ![1, 200000]⟩
abbrev S200000 : Shape := ⟨1, ![200000]⟩
abbrev S200000x1 : Shape := ⟨2, ![200000, 1]⟩
abbrev S200000x2 : Shape := ⟨2, ![200000, 2]⟩
abbrev S512x512 : Shape := ⟨2, ![512, 512]⟩
abbrev S1x4096x4096 : Shape := ⟨3, ![1, 4096, 4096]⟩
abbrev S2x4096x4096 : Shape := ⟨3, ![2, 4096, 4096]⟩

abbrev nBuf : Space → Nat
  | .hbm => 137
  | .vmem => 22
  | .smem => 0
  | _ => 0

abbrev hbmTy0_0 (i : Nat) : BufTy := match i % 128 with
  | 0 => ⟨S2x200000, .i32⟩
  | 1 => ⟨S2x200000, .i32⟩
  | 2 => ⟨S2x200000, .i32⟩
  | 3 => ⟨S2x200000, .i32⟩
  | 4 => ⟨S_, .f32⟩
  | 5 => ⟨S4096x4096, .f32⟩
  | 6 => ⟨S1x200000, .i32⟩
  | 7 => ⟨S200000, .i32⟩
  | 8 => ⟨S1x200000, .i32⟩
  | 9 => ⟨S200000, .i32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x1, .i32⟩
  | 26 => ⟨S200000x2, .i32⟩
  | 27 => ⟨S_, .f32⟩
  | 28 => ⟨S200000, .f32⟩
  | 29 => ⟨S4096x4096, .f32⟩
  | 30 => ⟨S_, .f32⟩
  | 31 => ⟨S4096x4096, .f32⟩
  | 32 => ⟨S1x200000, .i32⟩
  | 33 => ⟨S200000, .i32⟩
  | 34 => ⟨S1x200000, .i32⟩
  | 35 => ⟨S200000, .i32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x1, .i32⟩
  | 52 => ⟨S200000x2, .i32⟩
  | 53 => ⟨S_, .f32⟩
  | 54 => ⟨S200000, .f32⟩
  | 55 => ⟨S4096x4096, .f32⟩
  | 56 => ⟨S_, .f32⟩
  | 57 => ⟨S4096x4096, .f32⟩
  | 58 => ⟨S1x200000, .i32⟩
  | 59 => ⟨S200000, .i32⟩
  | 60 => ⟨S1x200000, .i32⟩
  | 61 => ⟨S200000, .i32⟩
  | 62 => ⟨S_, .i32⟩
  | 63 => ⟨S200000, .i32⟩
  | 64 => ⟨S200000, .i1⟩
  | 65 => ⟨S_, .i32⟩
  | 66 => ⟨S200000, .i32⟩
  | 67 => ⟨S200000, .i32⟩
  | 68 => ⟨S200000, .i32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S200000x1, .i32⟩
  | 78 => ⟨S200000x2, .i32⟩
  | 79 => ⟨S_, .f32⟩
  | 80 => ⟨S200000, .f32⟩
  | 81 => ⟨S4096x4096, .f32⟩
  | 82 => ⟨S_, .f32⟩
  | 83 => ⟨S4096x4096, .f32⟩
  | 84 => ⟨S1x200000, .i32⟩
  | 85 => ⟨S200000, .i32⟩
  | 86 => ⟨S1x200000, .i32⟩
  | 87 => ⟨S200000, .i32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S200000x1, .i32⟩
  | 104 => ⟨S200000x2, .i32⟩
  | 105 => ⟨S_, .f32⟩
  | 106 => ⟨S200000, .f32⟩
  | 107 => ⟨S4096x4096, .f32⟩
  | 108 => ⟨S_, .f32⟩
  | 109 => ⟨S4096x4096, .f32⟩
  | 110 => ⟨S4096x4096, .f32⟩
  | 111 => ⟨S4096x4096, .f32⟩
  | 112 => ⟨S4096x4096, .i32⟩
  | 113 => ⟨S4096x4096, .i32⟩
  | 114 => ⟨S_, .i32⟩
  | 115 => ⟨S4096x4096, .i32⟩
  | 116 => ⟨S4096x4096, .i32⟩
  | 117 => ⟨S4096x4096, .i1⟩
  | 118 => ⟨S4096x4096, .f32⟩
  | 119 => ⟨S_, .f32⟩
  | 120 => ⟨S4096x4096, .f32⟩
  | 121 => ⟨S4096x4096, .f32⟩
  | 122 => ⟨S4096x4096, .f32⟩
  | 123 => ⟨S4096x4096, .f32⟩
  | 124 => ⟨S4096x4096, .f32⟩
  | 125 => ⟨S4096x4096, .f32⟩
  | 126 => ⟨S4096x4096, .bf16⟩
  | 127 => ⟨S4096x4096, .bf16⟩
  | _ => ⟨S2x200000, .i32⟩

abbrev hbmTy0_1 (i : Nat) : BufTy := match i % 128 with
  | 0 => ⟨S4096x4096, .bf16⟩
  | 1 => ⟨S4096x4096, .bf16⟩
  | 2 => ⟨S4096x4096, .bf16⟩
  | 3 => ⟨S4096x4096, .bf16⟩
  | 4 => ⟨S4096x4096, .f32⟩
  | 5 => ⟨S4096x4096, .f32⟩
  | 6 => ⟨S1x4096x4096, .f32⟩
  | 7 => ⟨S1x4096x4096, .f32⟩
  | 8 => ⟨S2x4096x4096, .f32⟩
  | _ => ⟨S2x200000, .i32⟩

abbrev hbmTy (i : Nat) : BufTy := match i / 128 with
  | 0 => hbmTy0_0 i
  | 1 => hbmTy0_1 i
  | _ => ⟨S2x200000, .i32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S2x200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_c_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_13 : Ref sig .tc := ⟨.hbm, 69, rfl⟩
abbrev main_v50 : Ref sig .tc := ⟨.hbm, 70, rfl⟩
abbrev main_v51 : Ref sig .tc := ⟨.hbm, 71, rfl⟩
abbrev main_c_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_17 : Ref sig .tc := ⟨.hbm, 88, rfl⟩
abbrev main_v65 : Ref sig .tc := ⟨.hbm, 89, rfl⟩
abbrev main_v66 : Ref sig .tc := ⟨.hbm, 90, rfl⟩
abbrev main_c_18 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_19 : Ref sig .tc := ⟨.hbm, 95, rfl⟩
abbrev main_v70 : Ref sig .tc := ⟨.hbm, 96, rfl⟩
abbrev main_v71 : Ref sig .tc := ⟨.hbm, 97, rfl⟩
abbrev main_c_20 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_21 : Ref sig .tc := ⟨.hbm, 105, rfl⟩
abbrev main_v78 : Ref sig .tc := ⟨.hbm, 106, rfl⟩
abbrev main_v79 : Ref sig .tc := ⟨.hbm, 107, rfl⟩
abbrev main_cst_22 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_23 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_24 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101_0 : Ref sig .tc := ⟨.hbm, 132, rfl⟩
abbrev main_v101_1 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

class Facts₀ : Prop where
  bcast_S_S4096x4096 : S_.BroadcastsInDim S4096x4096 (![] : Fin 0 → Fin S4096x4096.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x512_d0_w32 : S512x512.Iotas .tc 32 [0]
  iota_S512x512_d1_w32 : S512x512.Iotas .tc 32 [1]
  natLt_1_32 : 1 < 32
  bcast_S4096x4096_S1x4096x4096_1_2 : S4096x4096.BroadcastsInDim S1x4096x4096 (![1, 2] : Fin 2 → Fin S1x4096x4096.rank)
  concatenates_S1x4096x4096_S1x4096x4096_S2x4096x4096_d0 : Shape.Concatenates [S1x4096x4096, S1x4096x4096] S2x4096x4096 0
  scatter_S4096x4096_S200000x2_S200000_n_01_01_1_wf : ScatterDims.WF S4096x4096 S200000x2 S200000 [] [0, 1] [0, 1] 1
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .bf16 = 32 ∨ (Rect.block (s := S4096x4096) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .bf16 = 32 ∨ (Rect.block (s := S4096x4096) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .bf16 = 32 ∨ (Rect.block (s := S4096x4096) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .bf16 = 32 ∨ (Rect.block (s := S4096x4096) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .bf16 = 32 ∨ (Rect.block (s := S4096x4096) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .bf16 = 32 ∨ (Rect.block (s := S4096x4096) S512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .bf16 = 32 ∨ (Rect.block (s := S4096x4096) S512x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x4096.size a
  hwx0_7 : ∀ i : grid0.Coords, EltTy.bits .bf16 = 32 ∨ (Rect.block (s := S4096x4096) S512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x4096.size a
  hwx0_8 : ∀ i : grid0.Coords, EltTy.bits .f32 = 32 ∨ (Rect.block (s := S4096x4096) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x4096.size a
  hwx0_9 : ∀ i : grid0.Coords, EltTy.bits .f32 = 32 ∨ (Rect.block (s := S4096x4096) S512x512.size (cc0_transform_9 i) (hinb0_9 i)).WholeWords (EltTy.packing .f32)

variable [Facts₀]

def scatter_S4096x4096_S200000x2_S200000_n_01_01_1 : ScatterDims S4096x4096 S200000x2 S200000 where
  updateWindowDims := []
  insertedWindowDims := [0, 1]
  scatterDimsToOperandDims := [0, 1]
  indexVectorDim := 1
  wf := scatter_S4096x4096_S200000x2_S200000_n_01_01_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v95) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v95) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v96) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v96) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v97) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v98) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v99) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v100) S512x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v101_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v101_1) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S2x200000 : Shape := ⟨2, ![2, 200000]⟩
abbrev S_ : Shape := ⟨0, ![]⟩
abbrev S4096x4096 : Shape := ⟨2, ![4096, 4096]⟩
abbrev S1x200000 : Shape := ⟨2, ![1, 200000]⟩
abbrev S200000 : Shape := ⟨1, ![200000]⟩
abbrev S200000x1 : Shape := ⟨2, ![200000, 1]⟩
abbrev S200000x2 : Shape := ⟨2, ![200000, 2]⟩
abbrev S1x4096x4096 : Shape := ⟨3, ![1, 4096, 4096]⟩
abbrev S2x4096x4096 : Shape := ⟨3, ![2, 4096, 4096]⟩

abbrev nBuf : Space → Nat
  | .hbm => 168
  | .vmem => 0
  | .smem => 0
  | _ => 0

abbrev hbmTy0_0 (i : Nat) : BufTy := match i % 128 with
  | 0 => ⟨S2x200000, .i32⟩
  | 1 => ⟨S2x200000, .i32⟩
  | 2 => ⟨S2x200000, .i32⟩
  | 3 => ⟨S2x200000, .i32⟩
  | 4 => ⟨S_, .f32⟩
  | 5 => ⟨S4096x4096, .f32⟩
  | 6 => ⟨S1x200000, .i32⟩
  | 7 => ⟨S200000, .i32⟩
  | 8 => ⟨S1x200000, .i32⟩
  | 9 => ⟨S200000, .i32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x1, .i32⟩
  | 26 => ⟨S200000x2, .i32⟩
  | 27 => ⟨S_, .f32⟩
  | 28 => ⟨S200000, .f32⟩
  | 29 => ⟨S4096x4096, .f32⟩
  | 30 => ⟨S_, .f32⟩
  | 31 => ⟨S4096x4096, .f32⟩
  | 32 => ⟨S1x200000, .i32⟩
  | 33 => ⟨S200000, .i32⟩
  | 34 => ⟨S1x200000, .i32⟩
  | 35 => ⟨S200000, .i32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x1, .i32⟩
  | 52 => ⟨S200000x2, .i32⟩
  | 53 => ⟨S_, .f32⟩
  | 54 => ⟨S200000, .f32⟩
  | 55 => ⟨S4096x4096, .f32⟩
  | 56 => ⟨S_, .f32⟩
  | 57 => ⟨S4096x4096, .f32⟩
  | 58 => ⟨S1x200000, .i32⟩
  | 59 => ⟨S200000, .i32⟩
  | 60 => ⟨S1x200000, .i32⟩
  | 61 => ⟨S200000, .i32⟩
  | 62 => ⟨S_, .i32⟩
  | 63 => ⟨S200000, .i32⟩
  | 64 => ⟨S200000, .i1⟩
  | 65 => ⟨S_, .i32⟩
  | 66 => ⟨S200000, .i32⟩
  | 67 => ⟨S200000, .i32⟩
  | 68 => ⟨S200000, .i32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S200000x1, .i32⟩
  | 78 => ⟨S200000x2, .i32⟩
  | 79 => ⟨S_, .f32⟩
  | 80 => ⟨S200000, .f32⟩
  | 81 => ⟨S4096x4096, .f32⟩
  | 82 => ⟨S_, .f32⟩
  | 83 => ⟨S4096x4096, .f32⟩
  | 84 => ⟨S1x200000, .i32⟩
  | 85 => ⟨S200000, .i32⟩
  | 86 => ⟨S1x200000, .i32⟩
  | 87 => ⟨S200000, .i32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S200000x1, .i32⟩
  | 104 => ⟨S200000x2, .i32⟩
  | 105 => ⟨S_, .f32⟩
  | 106 => ⟨S200000, .f32⟩
  | 107 => ⟨S4096x4096, .f32⟩
  | 108 => ⟨S4096x4096, .f32⟩
  | 109 => ⟨S_, .f32⟩
  | 110 => ⟨S4096x4096, .f32⟩
  | 111 => ⟨S4096x4096, .f32⟩
  | 112 => ⟨S4096x4096, .f32⟩
  | 113 => ⟨S4096x4096, .f32⟩
  | 114 => ⟨S4096x4096, .f32⟩
  | 115 => ⟨S_, .f32⟩
  | 116 => ⟨S4096x4096, .f32⟩
  | 117 => ⟨S4096x4096, .f32⟩
  | 118 => ⟨S4096x4096, .f32⟩
  | 119 => ⟨S4096x4096, .f32⟩
  | 120 => ⟨S_, .f32⟩
  | 121 => ⟨S4096x4096, .f32⟩
  | 122 => ⟨S4096x4096, .f32⟩
  | 123 => ⟨S4096x4096, .f32⟩
  | 124 => ⟨S4096x4096, .i32⟩
  | 125 => ⟨S4096x4096, .i32⟩
  | 126 => ⟨S_, .i32⟩
  | 127 => ⟨S4096x4096, .i32⟩
  | _ => ⟨S2x200000, .i32⟩

abbrev hbmTy0_1 (i : Nat) : BufTy := match i % 128 with
  | 0 => ⟨S4096x4096, .i32⟩
  | 1 => ⟨S4096x4096, .i1⟩
  | 2 => ⟨S4096x4096, .f32⟩
  | 3 => ⟨S_, .f32⟩
  | 4 => ⟨S4096x4096, .f32⟩
  | 5 => ⟨S4096x4096, .f32⟩
  | 6 => ⟨S4096x4096, .f32⟩
  | 7 => ⟨S4096x4096, .f32⟩
  | 8 => ⟨S4096x4096, .f32⟩
  | 9 => ⟨S4096x4096, .f32⟩
  | 10 => ⟨S4096x4096, .f32⟩
  | 11 => ⟨S4096x4096, .f32⟩
  | 12 => ⟨S4096x4096, .f32⟩
  | 13 => ⟨S4096x4096, .f32⟩
  | 14 => ⟨S_, .f32⟩
  | 15 => ⟨S4096x4096, .f32⟩
  | 16 => ⟨S4096x4096, .i32⟩
  | 17 => ⟨S_, .i32⟩
  | 18 => ⟨S4096x4096, .i32⟩
  | 19 => ⟨S4096x4096, .i32⟩
  | 20 => ⟨S4096x4096, .i32⟩
  | 21 => ⟨S4096x4096, .i1⟩
  | 22 => ⟨S_, .f32⟩
  | 23 => ⟨S4096x4096, .f32⟩
  | 24 => ⟨S4096x4096, .f32⟩
  | 25 => ⟨S4096x4096, .f32⟩
  | 26 => ⟨S_, .f32⟩
  | 27 => ⟨S4096x4096, .f32⟩
  | 28 => ⟨S4096x4096, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S4096x4096, .f32⟩
  | 35 => ⟨S4096x4096, .f32⟩
  | 36 => ⟨S4096x4096, .f32⟩
  | 37 => ⟨S1x4096x4096, .f32⟩
  | 38 => ⟨S1x4096x4096, .f32⟩
  | 39 => ⟨S2x4096x4096, .f32⟩
  | _ => ⟨S2x200000, .i32⟩

abbrev hbmTy (i : Nat) : BufTy := match i / 128 with
  | 0 => hbmTy0_0 i
  | 1 => hbmTy0_1 i
  | _ => ⟨S2x200000, .i32⟩

abbrev bufTy : (tb : Table) → Fin (tcTables nBuf tb) → BufTy
  | .hbm, ⟨i, _⟩ => hbmTy i
  | _, _ => ⟨S2x200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_c_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_13 : Ref sig .tc := ⟨.hbm, 69, rfl⟩
abbrev main_v50 : Ref sig .tc := ⟨.hbm, 70, rfl⟩
abbrev main_v51 : Ref sig .tc := ⟨.hbm, 71, rfl⟩
abbrev main_c_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_17 : Ref sig .tc := ⟨.hbm, 88, rfl⟩
abbrev main_v65 : Ref sig .tc := ⟨.hbm, 89, rfl⟩
abbrev main_v66 : Ref sig .tc := ⟨.hbm, 90, rfl⟩
abbrev main_c_18 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_19 : Ref sig .tc := ⟨.hbm, 95, rfl⟩
abbrev main_v70 : Ref sig .tc := ⟨.hbm, 96, rfl⟩
abbrev main_v71 : Ref sig .tc := ⟨.hbm, 97, rfl⟩
abbrev main_c_20 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_21 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_22 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_23 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_24 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_25 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_26 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_27 : Ref sig .tc := ⟨.hbm, 142, rfl⟩
abbrev main_v109 : Ref sig .tc := ⟨.hbm, 143, rfl⟩
abbrev main_call0_v0 : Ref sig .tc := ⟨.hbm, 144, rfl⟩
abbrev main_call0_c : Ref sig .tc := ⟨.hbm, 145, rfl⟩
abbrev main_call0_v1 : Ref sig .tc := ⟨.hbm, 146, rfl⟩
abbrev main_call0_v2 : Ref sig .tc := ⟨.hbm, 147, rfl⟩
abbrev main_call0_v3 : Ref sig .tc := ⟨.hbm, 148, rfl⟩
abbrev main_call0_v4 : Ref sig .tc := ⟨.hbm, 149, rfl⟩
abbrev main_call0_cst : Ref sig .tc := ⟨.hbm, 150, rfl⟩
abbrev main_call0_v5 : Ref sig .tc := ⟨.hbm, 151, rfl⟩
abbrev main_v110 : Ref sig .tc := ⟨.hbm, 152, rfl⟩
abbrev main_v111 : Ref sig .tc := ⟨.hbm, 153, rfl⟩
abbrev main_cst_28 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_29 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bcast_S4096x4096_S1x4096x4096_1_2 : S4096x4096.BroadcastsInDim S1x4096x4096 (![1, 2] : Fin 2 → Fin S1x4096x4096.rank)
  concatenates_S1x4096x4096_S1x4096x4096_S2x4096x4096_d0 : Shape.Concatenates [S1x4096x4096, S1x4096x4096] S2x4096x4096 0
  scatter_S4096x4096_S200000x2_S200000_n_01_01_1_wf : ScatterDims.WF S4096x4096 S200000x2 S200000 [] [0, 1] [0, 1] 1
  dot_S4096x4096_S4096x4096_S4096x4096_1_0_0_1_n_n_wf : DotDims.WF S4096x4096 S4096x4096 S4096x4096 [1] [0] [0] [1] [] []

variable [Facts₀]

def scatter_S4096x4096_S200000x2_S200000_n_01_01_1 : ScatterDims S4096x4096 S200000x2 S200000 where
  updateWindowDims := []
  insertedWindowDims := [0, 1]
  scatterDimsToOperandDims := [0, 1]
  indexVectorDim := 1
  wf := scatter_S4096x4096_S200000x2_S200000_n_01_01_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KBody.lean ====
/- The kernel body of the blocked triangle product, prepared for its runs: the two branch conditions of the body
   in closed form over the 8 x 8 x 8 grid (the innermost coordinate decides both: the first holds where it is 0,
   the second where it is 7), the staging memrefs of the ten windows at a grid point, the two accumulators the
   body carries from point to point, and the invariant of the pipeline with the accumulators as owned memrefs.
   Everything is stated for an arbitrary float instance. -/
import proofs.«154049_j57183194579701_2_alg».proof.Proof.Gen.KernelIdeal.Launch
import proofs.«154049_j57183194579701_2_alg».proof.Proof.Gen.KernelIdeal.Skeleton
import proofs.«154049_j57183194579701_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 512 x 512 extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first condition of the body (the accumulators are zero-filled under it): the innermost grid coordinate
    compared with 0, through the same integer chain the body computes. -/
abbrev cond0_0 (i : grid0.Coords) : Prop := (Scalar.cmpi .ne (Scalar.extui (Scalar.cmpi .eq (BitVec.ofNat 32 (i 2).val) 0#32)) 0#32) = 1#1
/-- The innermost coordinate of the linear point `t` is `t % 8`: the first condition holds exactly where it is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second condition of the body (the two results are formed and stored under it): the innermost grid
    coordinate compared with 7. -/
abbrev cond0_1 (i : grid0.Coords) : Prop := k0_cond2 i = 1#1
/-- It holds exactly where `t % 8 = 7`: at the last step of each accumulation. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## The memrefs the body is called with -/

/-- One staging buffer of each result window, through which its contents are stated (a read of covering writes
    does not depend on the choice). -/
abbrev VO0_8 : View sig .tc .vmem S512x512 .f32 := (Memref.whole cc0_stg8_0 : Memref sig .tc .vmem S512x512 .f32).view
abbrev VO0_9 : View sig .tc .vmem S512x512 .f32 := (Memref.whole cc0_stg9_0 : Memref sig .tc .vmem S512x512 .f32).view
/-- Each window's current staging memref at point `t`, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .f32 := win0_9.stage (cfg0.slots t 9)
abbrev hs0_9 (t : Fin cfg0.N) : (ms0_9 t).IsWhole := hstage0_9 ((cfg0.slots t 9).cast nbuf0_9)
/-- The two accumulators: whole scoped buffers of the kernel's own, passed beside the windows. -/
abbrev scM0_0 : Memref sig .tc .vmem S512x512 .f32 := Memref.whole cc0_scratch0
abbrev scM0_1 : Memref sig .tc .vmem S512x512 .f32 := Memref.whole cc0_scratch1
/-- The accumulators as views: what they hold after a point is stated through these. -/
abbrev VS0_0 : View sig .tc .vmem S512x512 .f32 := scM0_0.view
abbrev VS0_1 : View sig .tc .vmem S512x512 .f32 := scM0_1.view

/-- The body at point `t` is the kernel function on these memrefs. -/
theorem bodyAt0_eq (t : Fin cfg0.N) :
    (bodyAt0 t : Prog (TpuEff nD τ sig (Elt F) Λ₀ .tc) PUnit)
      = cc0__triangle_kernel (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) := rfl

/-- The pipeline's invariant beside the windows: the two accumulators, each an owned memref at some contents, and
    the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.KRunA.lean ====
/- The kernel body run at the FIRST step of an accumulation (innermost coordinate 0: the first condition holds, the second fails). The body zero-fills both accumulators and then adds this step's two block products to them: after it accumulator 0 holds 0 + (s-block) x (s-block) and accumulator 1 holds 0 + (d-block) x (d-block). It reads the four s / d blocks and nothing of the other four inputs; it stores into neither result block. What the accumulators held before is irrelevant (read once, then overwritten before any use).
   The statement is a triple over owned memrefs: from the twelve memrefs owned — an input the step reads at named
   contents, an input it does not read and a result block it does not store into at arbitrary contents handed back
   unchanged — the body runs to any continuation that is given the memrefs back, each one the step stored into as
   its view's `writes` of a list of pieces (last store first). The lists are components of the definition: they are
   found by running the body, and are what the later modules read the stored values from. -/
import proofs.«154049_j57183194579701_2_alg».proof.Proof.KBody

-- membership in a rectangle of 512 x 512 extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The pieces the body's stores leave in the two result blocks (`L8`, `L9`) and the two accumulators (`LS0`, `LS1`)
    in this case, with the proof of the body's triple stated over them. -/
noncomputable def kernelRun0_A (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) :
    Σ' (L8 : List (View.Piece (Elt F) S512x512 .f32)) (L9 : List (View.Piece (Elt F) S512x512 .f32)) (LS0 : List (View.Piece (Elt F) S512x512 .f32)), { LS1 : List (View.Piece (Elt F) S512x512 .f32) //
      ∀ (xi4 : Vec F S512x512 .bf16) (xi5 : Vec F S512x512 .bf16) (xi6 : Vec F S512x512 .bf16) (xi7 : Vec F S512x512 .bf16) (xi8 : Vec F S512x512 .f32) (xi9 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ owns (c : Thread nD τ) arg10 fullShare xi7 ∗ owns (c : Thread nD τ) arg11 fullShare xi8 ∗ owns (c : Thread nD τ) arg12 fullShare xi9 ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ owns (c : Thread nD τ) arg10 fullShare xi7 ∗ owns (c : Thread nD τ) arg11 fullShare xi8 ∗ owns (c : Thread nD τ) arg12 fullShare xi9 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__triangle_kernel i arg3 harg3 arg4 harg4 arg5 harg5 arg6 harg6 arg7 harg7 arg8 harg8 arg9 harg9 arg10 harg10 arg11 harg11 arg12 harg12 arg13 harg13 arg14 harg14) K } := by
  refine ⟨[], [], ?_, ?_, fun xi4 xi5 xi6 xi7 xi8 xi9 E K => ?run⟩
  case run =>
    simp only [cc0__triangle_kernel_eq_skeleton]; unfold cc0__triangle_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [HS0]; · iexists _; iexact HS0
    iexists _; iexact HS1

end Cert.KernelIdeal.Body

end
-- ==== Proof.KRunB.lean ====
/- The kernel body run at a MIDDLE step of an accumulation (innermost coordinate 1..6: both conditions fail). The body adds this step's two block products to what the accumulators hold: accumulator 0 goes from xs0 to xs0 + (s-block) x (s-block), accumulator 1 from xs1 to xs1 + (d-block) x (d-block). It reads the four s / d blocks and nothing of the other four inputs; it stores into neither result block.
   The statement is a triple over owned memrefs: from the twelve memrefs owned — an input the step reads at named
   contents, an input it does not read and a result block it does not store into at arbitrary contents handed back
   unchanged — the body runs to any continuation that is given the memrefs back, each one the step stored into as
   its view's `writes` of a list of pieces (last store first). The lists are components of the definition: they are
   found by running the body, and are what the later modules read the stored values from. -/
import proofs.«154049_j57183194579701_2_alg».proof.Proof.KRunA

-- membership in a rectangle of 512 x 512 extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The pieces the body's stores leave in the two result blocks (`L8`, `L9`) and the two accumulators (`LS0`, `LS1`)
    in this case, with the proof of the body's triple stated over them. -/
noncomputable def kernelRun0_B (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) :
    Σ' (L8 : List (View.Piece (Elt F) S512x512 .f32)) (L9 : List (View.Piece (Elt F) S512x512 .f32)) (LS0 : List (View.Piece (Elt F) S512x512 .f32)), { LS1 : List (View.Piece (Elt F) S512x512 .f32) //
      ∀ (xi4 : Vec F S512x512 .bf16) (xi5 : Vec F S512x512 .bf16) (xi6 : Vec F S512x512 .bf16) (xi7 : Vec F S512x512 .bf16) (xi8 : Vec F S512x512 .f32) (xi9 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ owns (c : Thread nD τ) arg10 fullShare xi7 ∗ owns (c : Thread nD τ) arg11 fullShare xi8 ∗ owns (c : Thread nD τ) arg12 fullShare xi9 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__triangle_kernel i arg3 harg3 arg4 harg4 arg5 harg5 arg6 harg6 arg7 harg7 arg8 harg8 arg9 harg9 arg10 harg10 arg11 harg11 arg12 harg12 arg13 harg13 arg14 harg14) K } := by
  refine ⟨[], [], ?_, ?_, fun xi4 xi5 xi6 xi7 xi8 xi9 E K => ?run⟩
  case run =>
    simp only [cc0__triangle_kernel_eq_skeleton]; unfold cc0__triangle_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [HS0]; · iexists _; iexact HS0
    iexists _; iexact HS1

end Cert.KernelIdeal.Body

end
-- ==== Proof.KRunC.lean ====
/- The kernel body run at the LAST step of an accumulation (innermost coordinate 7: the first condition fails, the second holds). The body adds this step's two block products to the accumulators (ss := xs0 + s x s, dd := xs1 + d x d), and then forms and stores both results: (pt + p1 - 2 pt p1) + (0.5 (ss + dd)) tri (1 - p1) into the first result block and (nt + n1 - 2 nt n1) + (0.5 (ss - dd)) tri (1 - n1) into the second, tri the strict upper triangle in GLOBAL coordinates of the block. It reads all eight input blocks.
   The statement is a triple over owned memrefs: from the twelve memrefs owned — an input the step reads at named
   contents, an input it does not read and a result block it does not store into at arbitrary contents handed back
   unchanged — the body runs to any continuation that is given the memrefs back, each one the step stored into as
   its view's `writes` of a list of pieces (last store first). The lists are components of the definition: they are
   found by running the body, and are what the later modules read the stored values from. -/
import proofs.«154049_j57183194579701_2_alg».proof.Proof.KRunB

-- membership in a rectangle of 512 x 512 extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The pieces the body's stores leave in the two result blocks (`L8`, `L9`) and the two accumulators (`LS0`, `LS1`)
    in this case, with the proof of the body's triple stated over them. -/
noncomputable def kernelRun0_C (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) :
    Σ' (L8 : List (View.Piece (Elt F) S512x512 .f32)) (L9 : List (View.Piece (Elt F) S512x512 .f32)) (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__triangle_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__triangle_kernel_eq_skeleton]; unfold cc0__triangle_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg13.eq_unread hfs0; obtain rfl := harg14.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [HS0]; · iexists _; iexact HS0
    iexists _; iexact HS1

end Cert.KernelIdeal.Body

end
-- ==== Proof.KOuts.lean ====
/- What the kernel body leaves behind, case by case and then point by point. First, where the ten windows are idle.
   Then, at the region's entry contents `V` (a parameter): each window's block at a grid point, and that an input's staging
   buffer holds its block at every point. For each of the three cases: that the pieces the case's run found for a buffer
   cover the buffer (each store is of a whole 512 x 512 block), and the buffer's contents read back from those pieces.
   Last, by recursion over the linear grid point, the contents of the two result blocks and of the two accumulators
   after every point (the accumulators are carried: a step's accumulators start from what the step before left), with
   one equation per case. -/
import proofs.«154049_j57183194579701_2_alg».proof.Proof.KRunC

-- membership in a rectangle of 512 x 512 extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Input window 6 is never idle. -/
theorem liveAt0_6 : ∀ t : Fin cfg0.N, cfg0.idle 6 (grid0.coords t) = false := by decide +kernel
/-- Input window 7 is never idle. -/
theorem liveAt0_7 : ∀ t : Fin cfg0.N, cfg0.idle 7 (grid0.coords t) = false := by decide +kernel
/-- At the first step of an accumulation result window 8 is idle (nothing is stored into it) and its block is not written back. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
/-- The same at a middle step. -/
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
/-- At the last step result window 8 is live: the step stores into it. -/
theorem liveAt0_8_C : ∀ t : Fin cfg0.N, ¬cond0_0 (grid0.coords t) → cond0_1 (grid0.coords t) → cfg0.idle 8 (grid0.coords t) = false := by decide +kernel
/-- At the first step of an accumulation result window 9 is idle (nothing is stored into it) and its block is not written back. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
/-- The same at a middle step. -/
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
/-- At the last step result window 9 is live: the step stores into it. -/
theorem liveAt0_9_C : ∀ t : Fin cfg0.N, ¬cond0_0 (grid0.coords t) → cond0_1 (grid0.coords t) → cfg0.idle 9 (grid0.coords t) = false := by decide +kernel

section Region
-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not, for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or not, for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetches it or not, for any proof data whose
    array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetches it or not (it is
    fetched only at the first step of an accumulation, and its block index does not move until the next one), for any proof data whose
    array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetches it or not (it is
    fetched only at the first step of an accumulation, and its block index does not move until the next one), for any proof data whose
    array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the point fetches it or not (it is
    fetched only at the first step of an accumulation, and its block index does not move until the next one), for any proof data whose
    array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, whether the point fetches it or not (it is
    fetched only at the first step of an accumulation, and its block index does not move until the next one), for any proof data whose
    array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## Case A: the first step of an accumulation -/

/-- This step stores nothing into result block 0: no pieces, and this reading of them is a placeholder that nothing
    consults (the block is neither written back nor read at such a point). -/
def out0_A_8 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) : Vec F S512x512 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).1)

/-- This step stores nothing into result block 1: no pieces, and this reading of them is a placeholder that nothing
    consults (the block is neither written back nor read at such a point). -/
def out0_A_9 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) : Vec F S512x512 .f32 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.1)

/-- The pieces this step stores into accumulator 0 cover it (each store is of the whole accumulator). -/
theorem scover0_A_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) (y : S512x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.1 S512x512.size (by sl_kernel_rfl) y

/-- What this step leaves in accumulator 0: its pieces read back. -/
def sout0_A_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) : Vec F S512x512 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.1)

/-- The pieces this step stores into accumulator 1 cover it (each store is of the whole accumulator). -/
theorem scover0_A_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) (y : S512x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.2.1 S512x512.size (by sl_kernel_rfl) y

/-- What this step leaves in accumulator 1: its pieces read back. -/
def sout0_A_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) : Vec F S512x512 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.2.1)

/-! ## Case B: a middle step of an accumulation -/

/-- This step stores nothing into result block 0: no pieces, and this reading of them is a placeholder that nothing
    consults (the block is neither written back nor read at such a point). -/
def out0_B_8 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) : Vec F S512x512 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).1)

/-- This step stores nothing into result block 1: no pieces, and this reading of them is a placeholder that nothing
    consults (the block is neither written back nor read at such a point). -/
def out0_B_9 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) : Vec F S512x512 .f32 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.1)

/-- The pieces this step stores into accumulator 0 cover it (each store is of the whole accumulator). -/
theorem scover0_B_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) (y : S512x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.1 S512x512.size (by sl_kernel_rfl) y

/-- What this step leaves in accumulator 0: its pieces read back. -/
def sout0_B_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) : Vec F S512x512 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.1)

/-- The pieces this step stores into accumulator 1 cover it (each store is of the whole accumulator). -/
theorem scover0_B_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) (y : S512x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.2.1 S512x512.size (by sl_kernel_rfl) y

/-- What this step leaves in accumulator 1: its pieces read back. -/
def sout0_B_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) : Vec F S512x512 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.2.1)

/-! ## Case C: the last step of an accumulation -/

/-- The pieces the last step stores into result block 0 tile the block (one store of the whole block), so every index
    of the block lies in one of them. -/
theorem cover0_C_8 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1 S512x512.size (by sl_kernel_rfl) y

/-- What the last step leaves in result block 0: its pieces read back (over arbitrary contents, all of which they cover). -/
def out0_C_8 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) : Vec F S512x512 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1)

/-- The pieces the last step stores into result block 1 tile the block (one store of the whole block), so every index
    of the block lies in one of them. -/
theorem cover0_C_9 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1 S512x512.size (by sl_kernel_rfl) y

/-- What the last step leaves in result block 1: its pieces read back (over arbitrary contents, all of which they cover). -/
def out0_C_9 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) : Vec F S512x512 .f32 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1)

/-- The pieces this step stores into accumulator 0 cover it (each store is of the whole accumulator). -/
theorem scover0_C_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1 S512x512.size (by sl_kernel_rfl) y

/-- What this step leaves in accumulator 0: its pieces read back. -/
def sout0_C_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) : Vec F S512x512 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1)

/-- The pieces this step stores into accumulator 1 cover it (each store is of the whole accumulator). -/
theorem scover0_C_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1 S512x512.size (by sl_kernel_rfl) y

/-- What this step leaves in accumulator 1: its pieces read back. -/
def sout0_C_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) : Vec F S512x512 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1)

/-! ## What the result blocks and the accumulators hold after each point -/

/-- The four contents after a point of case A (first step): the two result blocks' placeholders and the two accumulators,
    from the point's memrefs and its s / d blocks. -/
abbrev ptA0 (c : Dev nD) (t : Fin cfg0.N) (h0 : t.val % 8 = 0) (h1 : ¬t.val % 8 = 7) : (Vec F S512x512 .f32 × Vec F S512x512 .f32) × (Vec F S512x512 .f32 × Vec F S512x512 .f32) :=
  ((out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)), (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)))

/-- After a point of case B (middle step), over the accumulators' contents `prev` left by the point before. -/
abbrev ptB0 (c : Dev nD) (t : Fin cfg0.N) (h0 : ¬t.val % 8 = 0) (h1 : ¬t.val % 8 = 7) (prev : (Vec F S512x512 .f32 × Vec F S512x512 .f32) × (Vec F S512x512 .f32 × Vec F S512x512 .f32)) : (Vec F S512x512 .f32 × Vec F S512x512 .f32) × (Vec F S512x512 .f32 × Vec F S512x512 .f32) :=
  ((out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) prev.2.1 prev.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) prev.2.1 prev.2.2), (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) prev.2.1 prev.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) prev.2.1 prev.2.2))

/-- After a point of case C (last step), over the accumulators' contents `prev` left by the point before. -/
abbrev ptC0 (c : Dev nD) (t : Fin cfg0.N) (h0 : ¬t.val % 8 = 0) (h1 : t.val % 8 = 7) (prev : (Vec F S512x512 .f32 × Vec F S512x512 .f32) × (Vec F S512x512 .f32 × Vec F S512x512 .f32)) : (Vec F S512x512 .f32 × Vec F S512x512 .f32) × (Vec F S512x512 .f32 × Vec F S512x512 .f32) :=
  ((out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) prev.2.1 prev.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) prev.2.1 prev.2.2), (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) prev.2.1 prev.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) prev.2.1 prev.2.2))

/-- THE ACCUMULATION. What the two result blocks' staging buffers (first pair) and the two accumulators (second pair) hold
    after the body at linear point `n`: the case `n % 8` selects (0: first step; 7: last step; otherwise a middle step),
    run at the point's memrefs and input blocks, the accumulators at what point `n - 1` left in them. `n % 8` cannot be
    both 0 and 7. -/
def outsAt0 (c : Dev nD) : (n : ℕ) → n < cfg0.N → (Vec F S512x512 .f32 × Vec F S512x512 .f32) × (Vec F S512x512 .f32 × Vec F S512x512 .f32)
  | 0, hn => ptA0 V c ⟨0, hn⟩ (Nat.zero_mod _) (by show ¬(0 % 8 = 7); decide)
  | n + 1, hn =>
    if h0 : (n + 1) % 8 = 0 then
      if h1 : (n + 1) % 8 = 7 then
        False.elim (by omega)
      else
        ptA0 V c ⟨n + 1, hn⟩ h0 h1
    else
      if h1 : (n + 1) % 8 = 7 then
        ptC0 V c ⟨n + 1, hn⟩ h0 h1 (outsAt0 c n (Nat.lt_of_succ_lt hn))
      else
        ptB0 V c ⟨n + 1, hn⟩ h0 h1 (outsAt0 c n (Nat.lt_of_succ_lt hn))

/-- `outsAt0` at a point of case A: that case's contents. -/
theorem outsAt0_A (c : Dev nD) (t : Fin cfg0.N) (h0 : t.val % 8 = 0) (h1 : ¬t.val % 8 = 7) :
    outsAt0 V c t.val t.isLt = ptA0 V c t h0 h1 := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = ptB0 V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = ptC0 V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

end Region

end Cert.KernelIdeal.Body

end
-- ==== Proof.KRun.lean ====
/-
  The run of the kernel's program, for windows that SHARE an array.

  The pallas_call hands the array s to two windows (its row blocks and its column blocks) and the array d to two more, so
  its ten windows sit on eight buffers. Between two segments of @main the core holds every unscoped buffer whole; at the
  region's entry each shared array's full share is dealt in two halves, one per window — an input window only reads its
  array, and a half share is enough to read —, every other window takes its own array whole; at the exit the halves are
  joined again, at the contents the region found, since no write-back touches an input's array. @main is then three
  segments in order — the host operations before the region, the region, the host operations behind it —, each entered
  from what the one before it left, and the last state is read against the final memory: every unscoped buffer at the
  contents the last stretch leaves, so the four argument arrays end as launched (no host operation writes them and the
  region's two outputs are other buffers) and the result buffer ends at the two outputs' final arrays, each recast as a
  [1,4096,4096] slab, joined along the leading axis.

  Everything is stated for any region proof data `dat0` with the properties gathered in `Given` (its arrays are the
  region-entry contents, the shares above, nothing owed, the body obligation, the class's invariant at both ends), and for
  every float instance.
-/
import proofs.«154049_j57183194579701_2_alg».proof.Proof.Gen.KernelIdeal.Launch
import proofs.«154049_j57183194579701_2_alg».proof.Proof.Gen.KernelIdeal.Points
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The distinct buffers behind the ten windows' arrays. -/
theorem arrImage : (Finset.univ.image (Pipeline.arrRef spec0)) = ([main_v95, main_v96, main_v97, main_v98, main_v99, main_v100, main_v101_0, main_v101_1] : List (Ref sig .tc)).toFinset := by decide

/-- A buffer's full share is its two halves, at one contents. -/
theorem share_split (ℓ : Loc nD τ sig) (f : ℓ.ty.Contents (Elt F)) :
    (ℓ ↦{fullShare} f : sProp 𝕄) ⊣⊢ iprop((ℓ ↦{fullShare.left} f) ∗ (ℓ ↦{fullShare.right} f)) :=
  pointsTo_share (I := Finset.univ) (ℓ := ℓ) (f := f) (Ix := Unit) (Name := ℕ) (U := UR sig nD τ) (Lvl := ℕ) (PosShare.mem_left_op_right fullShare)

theorem arrBufs_eq (c : Dev nD) (V : (b : Ref sig .tc) → Buf (Elt F) ((c.tc : Thread nD τ).loc b)) :
    (Pipeline.arrBufs spec0 c V : sProp 𝕄) = iprop(((c.tc : Thread nD τ).loc main_v95 ↦{fullShare} V main_v95) ∗ ((c.tc : Thread nD τ).loc main_v96 ↦{fullShare} V main_v96)
      ∗ ((c.tc : Thread nD τ).loc main_v97 ↦{fullShare} V main_v97) ∗ ((c.tc : Thread nD τ).loc main_v98 ↦{fullShare} V main_v98)
      ∗ ((c.tc : Thread nD τ).loc main_v99 ↦{fullShare} V main_v99) ∗ ((c.tc : Thread nD τ).loc main_v100 ↦{fullShare} V main_v100)
      ∗ ((c.tc : Thread nD τ).loc main_v101_0 ↦{fullShare} V main_v101_0) ∗ ((c.tc : Thread nD τ).loc main_v101_1 ↦{fullShare} V main_v101_1)) := by
  unfold Pipeline.arrBufs
  rw [bigSep_eq_bigSepL_of_eq _ arrImage (by decide)]
  rfl

/-- The share each window holds its array at: the two windows on one array a half each, every other window all of its own. -/
def sh : Fin 10 → PosShare TreeShare
  | ⟨0, _⟩ => fullShare.left | ⟨1, _⟩ => fullShare.right | ⟨2, _⟩ => fullShare.left | ⟨3, _⟩ => fullShare.right | _ => fullShare

theorem arrays_eq (c : Dev nD) (dat : Dat τ (Elt F) Unit ℕ (UR sig nD τ) ℕ cfg0 c) (hsh : ∀ w, dat.share w = sh w)
    (V : (b : Ref sig .tc) → Buf (Elt F) ((c.tc : Thread nD τ).loc b))
    (F' : (w : Fin cfg0.W) → Buf (Elt F) ((cfg0.win w).arr.view.loc (c.tc : Thread nD τ)))
    (hF : ∀ w, F' w = V (Pipeline.arrRef spec0 w)) :
    (dat.arrays F' : sProp 𝕄) = iprop(((c.tc : Thread nD τ).loc main_v95 ↦{fullShare.left} V main_v95) ∗ ((c.tc : Thread nD τ).loc main_v95 ↦{fullShare.right} V main_v95)
      ∗ ((c.tc : Thread nD τ).loc main_v96 ↦{fullShare.left} V main_v96) ∗ ((c.tc : Thread nD τ).loc main_v96 ↦{fullShare.right} V main_v96)
      ∗ ((c.tc : Thread nD τ).loc main_v97 ↦{fullShare} V main_v97) ∗ ((c.tc : Thread nD τ).loc main_v98 ↦{fullShare} V main_v98)
      ∗ ((c.tc : Thread nD τ).loc main_v99 ↦{fullShare} V main_v99) ∗ ((c.tc : Thread nD τ).loc main_v100 ↦{fullShare} V main_v100)
      ∗ ((c.tc : Thread nD τ).loc main_v101_0 ↦{fullShare} V main_v101_0) ∗ ((c.tc : Thread nD τ).loc main_v101_1 ↦{fullShare} V main_v101_1)) := by
  have h1 : (dat.arrays F' : sProp 𝕄) = bigSep Finset.univ fun w : Fin 10 => (((c.tc : Thread nD τ).loc (Pipeline.arrRef spec0 w)) ↦{sh w} V (Pipeline.arrRef spec0 w) : sProp 𝕄) := by
    unfold Dat.arrays
    exact bigSep_congr fun w _ => by rw [(arr_whole0 w).set_eq_univ, hsh w, hF w]
  rw [h1, bigSep_W0]
  rfl

/-! ## The buffers' contents at the segment boundaries -/

variable (m : (ℓ : Loc nD τ sig) → Buf (Elt F) ℓ) (ρ : Dev nD → PrngReg)

/-- Core `c`'s buffers at launch. -/
abbrev W0 : Dev nD → Valuation τ sig (Elt F) := fun c b => m (c, b)
/-- After the host operations before the region (the region's entry). -/
abbrev W1 : Dev nD → Valuation τ sig (Elt F) := fun c => StableHlo.after hostOps0 (W0 m c)
/-- The same read at the TensorCore's references (what the region's proof data take). -/
abbrev V1 : (c : Dev nD) → (b : Ref sig .tc) → Buf (Elt F) ((c : Thread nD τ).loc b) := fun c b => W1 m c b

/-- What is asked of the region's proof data: its arrays are the region-entry contents; the two windows on one array hold
    a half of it each; nothing is owed; the body obligation; the class's invariant at both ends. -/
structure Given (dat0 : (c : Dev nD) → Dat τ (Elt F) Unit ℕ (UR sig nD τ) ℕ cfg0 c) : Prop where
  hA : ∀ c w, (dat0 c).A w = V1 m c (Pipeline.arrRef spec0 w)
  hsh : ∀ c w, (dat0 c).share w = sh w
  howed : ∀ c t, (dat0 c).owed t = 0
  hrec : ∀ c t, (dat0 c).recorded t = Set.univ
  hbody : ∀ c, BodyObligation (dat0 c) (defs₀ (F := F)) Variants.none () Set.univ
  hin : ∀ c, Pipeline.ΦA spec0 c ⊢ (dat0 c).Φ 0
  hout : ∀ c, (dat0 c).Φ (Fin.last cfg0.N) ⊢ Pipeline.ΦA spec0 c

variable (dat0 : (c : Dev nD) → Dat τ (Elt F) Unit ℕ (UR sig nD τ) ℕ cfg0 c)

/-- At the region's exit: the two outputs' arrays at what the write-backs leave, every other buffer as entered. -/
def W2 (c : Dev nD) : Valuation τ sig (Elt F) :=
  Function.update (Function.update (W1 m c) (Proc.devRef .tc main_v101_0) ((dat0 c).arrAt 8 cfg0.N)) (Proc.devRef .tc main_v101_1) ((dat0 c).arrAt 9 cfg0.N)
abbrev V2 : (c : Dev nD) → (b : Ref sig .tc) → Buf (Elt F) ((c : Thread nD τ).loc b) := fun c b => W2 m dat0 c b
/-- After the host operations behind the region: the end. -/
abbrev W3 : Dev nD → Valuation τ sig (Elt F) := fun c => StableHlo.after hostOps1 (W2 m dat0 c)

theorem W2_of_ne (c : Dev nD) (b : Ref sig .tc) (h0 : b ≠ main_v101_0) (h1 : b ≠ main_v101_1) : W2 m dat0 c (Proc.devRef .tc b) = W1 m c (Proc.devRef .tc b) := by
  unfold W2
  rw [Function.update_of_ne (StableHlo.devRef_ne_of_ne h1), Function.update_of_ne (StableHlo.devRef_ne_of_ne h0)]
theorem W2_out0 (c : Dev nD) : W2 m dat0 c (Proc.devRef .tc main_v101_0) = (dat0 c).arrAt 8 cfg0.N := by
  unfold W2
  rw [Function.update_of_ne (StableHlo.devRef_ne_of_ne (by decide)), Function.update_self]
theorem W2_out1 (c : Dev nD) : W2 m dat0 c (Proc.devRef .tc main_v101_1) = (dat0 c).arrAt 9 cfg0.N := by
  unfold W2
  rw [Function.update_self]

/-! ## The region's arrays out of the unscoped buffers, and back -/

theorem split₀ (c : Dev nD) (V : (b : Ref sig .tc) → Buf (Elt F) ((c.tc : Thread nD τ).loc b)) :
    (unscopedBufs c V : sProp 𝕄) = iprop(Pipeline.arrBufs spec0 c V ∗ Pipeline.unscopedRest spec0 c V) :=
  Pipeline.unscopedBufs_split₀ (Ix := Unit) (Name := ℕ) (U := UR sig nD τ) (Lvl := ℕ) cfgs (0 : Fin 1) winFacts₀0.arr_unscoped c V

variable {m dat0}

/-- ENTRY: the unscoped buffers at the entry contents are the windows' arrays, each shared array dealt in halves to its two
    windows, beside the buffers that are no window's array. -/
theorem entry_split (hG : Given m dat0) (c : Dev nD) :
    (unscopedBufs c (V1 m c) : sProp 𝕄) ⊢ iprop((dat0 c).arrays ((dat0 c).arrAt · 0) ∗ Pipeline.unscopedRest spec0 c (V1 m c)) := by
  rw [split₀]
  refine sep_mono ?_ .rfl
  rw [arrBufs_eq, arrays_eq c (dat0 c) (hG.hsh c) (V1 m c) (fun w => (dat0 c).arrAt w 0) (fun w => (show (dat0 c).arrAt w 0 = (dat0 c).A w from rfl).trans (hG.hA c w))]
  iintro ⟨H95, H96, H97, H98, H99, H100, H1010, H1011⟩
  ihave A := (share_split _ _).1 $$ H95
  icases A with ⟨A0, A1⟩
  ihave B := (share_split _ _).1 $$ H96
  icases B with ⟨B0, B1⟩
  isplitl [A0]; · iexact A0
  isplitl [A1]; · iexact A1
  isplitl [B0]; · iexact B0
  isplitl [B1]; · iexact B1
  isplitl [H97]; · iexact H97
  isplitl [H98]; · iexact H98
  isplitl [H99]; · iexact H99
  isplitl [H100]; · iexact H100
  isplitl [H1010]; · iexact H1010
  iexact H1011

/-- Every window is an input or one of the two outputs; an input's array is neither output's. -/
theorem in_or_out : ∀ w : Fin 10, (cfg0.win w).isOut = false ∨ w = 8 ∨ w = 9 := by decide
theorem in_ne_out0 : ∀ w : Fin 10, (cfg0.win w).isOut = false → Pipeline.arrRef spec0 w ≠ main_v101_0 := by decide
theorem in_ne_out1 : ∀ w : Fin 10, (cfg0.win w).isOut = false → Pipeline.arrRef spec0 w ≠ main_v101_1 := by decide

/-- After the last point every window's array holds what the exit contents say: an input's array is never written, an
    output's is the fold of its write-backs. -/
theorem final_eq (hG : Given m dat0) (c : Dev nD) (w : Fin cfg0.W) : (dat0 c).arrAt w cfg0.N = V2 m dat0 c (Pipeline.arrRef spec0 w) := by
  rcases in_or_out w with h | rfl | rfl
  · exact (((dat0 c).arrAt_in w h _).trans (hG.hA c w)).trans (W2_of_ne m dat0 c _ (in_ne_out0 w h) (in_ne_out1 w h)).symm
  · exact (W2_out0 m dat0 c).symm
  · exact (W2_out1 m dat0 c).symm

/-- A buffer that is no window's array is not touched by the region. -/
theorem rest_eq (c : Dev nD) (b : Ref sig .tc) (hb : b ∉ Finset.univ.image (Pipeline.arrRef spec0)) : V2 m dat0 c b = V1 m c b :=
  W2_of_ne m dat0 c b (fun e => hb (e ▸ Finset.mem_image.mpr ⟨8, Finset.mem_univ _, rfl⟩)) (fun e => hb (e ▸ Finset.mem_image.mpr ⟨9, Finset.mem_univ _, rfl⟩))

/-- EXIT: the windows' arrays at their final contents — the halves of each shared array joined again, at the contents the
    region found (an input's array is unchanged, so the two halves agree) — and the untouched rest are the unscoped
    buffers at the exit contents. -/
theorem exit_join (hG : Given m dat0) (c : Dev nD) :
    iprop((dat0 c).arrays ((dat0 c).arrAt · cfg0.N) ∗ Pipeline.unscopedRest spec0 c (V1 m c)) ⊢ (unscopedBufs c (V2 m dat0 c) : sProp 𝕄) := by
  rw [split₀]
  refine sep_mono ?_ (Entails.of_eq ?_)
  · rw [arrBufs_eq, arrays_eq c (dat0 c) (hG.hsh c) (V2 m dat0 c) _ (final_eq hG c)]
    iintro ⟨A0, A1, B0, B1, H97, H98, H99, H100, H1010, H1011⟩
    isplitl [A0 A1]
    · iapply (share_split _ _).2
      isplitl [A0] <;> iassumption
    isplitl [B0 B1]
    · iapply (share_split _ _).2
      isplitl [B0] <;> iassumption
    isplitl [H97]; · iexact H97
    isplitl [H98]; · iexact H98
    isplitl [H99]; · iexact H99
    isplitl [H100]; · iexact H100
    isplitl [H1010]; · iexact H1010
    iexact H1011
  · unfold Pipeline.unscopedRest
    exact bigSep_congr fun b hb => by rw [rest_eq c b (Finset.mem_sdiff.mp hb).2]

/-! ## The proof data family, the thread state, the segments -/

variable (m dat0)

/-- The prefetched tables' admissible contents: the pipeline has no table. -/
abbrev adm : (p : Fin 1) → (pcfgs (F := F) p).Adm := fun p => (cfgs p).toPCfg_adm
/-- The one pipeline's proof data, as a family over the program's pipelines. -/
def pdats : (p : Fin 1) → (c : Dev nD) → Dat τ (Elt F) Unit ℕ (UR sig nD τ) ℕ (Pipeline.pin (pcfgs (F := F)) adm p) c
  | ⟨0, _⟩ => fun c => dat0 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W3 m dat0 c) ∗ ∃ r, prngReg c r)

variable {m dat0}

set_option backward.isDefEq.respectTransparency.types false in
/-- THE REGION over the thread state: entered from every unscoped buffer at the entry contents, left at the exit contents.
    Its arrays are sorted out of the unscoped buffers with each shared array dealt in halves (`entry_split`) and put back with
    the halves joined (`exit_join`); the generator register goes into the class invariant and comes out; nothing is owed. -/
def reg0 (hG : Given m dat0) : Pipeline.RegionSeg (pcfgs (F := F)) adm (pdats dat0) () defs₀ 𝒱₀ L lv 0 where
  win := winFacts₀0
  block_pos := block_pos0
  stage_whole := stage_whole0
  K := PEmpty
  osem k := k.elim
  ho := Pipeline.OwnSemFacts.none _
  hbody c := (hG.hbody c).loose
  hwaits := Pipeline.hwaits_of_owed_zero _ _ _ _ L lv 0 fun c t => hG.howed c t
  pre c := iprop(StableHlo.held (c : Thread nD τ) (Pipeline.ucRefs τ sig) (W1 m c) ∗ R c)
  post c := iprop(StableHlo.held (c : Thread nD τ) (Pipeline.ucRefs τ sig) (W2 m dat0 c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_split hG c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 0 c).owed 0 = 0 from hG.howed c 0]
      icases HO with ⟨%W, HO⟩; iexists W; isplitr
      · ipureintro; exact fun _ _ => Or.inl ((show (pdats dat0 0 c).recorded 0 = Set.univ from hG.hrec c 0) ▸ trivial)
      iexact HO
    isplitl [Hp]; · iexact Hp
    iexact Hrest
  hin c := by
    refine (show _ ⊢ (Pipeline.ΦA spec0 c : sProp 𝕄) from ?_).trans (hG.hin c)
    unfold Pipeline.ΦA
    iintro ⟨Hp, -, Hr⟩
    isplitl [Hr]; · iexact Hr
    iexact Hp
  hout c := by
    rw [Pipeline.ownSems0_none]
    refine (hG.hout c).trans ?_
    unfold Pipeline.ΦA
    iintro ⟨Hr, Hp⟩
    isplitl [Hp]; · iexact Hp
    isplitr; · iempintro
    iexact Hr
  hexit c := by
    have hjoin := exit_join hG c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats dat0 0 c).owed (Fin.last (Pipeline.pin (pcfgs (F := F)) adm 0).N) = 0 from hG.howed c _]
    icases HO with ⟨%W, -, HO⟩; iexists W; iexact HO

/-- @main's three segments in order: the host operations before the region, the region, the host operations behind it. -/
abbrev segs (hG : Given m dat0) : List (Pipeline.Seg (pcfgs (F := F)) adm (pdats dat0) () defs₀ 𝒱₀ L lv) :=
  [ .host (hseg hostOps0 hostOps0_sub hostOps0_fresh (W0 m)),
    .region (reg0 hG),
    .host (hseg hostOps1 hostOps1_sub hostOps1_fresh (W2 m dat0)) ]

set_option backward.isDefEq.respectTransparency.types false in
/-- THE RUN. At the compiled mesh, from any memory with zero counters: every weakly fair execution of @main on the
    TensorCores terminates, nothing faulting, and every final state holds every unscoped buffer at the last boundary's contents. -/
theorem run_main (hG : Given m dat0) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m dat0 c b) :=
  Pipeline.θ_run_regions_kit (pcfgs (F := F)) adm (pdats dat0) () cellOf_inj emb₁ defs₀ 𝒱₀ L lv m ρ main (segs hG)
    (fun c Q => by
      rewrite [main_chain c, Seg.run_eq_chain,
        show (segs hG).map Seg.prog = [
          StableHlo.seq hostOps0,
          Prog.lift (.customCall (Pipeline.entry 0) ()),
          StableHlo.seq hostOps1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat0)
    (hch := ⟨fun _ => .rfl, fun _ => .rfl, fun _ => .rfl, fun c => by
      show iprop(StableHlo.held (c : Thread nD τ) (Pipeline.ucRefs τ sig) (W3 m dat0 c) ∗ R c) ⊢ iprop(Tₙ m dat0 c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat0 c b)
    (hfin := fun c s' => by
      iintro ⟨⟨Hh, -⟩, HSI⟩
      unfold StableHlo.held
      imodintro
      iapply (pointsTo_read_all (Pipeline.ucRefs τ sig) (fun b => (((c : Thread nD τ)).1, b)) (W3 m dat0 c) s')
      isplitl [Hh] <;> iassumption)
    (hQ := fun s h c => h c)

/-! ## What the host stretches write, and what reaches the end untouched -/

variable (m dat0)

/-- The buffers the host operations before the region write. -/
abbrev hostOps0_W : List (Ref sig .tc) := [main_cst, main_v0, main_v1, main_v2, main_v3, main_v4, main_c, main_v5, main_v6, main_c_0, main_v7, main_v8, main_v9, main_c_1, main_v10, main_v11, main_c_2, main_v12, main_v13, main_v14, main_v15, main_v16, main_v17, main_cst_3, main_v18, main_v19, main_cst_4, main_v20, main_v21, main_v22, main_v23, main_v24, main_c_5, main_v25, main_v26, main_c_6, main_v27, main_v28, main_v29, main_c_7, main_v30, main_v31, main_c_8, main_v32, main_v33, main_v34, main_v35, main_v36, main_v37, main_cst_9, main_v38, main_v39, main_cst_10, main_v40, main_v41, main_v42, main_v43, main_v44, main_c_11, main_v45, main_v46, main_c_12, main_v47, main_v48, main_v49, main_c_13, main_v50, main_v51, main_c_14, main_v52, main_v53, main_v54, main_v55, main_v56, main_v57, main_cst_15, main_v58, main_v59, main_cst_16, main_v60, main_v61, main_v62, main_v63, main_v64, main_c_17, main_v65, main_v66, main_c_18, main_v67, main_v68, main_v69, main_c_19, main_v70, main_v71, main_c_20, main_v72, main_v73, main_v74, main_v75, main_v76, main_v77, main_cst_21, main_v78, main_v79, main_cst_22, main_v80, main_v81, main_v82, main_v83, main_v84, main_c_23, main_v85, main_v86, main_v87, main_v88, main_cst_24, main_v89, main_v90, main_v91, main_v92, main_v93, main_v94, main_v95, main_v96, main_v97, main_v98, main_v99, main_v100]
set_option maxHeartbeats 4000000 in
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the host operations behind the region write. -/
abbrev hostOps1_W : List (Ref sig .tc) := [main_v102, main_v103, main_v104]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m dat0 c r = W2 m dat0 c r :=
  StableHlo.after_of_writes_sub hostOps1 _ hostOps1_writes h

/-- An argument array reaches the end as launched: no host operation writes it and the region's outputs are other buffers. -/
theorem W3_arg (c : Dev nD) (r : Ref sig .tc) (h1 : r ∉ hostOps1_W) (ho0 : r ≠ main_v101_0) (ho1 : r ≠ main_v101_1) (h0 : r ∉ hostOps0_W) :
    W3 m dat0 c r = m ((c : Thread nD τ).loc r) :=
  (W3_of m dat0 c r h1).trans <| (W2_of_ne m dat0 c r ho0 ho1).trans <| (W1_of m c r h0).trans rfl

/-- The result buffer at the end: the two outputs' arrays, each recast as a [1,4096,4096] slab, joined along the leading axis. -/
theorem W3_result (c : Dev nD) :
    W3 m dat0 c main_v104 = concatenate S2x4096x4096 0 [⟨S1x4096x4096, broadcastInDim S1x4096x4096 ![1, 2] bcast_S4096x4096_S1x4096x4096_1_2 ((dat0 c).arrAt 8 cfg0.N)⟩,
      ⟨S1x4096x4096, broadcastInDim S1x4096x4096 ![1, 2] bcast_S4096x4096_S1x4096x4096_1_2 ((dat0 c).arrAt 9 cfg0.N)⟩] concatenates_S1x4096x4096_S1x4096x4096_S2x4096x4096_d0 := by
  show StableHlo.after hostOps1 (W2 m dat0 c) (Proc.devRef .tc main_v104) = _
  after_results
  rw [W2_out0, W2_out1]

variable {m dat0}

/-- THE FRAME, given the region's proof data: @main runs to the end, nothing faulting, and its four argument arrays end as launched. -/
theorem frame_of (hG : Given m dat0) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_arg m dat0 c main_arg0 (by decide) (by decide) (by decide) (by decide)),
     (h c _ (mem_uc main_arg1 (by decide))).trans (W3_arg m dat0 c main_arg1 (by decide) (by decide) (by decide) (by decide)),
     (h c _ (mem_uc main_arg2 (by decide))).trans (W3_arg m dat0 c main_arg2 (by decide) (by decide) (by decide) (by decide)),
     (h c _ (mem_uc main_arg3 (by decide))).trans (W3_arg m dat0 c main_arg3 (by decide) (by decide) (by decide) (by decide))⟩) (run_main hG ρ)

/-- THE RUN WITH THE RESULT NAMED: as the frame, and the result buffer ends at the two outputs' final arrays stacked. -/
theorem run_result (hG : Given m dat0) (ρ : Dev nD → PrngReg) :
    θ_run defs (onTc (τ := τ) (main (F := F))) ⟨m, fun _ => 0, ρ⟩ (fun r => ∀ c : Dev nD,
      r.2.mem ((c.tc : Thread nD τ).loc main_v104) = concatenate S2x4096x4096 0 [⟨S1x4096x4096, broadcastInDim S1x4096x4096 ![1, 2] bcast_S4096x4096_S1x4096x4096_1_2 ((dat0 c).arrAt 8 cfg0.N)⟩,
        ⟨S1x4096x4096, broadcastInDim S1x4096x4096 ![1, 2] bcast_S4096x4096_S1x4096x4096_1_2 ((dat0 c).arrAt 9 cfg0.N)⟩] concatenates_S1x4096x4096_S1x4096x4096_S2x4096x4096_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v104 (by decide))).trans (W3_result m dat0 c),
     (h c _ (mem_uc main_arg0 (by decide))).trans (W3_arg m dat0 c main_arg0 (by decide) (by decide) (by decide) (by decide)),
     (h c _ (mem_uc main_arg1 (by decide))).trans (W3_arg m dat0 c main_arg1 (by decide) (by decide) (by decide) (by decide)),
     (h c _ (mem_uc main_arg2 (by decide))).trans (W3_arg m dat0 c main_arg2 (by decide) (by decide) (by decide) (by decide)),
     (h c _ (mem_uc main_arg3 (by decide))).trans (W3_arg m dat0 c main_arg3 (by decide) (by decide) (by decide) (by decide))⟩) (run_main hG ρ)

end Cert.KernelIdeal.Run
end
-- ==== Proof.KDat.lean ====
/- The proof data of the kernel's pipeline and its body obligation. Between two grid points the region holds the two
   accumulators at what the point before left in them (before the very first point: at anything). The proof data name,
   per window and point, what the body leaves in the window's staging buffer: an input's block, unchanged; a result
   block's contents after the step. The body obligation is proved point by point: the remainder of the linear point
   modulo 8 says which of the three cases the point is in, the case's run is applied, and each buffer the case stored
   into is handed on at the contents read back from the pieces the run found, which cover it. With the invariant at
   both ends this is everything the launch asks of the region's proof data. -/
import proofs.«154049_j57183194579701_2_alg».proof.Proof.KOuts
import proofs.«154049_j57183194579701_2_alg».proof.Proof.KRun

-- membership in a rectangle of 512 x 512 extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: a parameter
variable (V : (c : Dev nD) → (b : Ref sig .tc) → Buf (Elt F) ((c : Thread nD τ).loc b))

/-! ## The invariant between points -/

/-- The region's invariant before point `n`: before the first point the pipeline's own (both accumulators at anything);
    afterwards both accumulators at what point `n - 1` left in them (`outsAt0`'s second pair), and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2)) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2)) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2)) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the two results' at `outsAt0`'s first pair; the invariant `PhiS`; nothing owed;
    of an array two windows share each holds a half, of every other the whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1.1
    | ⟨9, _⟩ => (outsAt0 V c t.val t.isLt).1.2
  Φ t := PhiS V c t.val (Nat.le_of_lt_succ t.isLt)
  q := Run.sh
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1.1 := by dsimp only [dat0]
theorem after0_9 (c : Dev nD) (t : Fin cfg0.N) : (dat0 V c).after 9 t = (outsAt0 V c t.val t.isLt).1.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
/-- The body at any point. The inputs' memrefs hold their blocks; `t % 8` says which case the point is in; the invariant
    hands the body the accumulators at what the point before left (at anything at the very first point) and takes them
    back at this point's contents, each read back from pieces that cover it; at a first or middle step the two result
    blocks are idle and go back as found; at a last step they go back at the pieces the step stored, which cover them;
    the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_succ]
  have hN : t.val < 512 := lt_of_lt_of_eq t.isLt (show cfg0.N = 512 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dat0 V c) 9 t (idleAt0_9_A t ((hcond0_0 t).mpr h0) (fun h => h1 ((hcond0_1 t).mp h))) (noFlush0_9_A t ((hcond0_0 t).mpr h0) (fun h => h1 ((hcond0_1 t).mp h)))]
      rw [outsAt0_A V c t h0 h1]
      unfold ptA0; dsimp only; unfold sout0_A_0 sout0_A_1; (try dsimp only)
      by_cases hz : t.val = 0
      · rw [PhiS_castSucc V c t, PhiS_zero V c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      · rw [PhiS_castSucc V c t, PhiS_pos V c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        iintro ⟨H0, H1, H2, H3, H4, H5, H6, H7, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [show (dat0 V c).leavesExact 9 t = owns (c : Thread nD τ) (ms0_9 t) fullShare ((dat0 V c).after 9 t) from by
        unfold Dat.leavesExact; rw [liveAt0_9_C t (fun h => h0 ((hcond0_0 t).mp h)) ((hcond0_1 t).mpr h1)], after0_9]
      rw [outsAt0_C V c t h0 h1]
      unfold ptC0; dsimp only; unfold out0_C_8 out0_C_9 sout0_C_0 sout0_C_1; (try dsimp only)
      by_cases hz : t.val = 0
      · exfalso; omega
      · rw [PhiS_castSucc V c t, PhiS_pos V c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        isplitl [HS1]; · iexact HS1
        iintro ⟨H0, H1, H2, H3, H4, H5, H6, H7, ⟨%e8, H8⟩, ⟨%e9, H9⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dat0 V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B V c t h0 h1]
      unfold ptB0; dsimp only; unfold sout0_B_0 sout0_B_1; (try dsimp only)
      by_cases hz : t.val = 0
      · exfalso; omega
      · rw [PhiS_castSucc V c t, PhiS_pos V c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout0 (c : Dev nD) : (dat0 V c).Φ (Fin.last cfg0.N) ⊢ Pipeline.ΦA spec0 c :=
  Phi_out0 V c _ (by rw [Fin.val_last]; have : cfg0.N = 512 := N_0; omega)

end Region

/-! ## Everything the launch asks of the region's proof data -/

/-- The proof data at the region-entry contents of @main meets every requirement of the launch: its arrays are those
    contents; each window's share of its array is the stated one (a half for the four windows on the two shared arrays,
    the whole otherwise — a result window holds its array whole by definition); nothing is owed and no bound is put on
    the recorded waits; the body obligation; the invariant at both ends. -/
theorem given (m : (ℓ : Loc nD τ sig) → Buf (Elt F) ℓ) : Run.Given m (fun c => dat0 (Run.V1 m) c) where
  hA c w := A_eq0 (Run.V1 m) c w
  hsh c w := by
    unfold Dat.share
    fin_cases w <;> rfl
  howed c t := rfl
  hrec c t := rfl
  hbody c := body_obligation0 (Run.V1 m) c
  hin c := hin0 (Run.V1 m) c
  hout c := hout0 (Run.V1 m) c

end Cert.KernelIdeal.Body

end
-- ==== Proof.KPieces.lean ====
/- What the pieces found by the three runs ARE, as values: each buffer a case stores into ends at the payload of the
   case's last store into it, over the blocks the case loaded. Every load and store of the body is of a whole
   512 x 512 block at zero offsets, so a load reads the buffer's contents, one store leaves its payload, and a load
   that follows a store of the same run reads that store's payload back. First step: accumulator := 0 + product;
   middle step: accumulator := accumulator + product; last step: the same, and each result block := the body's closing
   expression over the accumulators just stored. The payloads are left by name. -/
import proofs.«154049_j57183194579701_2_alg».proof.Proof.KOuts
import Idealize.ShloMosaic.Lib.Pipeline.Value

-- membership in a rectangle of 512 x 512 extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body, however spelt, are zero. -/
theorem hz : (![0, 0] : Fin 2 → Nat) = fun _ => 0 := funext fun a => by fin_cases a <;> rfl

/-! ## First step: the accumulators are zero-filled, then this step's products are added -/

/-- After a first step accumulator 0 holds the zero block plus the product of the step's two s blocks: the last store's
    payload, its load of the accumulator reading the zero fill back. -/
theorem sout0_A_0_eq (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 = k0_pay3 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_cons_unit_zero (S := S512x512) hz, View.readCov_unit_zero (S := S512x512) _ hz]
  simp only [View.readAt_eq_ld, harg3.read_unread, harg4.read_unread, View.ld_unit_zero (S := S512x512) hz]

/-- After a first step accumulator 1 holds the zero block plus the product of the step's two d blocks. -/
theorem sout0_A_1_eq (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 = k0_pay4 x2 x3 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_cons_unit_zero (S := S512x512) hz, View.readCov_unit_zero (S := S512x512) _ hz]
  simp only [View.readAt_eq_ld, harg5.read_unread, harg6.read_unread, View.ld_unit_zero (S := S512x512) hz]

/-! ## Middle step: this step's products are added to what the accumulators held -/

/-- After a middle step accumulator 0 holds what it held plus the product of the step's two s blocks. -/
theorem sout0_B_0_eq (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) :
    sout0_B_0 c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay3 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_B
  dsimp only
  rw [View.canon_unit_zero hz]
  simp only [View.readAt_eq_ld, harg3.read_unread, harg4.read_unread, harg13.read_unread, View.ld_unit_zero (S := S512x512) hz]

/-- After a middle step accumulator 1 holds what it held plus the product of the step's two d blocks. -/
theorem sout0_B_1_eq (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) :
    sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay4 x2 x3 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_B
  dsimp only
  rw [View.canon_unit_zero hz]
  simp only [View.readAt_eq_ld, harg5.read_unread, harg6.read_unread, harg14.read_unread, View.ld_unit_zero (S := S512x512) hz]

/-! ## Last step: the products are added, and the two results are formed from the accumulators just stored -/

/-- After a last step accumulator 0 holds what it held plus the product of the step's two s blocks. -/
theorem sout0_C_0_eq (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) :
    sout0_C_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay3 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  rw [View.canon_unit_zero hz]
  simp only [View.readAt_eq_ld, harg3.read_unread, harg4.read_unread, harg13.read_unread, View.ld_unit_zero (S := S512x512) hz]

/-- After a last step accumulator 1 holds what it held plus the product of the step's two d blocks. -/
theorem sout0_C_1_eq (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) :
    sout0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay4 x2 x3 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  rw [View.canon_unit_zero hz]
  simp only [View.readAt_eq_ld, harg5.read_unread, harg6.read_unread, harg14.read_unread, View.ld_unit_zero (S := S512x512) hz]

/-- The first result block after a last step: the payload of its one store, over the p1 block, the pt and p1 blocks,
    and the two accumulators as the step has just stored them (its loads of them read those stores back). -/
theorem out0_C_8_eq (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) :
    out0_C_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay5 (k0_pay8 x5) (k0_pay11 x5 x4) (k0_pay13 (BitVec.ofNat 32 (i 0).val) (BitVec.ofNat 32 (i 1).val) (k0_pay3 x0 x1 xs0) (k0_pay4 x2 x3 xs1)) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  rw [View.canon_unit_zero hz, View.readCov_unit_zero (S := S512x512) _ hz, View.readCov_unit_zero (S := S512x512) _ hz]
  simp only [View.readAt_eq_ld, harg3.read_unread, harg4.read_unread, harg5.read_unread, harg6.read_unread, harg7.read_unread, harg8.read_unread, harg13.read_unread, harg14.read_unread, View.ld_unit_zero (S := S512x512) hz]

/-- The second result block after a last step: the payload of its one store, over the triangle mask of the block's
    global position, the n1 block, the two accumulators as just stored, and the nt and n1 blocks. -/
theorem out0_C_9_eq (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) :
    out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay6 (k0_pay7 (F := F) (BitVec.ofNat 32 (i 0).val) (BitVec.ofNat 32 (i 1).val)) (k0_pay9 x7) (k0_pay10 (k0_pay3 x0 x1 xs0) (k0_pay4 x2 x3 xs1)) (k0_pay12 x7 x6) := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  rw [View.canon_unit_zero hz, View.readCov_unit_zero (S := S512x512) _ hz, View.readCov_unit_zero (S := S512x512) _ hz]
  simp only [View.readAt_eq_ld, harg3.read_unread, harg4.read_unread, harg5.read_unread, harg6.read_unread, harg9.read_unread, harg10.read_unread, harg13.read_unread, harg14.read_unread, View.ld_unit_zero (S := S512x512) hz]

end Cert.KernelIdeal.Body

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibScatterRange.lean ====
/-
  A range lemma for the host's scatter (PureOps/ShapeOps.lean `Host.scatter`), reusable at any element type.

  The scatter is a left fold over the update positions: each step either leaves the array alone (the position's
  target is outside the operand) or replaces ONE entry by the combiner's value at the old entry and the update.
  So a predicate `Q` that every entry of the operand and every entry of the updates satisfies, and that the
  combiner preserves, holds of every entry of the result (`scatter_forall`). With the combiner that returns the
  update — a `.at[…].set(v)` — nothing is asked of the combiner (`scatter_set_forall`): each entry of the result
  is an entry of the operand or an entry of the updates. The scatter's dimension numbers, the index array and its
  word width play no part.
-/
import Idealize.ShloMosaic.PureOps.ShapeOps

namespace Cert.Lib

open Idealize.ShloMosaic

/-- One fold: from any starting array whose entries satisfy `Q`, folding steps that each keep the array or replace one
    entry by a value satisfying `Q` ends in an array whose entries satisfy `Q`. The step is the scatter's, over any
    list of update positions. -/
theorem scatter_fold_forall {α : Type} {s si u : Shape} {w : Nat} (d : ScatterDims s si u) (f : α → α → α)
    (idx : IVec si w) (upd : u.Idx → α) (Q : α → Prop) (hf : ∀ a b, Q a → Q b → Q (f a b)) (hu : ∀ j, Q (upd j))
    (l : List (Fin u.numel)) (x : s.Idx → α) (hx : ∀ i, Q (x i)) (i : s.Idx) :
    Q (l.foldl (fun r n =>
        match d.resultIdx? (u.rowMajor.symm n) idx with
        | some i => fun i' => if i' = i then f (r i) (upd (u.rowMajor.symm n)) else r i'
        | none => r) x i) := by
  induction l generalizing x i with
  | nil => exact hx i
  | cons n l ih =>
    rw [List.foldl_cons]
    refine ih _ (fun k => ?_) i
    cases d.resultIdx? (u.rowMajor.symm n) idx with
    | none => exact hx k
    | some i0 =>
      show Q (if k = i0 then f (x i0) (upd (u.rowMajor.symm n)) else x k)
      by_cases hk : k = i0
      · rw [if_pos hk]; exact hf _ _ (hx i0) (hu _)
      · rw [if_neg hk]; exact hx k

/-- THE RANGE LEMMA: if every entry of the operand and every entry of the updates satisfies `Q`, and the combiner keeps
    `Q`, every entry of the scatter's result satisfies `Q`. -/
theorem scatter_forall {α : Type} {s si u : Shape} {w : Nat} (d : ScatterDims s si u) (f : α → α → α)
    (x : s.Idx → α) (idx : IVec si w) (upd : u.Idx → α) (Q : α → Prop) (hf : ∀ a b, Q a → Q b → Q (f a b))
    (hx : ∀ i, Q (x i)) (hu : ∀ j, Q (upd j)) (i : s.Idx) : Q (Host.scatter d f x idx upd i) :=
  scatter_fold_forall d f idx upd Q hf hu _ x hx i

/-- With the combiner that returns the update (a `set`): nothing is asked of the combiner. -/
theorem scatter_set_forall {α : Type} {s si u : Shape} {w : Nat} (d : ScatterDims s si u)
    (x : s.Idx → α) (idx : IVec si w) (upd : u.Idx → α) (Q : α → Prop)
    (hx : ∀ i, Q (x i)) (hu : ∀ j, Q (upd j)) (i : s.Idx) : Q (Host.scatter d (fun _ b => b) x idx upd i) :=
  scatter_forall d (fun _ b => b) x idx upd Q (fun _ _ _ hb => hb) hx hu i

end Cert.Lib
-- ==== Proof.DenseFacts.lean ====
/-
  Every entry of a dense adjacency array is `0` or `1`, hence a real number.

  The array is a scatter of ones into zeros with the combiner that returns the update, so by the scatter's range
  lemma each of its entries is an entry of the zero operand or an entry of the all-ones updates. The predicate
  "is `0` or `1`" (`Bit`) is kept by products and by `1 − ·`, which is how the masked indicators
  `p · (1 − eye)` and `(n · (1 − p)) · (1 − eye)` stay `0` or `1`; and a `Bit` is a real number.
  The f32 words `0x00000000`, `0x3F800000`, `0x40000000`, `0x3F000000` denote `0`, `1`, `2`, `1/2`.
-/
import Mathlib.Data.EReal.Basic
import Mathlib.Tactic.NormNum
import Idealize.ShloMosaic.PureOps.Ideal
import Idealize.ShloMosaic.PureOps.Ideal.Laws
import proofs.«154049_j57183194579701_2_alg».proof.Proof.LibScatterRange

noncomputable section

namespace Cert.Dense

open Idealize.ShloMosaic

/-! ## The words the programs spell -/

/-- The f32 word of `1.0` denotes the real `1`. -/
theorem ofBits_one_f32 : Ideal.ofBits .f32 0x3F800000#32 = ((1 : ℝ) : EReal) := by
  simp [Ideal.ofBits, Ideal.ieee, -EReal.coe_mul]; norm_num
/-- The f32 word of `2.0` denotes the real `2`. -/
theorem ofBits_two_f32 : Ideal.ofBits .f32 0x40000000#32 = ((2 : ℝ) : EReal) := by
  simp [Ideal.ofBits, Ideal.ieee, -EReal.coe_mul]; norm_num
/-- The f32 word of `0.5` denotes the real `1/2`. -/
theorem ofBits_half_f32 : Ideal.ofBits .f32 0x3F000000#32 = ((1 / 2 : ℝ) : EReal) := by
  simp [Ideal.ofBits, Ideal.ieee, -EReal.coe_mul]; norm_num
/-- The f32 word of `0.0` denotes the real `0`. -/
theorem ofBits_zero_f32 : Ideal.ofBits .f32 0x00000000#32 = ((0 : ℝ) : EReal) := by
  rw [Ideal.ofBits_zero_f32, EReal.coe_zero]

/-! ## Zero-or-one values -/

/-- An extended real that is `0` or `1`. -/
def Bit (x : EReal) : Prop := x = ((0 : ℝ) : EReal) ∨ x = ((1 : ℝ) : EReal)

theorem Bit.zero : Bit ((0 : ℝ) : EReal) := Or.inl rfl
theorem Bit.one : Bit ((1 : ℝ) : EReal) := Or.inr rfl

/-- A zero-or-one value is a real number. -/
theorem Bit.real {x : EReal} (h : Bit x) : ∃ r : ℝ, x = (r : EReal) := by
  rcases h with rfl | rfl
  · exact ⟨0, rfl⟩
  · exact ⟨1, rfl⟩

/-- A product of zero-or-one values is one. -/
theorem Bit.mul {x y : EReal} (hx : Bit x) (hy : Bit y) : Bit (x * y) := by
  rcases hx with rfl | rfl <;> rcases hy with rfl | rfl <;> rw [← EReal.coe_mul]
  · left; norm_num
  · left; norm_num
  · left; norm_num
  · right; norm_num

/-- The complement `1 − x` of a zero-or-one value is one. -/
theorem Bit.one_sub {x : EReal} (hx : Bit x) : Bit (((1 : ℝ) : EReal) - x) := by
  rcases hx with rfl | rfl <;> rw [← EReal.coe_sub]
  · right; norm_num
  · left; norm_num

/-! ## The dense array -/

/-- A scatter of ones into zeros, the update winning, has every entry `0` or `1`: whatever the dimension numbers and
    the index array are. -/
theorem scatter_bit {s si u : Shape} {w : Nat} (d : ScatterDims s si u) (x : s.Idx → EReal) (idx : IVec si w)
    (upd : u.Idx → EReal) (hx : ∀ i, x i = Ideal.ofBits .f32 0x00000000#32)
    (hu : ∀ j, upd j = Ideal.ofBits .f32 0x3F800000#32) (i : s.Idx) :
    Bit (Host.scatter d (fun _ b => b) x idx upd i) :=
  Cert.Lib.scatter_set_forall d x idx upd Bit
    (fun i => by rw [hx i, ofBits_zero_f32]; exact Bit.zero)
    (fun j => by rw [hu j, ofBits_one_f32]; exact Bit.one) i

/-! ## The masks' words -/

/-- A one-bit word converted to a float is `0` or `1`. -/
theorem uitofp_bit (b : BitVec 1) : Bit (FloatOps.uitofp (F := Ideal) .f32 b) := by
  show Bit (((b.toNat : ℝ)) : EReal)
  rcases BitVec.eq_zero_or_eq_one b with rfl | rfl
  · left; simp
  · right; simp

/-- A number below `4096` as a 32-bit word, read signed, is that number. -/
theorem toInt_ofNat_small (k : Nat) (hk : k < 4096) : (BitVec.ofNat 32 k).toInt = (k : Int) := by
  have hn : (BitVec.ofNat 32 k).toNat = k := by rw [BitVec.toNat_ofNat]; exact Nat.mod_eq_of_lt (by omega)
  rw [BitVec.toInt_eq_toNat_cond, hn]
  split <;> omega

/-- The signed comparison "row + 0 ≥ column" of two coordinates below `4096`, as 32-bit words, is the comparison of
    the numbers. -/
theorem cmpi_sge_small (a c : Nat) (ha : a < 4096) (hc : c < 4096) :
    IntOp.cmpi .sge (IntOp.addi (BitVec.ofNat 32 a) 0#32) (BitVec.ofNat 32 c) = if c ≤ a then 1#1 else 0#1 := by
  have h : (BitVec.ofNat 32 c).sle (BitVec.ofNat 32 a) = decide (c ≤ a) := by
    rw [Bool.eq_iff_iff, BitVec.sle_iff_toInt_le, toInt_ofNat_small a ha, toInt_ofNat_small c hc]
    simp
  show BitVec.ofBool ((BitVec.ofNat 32 c).sle (BitVec.ofNat 32 a + 0#32)) = _
  rw [BitVec.add_zero, h]
  by_cases hca : c ≤ a
  · rw [if_pos hca]; simp [hca]
  · rw [if_neg hca]; simp [hca]

end Cert.Dense

end
-- ==== Proof.KPay.lean ====
/-
  The kernel body's arithmetic, read at one position (r, c) of a 512 x 512 block, at the extended reals.

  Each payload is a few pointwise operations on whole blocks, so at a position it is the same operations on the
  entries there: a same-shape cast and a change of float format are the identity, a broadcast scalar is that
  scalar everywhere, and sums, differences and products are taken entry by entry. The one operation that is
  not pointwise is the matrix product: into the zero block it is, at (r, c), the finite sum over the inner position k
  of left (r, k) * right (k, c), because its dimension numbers contract the left operand's second axis with the
  right operand's first and batch nothing.
-/
import proofs.«154049_j57183194579701_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«154049_j57183194579701_2_alg».proof.Proof.LibDotIx2
import proofs.«154049_j57183194579701_2_alg».proof.Proof.DenseFacts

noncomputable section

open scoped BigOperators

namespace Cert.KernelIdeal.Pay

open Cert.KernelIdeal Cert.KernelIdeal.Gen Idealize.ShloMosaic Idealize.ShloMosaic.ValueIdx

/-! ## The matrix product's dimension numbers -/

/-- The block product contracts the left operand's columns with the right operand's rows and batches nothing. -/
theorem plainDot : PlainDot dot_S512x512_S512x512_S512x512_1_0_0_1_n_n where
  rank := rfl
  size := rfl
  l0 := fun j q => by
    unfold DotDims.lhsIdx
    rw [dif_neg (show ¬(0 : Fin S512x512.rank) ∈ dot_S512x512_S512x512_S512x512_1_0_0_1_n_n.lhsBatch by decide),
      dif_pos (show (0 : Fin S512x512.rank) ∈ dot_S512x512_S512x512_S512x512_1_0_0_1_n_n.lhsNonContracting by decide)]
    rfl
  l1 := fun j q => dot_S512x512_S512x512_S512x512_1_0_0_1_n_n.lhsIdx_val_of_single rfl j q
  r0 := fun j q => dot_S512x512_S512x512_S512x512_1_0_0_1_n_n.rhsIdx_val_of_single rfl j q
  r1 := fun j q => by
    unfold DotDims.rhsIdx
    rw [dif_neg (show ¬(1 : Fin S512x512.rank) ∈ dot_S512x512_S512x512_S512x512_1_0_0_1_n_n.rhsBatch by decide),
      dif_pos (show (1 : Fin S512x512.rank) ∈ dot_S512x512_S512x512_S512x512_1_0_0_1_n_n.rhsNonContracting by decide)]
    rfl

/-! ## The accumulation steps -/

/-- One accumulation step at (r, c): the accumulator's entry plus the sum over k of left (r, k) * right (k, c). -/
theorem pay3_apply (x0 x1 : Vec Ideal S512x512 .bf16) (acc : Vec Ideal S512x512 .f32) (r c : Fin 512) :
    Gen.k0_pay3 x0 x1 acc (ix2 r c)
      = (acc (ix2 r c) : EReal) + ∑ k : Fin 512, (x0 (ix2 r k) : EReal) * (x1 (ix2 k c) : EReal) := by
  unfold Gen.k0_pay3
  simp only [shapeCast_self]
  exact congrArg (fun t : EReal => (acc (ix2 r c) : EReal) + t) (matmul_zero_ix2_any plainDot none x0 x1 r c)

/-- The second accumulation step at (r, c): the same formula. -/
theorem pay4_apply (x0 x1 : Vec Ideal S512x512 .bf16) (acc : Vec Ideal S512x512 .f32) (r c : Fin 512) :
    Gen.k0_pay4 x0 x1 acc (ix2 r c)
      = (acc (ix2 r c) : EReal) + ∑ k : Fin 512, (x0 (ix2 r k) : EReal) * (x1 (ix2 k c) : EReal) := by
  unfold Gen.k0_pay4
  simp only [shapeCast_self]
  exact congrArg (fun t : EReal => (acc (ix2 r c) : EReal) + t) (matmul_zero_ix2_any plainDot none x0 x1 r c)

/-! ## The zero fills -/

/-- The first scratch's fill is zero everywhere. -/
theorem pay1_apply (r c : Fin 512) : Gen.k0_pay1 (F := Ideal) (ix2 r c) = 0 := by
  unfold Gen.k0_pay1
  simp only [shapeCast_self]
  exact Ideal.ofBits_zero_f32

/-- The second scratch's fill is zero everywhere. -/
theorem pay2_apply (r c : Fin 512) : Gen.k0_pay2 (F := Ideal) (ix2 r c) = 0 := by
  unfold Gen.k0_pay2
  simp only [shapeCast_self]
  exact Ideal.ofBits_zero_f32

end Cert.KernelIdeal.Pay

end
-- ==== Proof.KPayTri.lean ====
/-
  The kernel's last step, read at one position (r, c) of a 512 x 512 block, at the extended reals.

  The strict upper-triangle mask of block (a0, a1) is built from integer words: the block's row offset 512 * a0 plus
  the row r, the column offset 512 * a1 plus the column c, a signed comparison "column index > row index", and the
  resulting bit converted to a float. All these numbers are below 4096, so no 32-bit word wraps and the signed
  reading of each word is the number itself: the mask is 1 where 512 * a0 + r < 512 * a1 + c and 0 elsewhere.

  The two stored blocks are then pointwise formulas in the loaded entries: with one, two, half the real numbers
  1, 2, 1/2,
    (pt + p1 - (two * pt) * p1) + ((half * (ss + dd)) * tri) * (one - p1)   and
    (nt + n1 - (two * nt) * n1) + ((half * (ss - dd)) * tri) * (one - n1).
-/
import proofs.«154049_j57183194579701_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«154049_j57183194579701_2_alg».proof.Proof.DenseFacts

noncomputable section

open scoped BigOperators

namespace Cert.KernelIdeal.Pay

open Cert.KernelIdeal Cert.KernelIdeal.Gen Idealize.ShloMosaic Idealize.ShloMosaic.ValueIdx

/-! ## The triangle mask -/

/-- A block offset plus a coordinate, as 32-bit words: the word of the number 512 * a + r. -/
theorem offset_word (a : Fin 8) (r : Fin 512) :
    IntOp.addi (Scalar.muli (BitVec.ofNat 32 a.val) 512#32) (BitVec.ofNat 32 r.val) = BitVec.ofNat 32 (512 * a.val + r.val) := by
  show BitVec.ofNat 32 a.val * BitVec.ofNat 32 512 + BitVec.ofNat 32 r.val = _
  rw [← BitVec.ofNat_mul, ← BitVec.ofNat_add, Nat.mul_comm]

/-- The signed comparison "column index > row index" of two global indices below 4096 is the comparison of the numbers. -/
theorem tri_word (a0 a1 : Fin 8) (r c : Fin 512) :
    IntOp.cmpi .sgt (IntOp.addi (Scalar.muli (BitVec.ofNat 32 a1.val) 512#32) (BitVec.ofNat 32 c.val))
        (IntOp.addi (Scalar.muli (BitVec.ofNat 32 a0.val) 512#32) (BitVec.ofNat 32 r.val))
      = if 512 * a0.val + r.val < 512 * a1.val + c.val then 1#1 else 0#1 := by
  rw [offset_word, offset_word]
  have h0 : 512 * a0.val + r.val < 4096 := by have := a0.isLt; have := r.isLt; omega
  have h1 : 512 * a1.val + c.val < 4096 := by have := a1.isLt; have := c.isLt; omega
  have h : (BitVec.ofNat 32 (512 * a0.val + r.val)).slt (BitVec.ofNat 32 (512 * a1.val + c.val))
      = decide (512 * a0.val + r.val < 512 * a1.val + c.val) := by
    rw [Bool.eq_iff_iff, BitVec.slt_iff_toInt_lt, Cert.Dense.toInt_ofNat_small _ h0, Cert.Dense.toInt_ofNat_small _ h1,
      decide_eq_true_eq]
    omega
  show BitVec.ofBool ((BitVec.ofNat 32 (512 * a0.val + r.val)).slt (BitVec.ofNat 32 (512 * a1.val + c.val))) = _
  rw [h]
  by_cases hlt : 512 * a0.val + r.val < 512 * a1.val + c.val
  · rw [if_pos hlt]; simp [hlt]
  · rw [if_neg hlt]; simp [hlt]

/-- The mask of block (a0, a1) at (r, c): 1 strictly above the diagonal of the whole array, 0 elsewhere. -/
theorem pay7_apply (a0 a1 : Fin 8) (r c : Fin 512) :
    Gen.k0_pay7 (F := Ideal) (BitVec.ofNat 32 a0.val) (BitVec.ofNat 32 a1.val) (ix2 r c)
      = if 512 * a0.val + r.val < 512 * a1.val + c.val then ((1 : ℝ) : EReal) else ((0 : ℝ) : EReal) := by
  have e0 : iota .tc S512x512 32 [0] iota_S512x512_d0_w32 (ix2 r c) = BitVec.ofNat 32 r.val :=
    iota_single_apply .tc S512x512 32 0 iota_S512x512_d0_w32 (ix2 r c)
  have e1 : iota .tc S512x512 32 [1] iota_S512x512_d1_w32 (ix2 r c) = BitVec.ofNat 32 c.val :=
    iota_single_apply .tc S512x512 32 1 iota_S512x512_d1_w32 (ix2 r c)
  unfold Gen.k0_pay7
  show ((((IntOp.cmpi .sgt
      (IntOp.addi (Scalar.muli (BitVec.ofNat 32 a1.val) 512#32) (iota .tc S512x512 32 [1] iota_S512x512_d1_w32 (ix2 r c)))
      (IntOp.addi (Scalar.muli (BitVec.ofNat 32 a0.val) 512#32) (iota .tc S512x512 32 [0] iota_S512x512_d0_w32 (ix2 r c)))).setWidth 32).toInt : ℝ) : EReal) = _
  rw [e0, e1, tri_word]
  by_cases hlt : 512 * a0.val + r.val < 512 * a1.val + c.val
  · rw [if_pos hlt, if_pos hlt]; norm_num
  · rw [if_neg hlt, if_neg hlt]; norm_num

/-! ## The two stored blocks -/

/-- The first stored block at (r, c), over the loaded entries and the two scratch entries. -/
theorem pay5_apply (a0' a1' : BitVec 32) (pt p1 : Vec Ideal S512x512 .bf16) (ss dd : Vec Ideal S512x512 .f32) (r c : Fin 512) :
    Gen.k0_pay5 (Gen.k0_pay8 p1) (Gen.k0_pay11 p1 pt) (Gen.k0_pay13 a0' a1' ss dd) (ix2 r c)
      = ((pt (ix2 r c) : EReal) + (p1 (ix2 r c) : EReal) - (((2 : ℝ) : EReal) * (pt (ix2 r c) : EReal)) * (p1 (ix2 r c) : EReal))
        + ((((1 / 2 : ℝ) : EReal) * ((ss (ix2 r c) : EReal) + (dd (ix2 r c) : EReal))) * Gen.k0_pay7 (F := Ideal) a0' a1' (ix2 r c))
          * (((1 : ℝ) : EReal) - (p1 (ix2 r c) : EReal)) := by
  unfold Gen.k0_pay5 Gen.k0_pay11 Gen.k0_pay13 Gen.k0_pay8
  simp only [shapeCast_self]
  show ((pt (ix2 r c) : EReal) + (p1 (ix2 r c) : EReal) - (Ideal.ofBits .f32 0x40000000#32 * (pt (ix2 r c) : EReal)) * (p1 (ix2 r c) : EReal))
        + ((Ideal.ofBits .f32 0x3F000000#32 * ((ss (ix2 r c) : EReal) + (dd (ix2 r c) : EReal))) * Gen.k0_pay7 (F := Ideal) a0' a1' (ix2 r c))
          * (Ideal.ofBits .f32 0x3F800000#32 - (p1 (ix2 r c) : EReal)) = _
  rw [Cert.Dense.ofBits_one_f32, Cert.Dense.ofBits_two_f32, Cert.Dense.ofBits_half_f32]

/-- The second stored block at (r, c), over the loaded entries and the two scratch entries. -/
theorem pay6_apply (a0' a1' : BitVec 32) (nt n1 : Vec Ideal S512x512 .bf16) (ss dd : Vec Ideal S512x512 .f32) (r c : Fin 512) :
    Gen.k0_pay6 (Gen.k0_pay7 (F := Ideal) a0' a1') (Gen.k0_pay9 n1) (Gen.k0_pay10 ss dd) (Gen.k0_pay12 n1 nt) (ix2 r c)
      = ((nt (ix2 r c) : EReal) + (n1 (ix2 r c) : EReal) - (((2 : ℝ) : EReal) * (nt (ix2 r c) : EReal)) * (n1 (ix2 r c) : EReal))
        + ((((1 / 2 : ℝ) : EReal) * ((ss (ix2 r c) : EReal) - (dd (ix2 r c) : EReal))) * Gen.k0_pay7 (F := Ideal) a0' a1' (ix2 r c))
          * (((1 : ℝ) : EReal) - (n1 (ix2 r c) : EReal)) := by
  unfold Gen.k0_pay6 Gen.k0_pay12 Gen.k0_pay10 Gen.k0_pay9
  simp only [shapeCast_self]
  show ((nt (ix2 r c) : EReal) + (n1 (ix2 r c) : EReal) - (Ideal.ofBits .f32 0x40000000#32 * (nt (ix2 r c) : EReal)) * (n1 (ix2 r c) : EReal))
        + ((Ideal.ofBits .f32 0x3F000000#32 * ((ss (ix2 r c) : EReal) - (dd (ix2 r c) : EReal))) * Gen.k0_pay7 (F := Ideal) a0' a1' (ix2 r c))
          * (Ideal.ofBits .f32 0x3F800000#32 - (n1 (ix2 r c) : EReal)) = _
  rw [Cert.Dense.ofBits_one_f32, Cert.Dense.ofBits_two_f32, Cert.Dense.ofBits_half_f32]

end Cert.KernelIdeal.Pay

end
-- ==== Proof.KBlocks.lean ====
/-
  Where the windows' blocks sit, and what a block reads of its array.

  The grid is 8 x 8 x 8 and its last coordinate runs fastest: point t has coordinates (t / 64, t / 8 % 8, t % 8) = (i, j, k).
  The row-block windows of s and d sit at block (i, k), their column-block windows at (k, j), the four side arrays'
  windows and the two outputs' at (i, j); every block is 512 x 512. So entry (r, q) of window w's block at point t is entry
  (512 · (block row) + r, 512 · (block column) + q) of its array.
-/
import proofs.«154049_j57183194579701_2_alg».proof.Proof.Gen.KernelIdeal.Launch
import proofs.«154049_j57183194579701_2_alg».proof.Proof.Gen.KernelIdeal.Points
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]

/-- Window 0's block at point t. -/
theorem idx0 : ∀ t : Fin cfg0.N, win0_0.index t 0 = t.val / 64 ∧ win0_0.index t 1 = t.val % 8 :=
  (by decide +kernel : ∀ t : Fin grid0.N, win0_0.index t 0 = t.val / 64 ∧ win0_0.index t 1 = t.val % 8)
/-- Entry (r, q) of window 0's block at point t is the array's entry at the block's offset plus (r, q). -/
theorem read0 (X : S4096x4096.Idx → Elt F .bf16) (t : Fin cfg0.N) (r q : Fin 512) (a b : Fin 4096)
    (ha : a.val = 512 * (t.val / 64) + r.val) (hb : b.val = 512 * (t.val % 8) + q.val) :
    (((cfg0.win 0).blk t).view.read (Elt F) X : Vec F S512x512 .bf16) (ix2 r q) = X (ix2 a b) := by
  rw [View.read_apply]
  refine congrArg X (funext fun x => ?_)
  apply Fin.ext
  match x with
  | ⟨0, _⟩ => show win0_0.index t 0 * 512 + 1 * r.val = a.val; rw [(idx0 t).1, ha]; omega
  | ⟨1, _⟩ => show win0_0.index t 1 * 512 + 1 * q.val = b.val; rw [(idx0 t).2, hb]; omega

/-- Window 1's block at point t. -/
theorem idx1 : ∀ t : Fin cfg0.N, win0_1.index t 0 = t.val % 8 ∧ win0_1.index t 1 = t.val / 8 % 8 :=
  (by decide +kernel : ∀ t : Fin grid0.N, win0_1.index t 0 = t.val % 8 ∧ win0_1.index t 1 = t.val / 8 % 8)
/-- Entry (r, q) of window 1's block at point t is the array's entry at the block's offset plus (r, q). -/
theorem read1 (X : S4096x4096.Idx → Elt F .bf16) (t : Fin cfg0.N) (r q : Fin 512) (a b : Fin 4096)
    (ha : a.val = 512 * (t.val % 8) + r.val) (hb : b.val = 512 * (t.val / 8 % 8) + q.val) :
    (((cfg0.win 1).blk t).view.read (Elt F) X : Vec F S512x512 .bf16) (ix2 r q) = X (ix2 a b) := by
  rw [View.read_apply]
  refine congrArg X (funext fun x => ?_)
  apply Fin.ext
  match x with
  | ⟨0, _⟩ => show win0_1.index t 0 * 512 + 1 * r.val = a.val; rw [(idx1 t).1, ha]; omega
  | ⟨1, _⟩ => show win0_1.index t 1 * 512 + 1 * q.val = b.val; rw [(idx1 t).2, hb]; omega

/-- Window 2's block at point t. -/
theorem idx2 : ∀ t : Fin cfg0.N, win0_2.index t 0 = t.val / 64 ∧ win0_2.index t 1 = t.val % 8 :=
  (by decide +kernel : ∀ t : Fin grid0.N, win0_2.index t 0 = t.val / 64 ∧ win0_2.index t 1 = t.val % 8)
/-- Entry (r, q) of window 2's block at point t is the array's entry at the block's offset plus (r, q). -/
theorem read2 (X : S4096x4096.Idx → Elt F .bf16) (t : Fin cfg0.N) (r q : Fin 512) (a b : Fin 4096)
    (ha : a.val = 512 * (t.val / 64) + r.val) (hb : b.val = 512 * (t.val % 8) + q.val) :
    (((cfg0.win 2).blk t).view.read (Elt F) X : Vec F S512x512 .bf16) (ix2 r q) = X (ix2 a b) := by
  rw [View.read_apply]
  refine congrArg X (funext fun x => ?_)
  apply Fin.ext
  match x with
  | ⟨0, _⟩ => show win0_2.index t 0 * 512 + 1 * r.val = a.val; rw [(idx2 t).1, ha]; omega
  | ⟨1, _⟩ => show win0_2.index t 1 * 512 + 1 * q.val = b.val; rw [(idx2 t).2, hb]; omega

/-- Window 3's block at point t. -/
theorem idx3 : ∀ t : Fin cfg0.N, win0_3.index t 0 = t.val % 8 ∧ win0_3.index t 1 = t.val / 8 % 8 :=
  (by decide +kernel : ∀ t : Fin grid0.N, win0_3.index t 0 = t.val % 8 ∧ win0_3.index t 1 = t.val / 8 % 8)
/-- Entry (r, q) of window 3's block at point t is the array's entry at the block's offset plus (r, q). -/
theorem read3 (X : S4096x4096.Idx → Elt F .bf16) (t : Fin cfg0.N) (r q : Fin 512) (a b : Fin 4096)
    (ha : a.val = 512 * (t.val % 8) + r.val) (hb : b.val = 512 * (t.val / 8 % 8) + q.val) :
    (((cfg0.win 3).blk t).view.read (Elt F) X : Vec F S512x512 .bf16) (ix2 r q) = X (ix2 a b) := by
  rw [View.read_apply]
  refine congrArg X (funext fun x => ?_)
  apply Fin.ext
  match x with
  | ⟨0, _⟩ => show win0_3.index t 0 * 512 + 1 * r.val = a.val; rw [(idx3 t).1, ha]; omega
  | ⟨1, _⟩ => show win0_3.index t 1 * 512 + 1 * q.val = b.val; rw [(idx3 t).2, hb]; omega

/-- Window 4's block at point t. -/
theorem idx4 : ∀ t : Fin cfg0.N, win0_4.index t 0 = t.val / 64 ∧ win0_4.index t 1 = t.val / 8 % 8 :=
  (by decide +kernel : ∀ t : Fin grid0.N, win0_4.index t 0 = t.val / 64 ∧ win0_4.index t 1 = t.val / 8 % 8)
/-- Entry (r, q) of window 4's block at point t is the array's entry at the block's offset plus (r, q). -/
theorem read4 (X : S4096x4096.Idx → Elt F .bf16) (t : Fin cfg0.N) (r q : Fin 512) (a b : Fin 4096)
    (ha : a.val = 512 * (t.val / 64) + r.val) (hb : b.val = 512 * (t.val / 8 % 8) + q.val) :
    (((cfg0.win 4).blk t).view.read (Elt F) X : Vec F S512x512 .bf16) (ix2 r q) = X (ix2 a b) := by
  rw [View.read_apply]
  refine congrArg X (funext fun x => ?_)
  apply Fin.ext
  match x with
  | ⟨0, _⟩ => show win0_4.index t 0 * 512 + 1 * r.val = a.val; rw [(idx4 t).1, ha]; omega
  | ⟨1, _⟩ => show win0_4.index t 1 * 512 + 1 * q.val = b.val; rw [(idx4 t).2, hb]; omega

/-- Window 5's block at point t. -/
theorem idx5 : ∀ t : Fin cfg0.N, win0_5.index t 0 = t.val / 64 ∧ win0_5.index t 1 = t.val / 8 % 8 :=
  (by decide +kernel : ∀ t : Fin grid0.N, win0_5.index t 0 = t.val / 64 ∧ win0_5.index t 1 = t.val / 8 % 8)
/-- Entry (r, q) of window 5's block at point t is the array's entry at the block's offset plus (r, q). -/
theorem read5 (X : S4096x4096.Idx → Elt F .bf16) (t : Fin cfg0.N) (r q : Fin 512) (a b : Fin 4096)
    (ha : a.val = 512 * (t.val / 64) + r.val) (hb : b.val = 512 * (t.val / 8 % 8) + q.val) :
    (((cfg0.win 5).blk t).view.read (Elt F) X : Vec F S512x512 .bf16) (ix2 r q) = X (ix2 a b) := by
  rw [View.read_apply]
  refine congrArg X (funext fun x => ?_)
  apply Fin.ext
  match x with
  | ⟨0, _⟩ => show win0_5.index t 0 * 512 + 1 * r.val = a.val; rw [(idx5 t).1, ha]; omega
  | ⟨1, _⟩ => show win0_5.index t 1 * 512 + 1 * q.val = b.val; rw [(idx5 t).2, hb]; omega

/-- Window 6's block at point t. -/
theorem idx6 : ∀ t : Fin cfg0.N, win0_6.index t 0 = t.val / 64 ∧ win0_6.index t 1 = t.val / 8 % 8 :=
  (by decide +kernel : ∀ t : Fin grid0.N, win0_6.index t 0 = t.val / 64 ∧ win0_6.index t 1 = t.val / 8 % 8)
/-- Entry (r, q) of window 6's block at point t is the array's entry at the block's offset plus (r, q). -/
theorem read6 (X : S4096x4096.Idx → Elt F .bf16) (t : Fin cfg0.N) (r q : Fin 512) (a b : Fin 4096)
    (ha : a.val = 512 * (t.val / 64) + r.val) (hb : b.val = 512 * (t.val / 8 % 8) + q.val) :
    (((cfg0.win 6).blk t).view.read (Elt F) X : Vec F S512x512 .bf16) (ix2 r q) = X (ix2 a b) := by
  rw [View.read_apply]
  refine congrArg X (funext fun x => ?_)
  apply Fin.ext
  match x with
  | ⟨0, _⟩ => show win0_6.index t 0 * 512 + 1 * r.val = a.val; rw [(idx6 t).1, ha]; omega
  | ⟨1, _⟩ => show win0_6.index t 1 * 512 + 1 * q.val = b.val; rw [(idx6 t).2, hb]; omega

/-- Window 7's block at point t. -/
theorem idx7 : ∀ t : Fin cfg0.N, win0_7.index t 0 = t.val / 64 ∧ win0_7.index t 1 = t.val / 8 % 8 :=
  (by decide +kernel : ∀ t : Fin grid0.N, win0_7.index t 0 = t.val / 64 ∧ win0_7.index t 1 = t.val / 8 % 8)
/-- Entry (r, q) of window 7's block at point t is the array's entry at the block's offset plus (r, q). -/
theorem read7 (X : S4096x4096.Idx → Elt F .bf16) (t : Fin cfg0.N) (r q : Fin 512) (a b : Fin 4096)
    (ha : a.val = 512 * (t.val / 64) + r.val) (hb : b.val = 512 * (t.val / 8 % 8) + q.val) :
    (((cfg0.win 7).blk t).view.read (Elt F) X : Vec F S512x512 .bf16) (ix2 r q) = X (ix2 a b) := by
  rw [View.read_apply]
  refine congrArg X (funext fun x => ?_)
  apply Fin.ext
  match x with
  | ⟨0, _⟩ => show win0_7.index t 0 * 512 + 1 * r.val = a.val; rw [(idx7 t).1, ha]; omega
  | ⟨1, _⟩ => show win0_7.index t 1 * 512 + 1 * q.val = b.val; rw [(idx7 t).2, hb]; omega

/-- Window 8's block at point t. -/
theorem idx8 : ∀ t : Fin cfg0.N, win0_8.index t 0 = t.val / 64 ∧ win0_8.index t 1 = t.val / 8 % 8 :=
  (by decide +kernel : ∀ t : Fin grid0.N, win0_8.index t 0 = t.val / 64 ∧ win0_8.index t 1 = t.val / 8 % 8)
/-- Entry (r, q) of window 8's block at point t is the array's entry at the block's offset plus (r, q). -/
theorem read8 (X : S4096x4096.Idx → Elt F .f32) (t : Fin cfg0.N) (r q : Fin 512) (a b : Fin 4096)
    (ha : a.val = 512 * (t.val / 64) + r.val) (hb : b.val = 512 * (t.val / 8 % 8) + q.val) :
    (((cfg0.win 8).blk t).view.read (Elt F) X : Vec F S512x512 .f32) (ix2 r q) = X (ix2 a b) := by
  rw [View.read_apply]
  refine congrArg X (funext fun x => ?_)
  apply Fin.ext
  match x with
  | ⟨0, _⟩ => show win0_8.index t 0 * 512 + 1 * r.val = a.val; rw [(idx8 t).1, ha]; omega
  | ⟨1, _⟩ => show win0_8.index t 1 * 512 + 1 * q.val = b.val; rw [(idx8 t).2, hb]; omega

/-- Window 9's block at point t. -/
theorem idx9 : ∀ t : Fin cfg0.N, win0_9.index t 0 = t.val / 64 ∧ win0_9.index t 1 = t.val / 8 % 8 :=
  (by decide +kernel : ∀ t : Fin grid0.N, win0_9.index t 0 = t.val / 64 ∧ win0_9.index t 1 = t.val / 8 % 8)
/-- Entry (r, q) of window 9's block at point t is the array's entry at the block's offset plus (r, q). -/
theorem read9 (X : S4096x4096.Idx → Elt F .f32) (t : Fin cfg0.N) (r q : Fin 512) (a b : Fin 4096)
    (ha : a.val = 512 * (t.val / 64) + r.val) (hb : b.val = 512 * (t.val / 8 % 8) + q.val) :
    (((cfg0.win 9).blk t).view.read (Elt F) X : Vec F S512x512 .f32) (ix2 r q) = X (ix2 a b) := by
  rw [View.read_apply]
  refine congrArg X (funext fun x => ?_)
  apply Fin.ext
  match x with
  | ⟨0, _⟩ => show win0_9.index t 0 * 512 + 1 * r.val = a.val; rw [(idx9 t).1, ha]; omega
  | ⟨1, _⟩ => show win0_9.index t 1 * 512 + 1 * q.val = b.val; rw [(idx9 t).2, hb]; omega

end Cert.KernelIdeal.Blocks

end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.KAcc.lean ====
/-
  The tiled matrix product, as arithmetic over the extended reals.

  For two 4096 x 4096 arrays X, Y and a block position (i, j), the entry (r, c) of the 512 x 512 block of X·Y is the sum
  over the eight inner tiles k of the tile products  ∑_q X(512 i + r, 512 k + q) · Y(512 k + q, 512 j + c).  Adding the tile
  products one at a time from zero gives the partial sums over the first k + 1 tiles, and all eight give the full sum over
  the 4096 inner positions: a sum over 8 · 512 positions is the sum over 8 tiles of the 512 positions of each.
-/
import Idealize.ShloMosaic.Lib.ValueIdx
import proofs.«154049_j57183194579701_2_alg».proof.Proof.LibTileSum

noncomputable section

open scoped BigOperators

namespace Cert.Acc

open Idealize.ShloMosaic Idealize.ShloMosaic.ValueIdx

/-- The 4096 x 4096 arrays' shape. -/
abbrev Sq : Shape := ⟨2, ![4096, 4096]⟩

/-- An array read at a pair of naturals (zero outside the array: never consulted there). -/
def at2 (X : Sq.Idx → EReal) (a b : ℕ) : EReal :=
  if h : a < 4096 ∧ b < 4096 then X (ix2 (⟨a, h.1⟩ : Fin 4096) (⟨b, h.2⟩ : Fin 4096)) else 0

theorem at2_eq (X : Sq.Idx → EReal) (a b : Fin 4096) (n k : ℕ) (hn : a.val = n) (hk : b.val = k) : at2 X n k = X (ix2 a b) := by
  subst hn hk
  unfold at2
  rw [dif_pos ⟨a.isLt, b.isLt⟩]

/-- The product of inner tile k, at entry (r, c) of block (i, j). -/
def part (X Y : Sq.Idx → EReal) (i j k : ℕ) (r c : Fin 512) : EReal :=
  ∑ q : Fin 512, at2 X (512 * i + r.val) (512 * k + q.val) * at2 Y (512 * k + q.val) (512 * j + c.val)

/-- The tile products of the first k + 1 inner tiles, added up. -/
def upTo (X Y : Sq.Idx → EReal) (i j k : ℕ) (r c : Fin 512) : EReal :=
  ∑ k' ∈ Finset.range (k + 1), part X Y i j k' r c

theorem upTo_zero (X Y : Sq.Idx → EReal) (i j : ℕ) (r c : Fin 512) : upTo X Y i j 0 r c = part X Y i j 0 r c := by
  unfold upTo; rw [Finset.sum_range_one]

theorem upTo_succ (X Y : Sq.Idx → EReal) (i j k : ℕ) (r c : Fin 512) :
    upTo X Y i j (k + 1) r c = upTo X Y i j k r c + part X Y i j (k + 1) r c := by
  unfold upTo; rw [Finset.sum_range_succ]

/-- All eight tiles: the full inner sum of the matrix product, at row 512 i + r and column 512 j + c. -/
theorem upTo_seven (X Y : Sq.Idx → EReal) (i j : Fin 8) (r c : Fin 512) (a e : Fin 4096)
    (ha : a.val = 512 * i.val + r.val) (he : e.val = 512 * j.val + c.val) :
    upTo X Y i.val j.val 7 r c = ∑ b : Fin 4096, X (ix2 a b) * Y (ix2 b e) := by
  unfold upTo
  rw [Finset.sum_range (fun k' => part X Y i.val j.val k' r c)]
  rw [show (∑ b : Fin 4096, X (ix2 a b) * Y (ix2 b e)) = ∑ b : Fin (8 * 512), X (ix2 a (b : Fin 4096)) * Y (ix2 (b : Fin 4096) e) from rfl]
  rw [Cert.Lib.TileSum.sum_fin_tiles 8 512 (fun b : Fin (8 * 512) => X (ix2 a (b : Fin 4096)) * Y (ix2 (b : Fin 4096) e))]
  refine Finset.sum_congr rfl fun k _ => ?_
  unfold part
  refine Finset.sum_congr rfl fun q _ => ?_
  rw [at2_eq X a ⟨512 * k.val + q.val, Cert.Lib.TileSum.tile_lt k.isLt q.isLt⟩ _ _ ha rfl,
    at2_eq Y ⟨512 * k.val + q.val, Cert.Lib.TileSum.tile_lt k.isLt q.isLt⟩ e _ _ rfl he]

end Cert.Acc

end
-- ==== Proof.TriSpec.lean ====
/-
  The mathematics of the triangle-closure count, with no program in sight.

  Two arrangements of one function of six square arrays of extended reals. `G` forms the two path counts
  `Msame = A·A + B·B` and `Mdiff = A·B + B·A` from four matrix products; `GK` recovers them from the two
  products `S·S` and `D·D` of the sum `S = A + B` and the difference `D = A − B`, as
  `½ (S·S + D·D)` and `½ (S·S − D·D)`. The two agree as soon as every entry of `A` and `B` is a real number
  (`GK_eq_G`): on the reals `(x+y)(x'+y') + (x−y)(x'−y') = 2 (x x' + y y')` and
  `(x+y)(x'+y') − (x−y)(x'−y') = 2 (x y' + y x')`, summed over the middle index. On the extended reals the
  identity needs the finiteness: with an infinite entry `S·S − D·D` may be `⊤ − ⊤`.
-/
import Mathlib.Data.EReal.Basic
import Mathlib.Algebra.BigOperators.Group.Finset.Basic
import Mathlib.Tactic.Ring
import Idealize.ShloMosaic.PureOps.Ideal
import Idealize.ShloMosaic.PureOps.Ideal.Laws
import Idealize.ShloMosaic.Lib.ValueIdx

noncomputable section

open scoped BigOperators

namespace Cert.Tri

open Idealize.ShloMosaic Idealize.ShloMosaic.ValueIdx

/-- The square arrays' shape. -/
abbrev Sq : Shape := ⟨2, ![4096, 4096]⟩
/-- The stacked result's shape. -/
abbrev St : Shape := ⟨3, ![2, 4096, 4096]⟩

/-- The strict upper triangle's indicator: `1` where the column is beyond the row, else `0`. -/
def tri (a c : Fin 4096) : EReal := if a.val < c.val then ((1 : ℝ) : EReal) else ((0 : ℝ) : EReal)

/-- One half, a real number. -/
def half : EReal := ((1 / 2 : ℝ) : EReal)

/-- The four-product arrangement read by coordinates: slab `0` is the symmetric difference of `PT` and `P1` plus the
    count `A·A + B·B` masked to the strict upper triangle and to the pairs `P1` does not hold; slab `1` the same with
    `NT`, `N1` and the count `A·B + B·A`. -/
def Gat (PT P1 NT N1 SPO SNO : Sq.Idx → EReal) (h : Fin 2) (a c : Fin 4096) : EReal :=
  match h with
  | ⟨0, _⟩ =>
    (PT (ix2 a c) + P1 (ix2 a c) - (((2 : ℝ) : EReal) * PT (ix2 a c)) * P1 (ix2 a c))
      + (((∑ b : Fin 4096, SPO (ix2 a b) * SPO (ix2 b c)) + (∑ b : Fin 4096, SNO (ix2 a b) * SNO (ix2 b c))) * tri a c)
        * (((1 : ℝ) : EReal) - P1 (ix2 a c))
  | ⟨1, _⟩ =>
    (NT (ix2 a c) + N1 (ix2 a c) - (((2 : ℝ) : EReal) * NT (ix2 a c)) * N1 (ix2 a c))
      + (((∑ b : Fin 4096, SPO (ix2 a b) * SNO (ix2 b c)) + (∑ b : Fin 4096, SNO (ix2 a b) * SPO (ix2 b c))) * tri a c)
        * (((1 : ℝ) : EReal) - N1 (ix2 a c))

/-- The four-product arrangement as a stacked array. -/
def G (PT P1 NT N1 SPO SNO : Sq.Idx → EReal) : St.Idx → EReal :=
  fun j => Gat PT P1 NT N1 SPO SNO (j 0) (j 1) (j 2)

/-- The two-product arrangement read by coordinates: the counts are `½ (S·S + D·D)` and `½ (S·S − D·D)`. -/
def GKat (PT P1 NT N1 S D : Sq.Idx → EReal) (h : Fin 2) (a c : Fin 4096) : EReal :=
  match h with
  | ⟨0, _⟩ =>
    (PT (ix2 a c) + P1 (ix2 a c) - (((2 : ℝ) : EReal) * PT (ix2 a c)) * P1 (ix2 a c))
      + ((half * ((∑ b : Fin 4096, S (ix2 a b) * S (ix2 b c)) + (∑ b : Fin 4096, D (ix2 a b) * D (ix2 b c)))) * tri a c)
        * (((1 : ℝ) : EReal) - P1 (ix2 a c))
  | ⟨1, _⟩ =>
    (NT (ix2 a c) + N1 (ix2 a c) - (((2 : ℝ) : EReal) * NT (ix2 a c)) * N1 (ix2 a c))
      + ((half * ((∑ b : Fin 4096, S (ix2 a b) * S (ix2 b c)) - (∑ b : Fin 4096, D (ix2 a b) * D (ix2 b c)))) * tri a c)
        * (((1 : ℝ) : EReal) - N1 (ix2 a c))

/-- The two-product arrangement as a stacked array. -/
def GK (PT P1 NT N1 S D : Sq.Idx → EReal) : St.Idx → EReal :=
  fun j => GKat PT P1 NT N1 S D (j 0) (j 1) (j 2)

section Reads
variable (PT P1 NT N1 X Y : Sq.Idx → EReal) (h : Fin 2) (a c : Fin 4096)

theorem G_apply : G PT P1 NT N1 X Y (ix3 h a c) = Gat PT P1 NT N1 X Y h a c := rfl
theorem GK_apply : GK PT P1 NT N1 X Y (ix3 h a c) = GKat PT P1 NT N1 X Y h a c := rfl

theorem Gat_zero : Gat PT P1 NT N1 X Y 0 a c =
    (PT (ix2 a c) + P1 (ix2 a c) - (((2 : ℝ) : EReal) * PT (ix2 a c)) * P1 (ix2 a c))
      + (((∑ b : Fin 4096, X (ix2 a b) * X (ix2 b c)) + (∑ b : Fin 4096, Y (ix2 a b) * Y (ix2 b c))) * tri a c)
        * (((1 : ℝ) : EReal) - P1 (ix2 a c)) := rfl
theorem Gat_one : Gat PT P1 NT N1 X Y 1 a c =
    (NT (ix2 a c) + N1 (ix2 a c) - (((2 : ℝ) : EReal) * NT (ix2 a c)) * N1 (ix2 a c))
      + (((∑ b : Fin 4096, X (ix2 a b) * Y (ix2 b c)) + (∑ b : Fin 4096, Y (ix2 a b) * X (ix2 b c))) * tri a c)
        * (((1 : ℝ) : EReal) - N1 (ix2 a c)) := rfl
theorem GKat_zero : GKat PT P1 NT N1 X Y 0 a c =
    (PT (ix2 a c) + P1 (ix2 a c) - (((2 : ℝ) : EReal) * PT (ix2 a c)) * P1 (ix2 a c))
      + ((half * ((∑ b : Fin 4096, X (ix2 a b) * X (ix2 b c)) + (∑ b : Fin 4096, Y (ix2 a b) * Y (ix2 b c)))) * tri a c)
        * (((1 : ℝ) : EReal) - P1 (ix2 a c)) := rfl
theorem GKat_one : GKat PT P1 NT N1 X Y 1 a c =
    (NT (ix2 a c) + N1 (ix2 a c) - (((2 : ℝ) : EReal) * NT (ix2 a c)) * N1 (ix2 a c))
      + ((half * ((∑ b : Fin 4096, X (ix2 a b) * X (ix2 b c)) - (∑ b : Fin 4096, Y (ix2 a b) * Y (ix2 b c)))) * tri a c)
        * (((1 : ℝ) : EReal) - N1 (ix2 a c)) := rfl

end Reads

/-- The inclusion of the reals in the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- The sum law on real entries: half of `(x+y)·(x'+y') + (x−y)·(x'−y')`, summed, is `x·x' + y·y'`, summed. -/
theorem half_sum_add {n : Nat} (f g f' g' : Fin n → ℝ) :
    half * ((∑ b, ((f b : EReal) + (g b : EReal)) * ((f' b : EReal) + (g' b : EReal)))
        + (∑ b, ((f b : EReal) - (g b : EReal)) * ((f' b : EReal) - (g' b : EReal))))
      = (∑ b, (f b : EReal) * (f' b : EReal)) + (∑ b, (g b : EReal) * (g' b : EReal)) := by
  unfold half
  simp only [← EReal.coe_add, ← EReal.coe_sub, ← EReal.coe_mul, ← coe_sum]
  refine congrArg _ ?_
  rw [← Finset.sum_add_distrib, ← Finset.sum_add_distrib, Finset.mul_sum]
  exact Finset.sum_congr rfl fun b _ => by ring

/-- The difference law on real entries: half of `(x+y)·(x'+y') − (x−y)·(x'−y')`, summed, is `x·y' + y·x'`, summed. -/
theorem half_sum_sub {n : Nat} (f g f' g' : Fin n → ℝ) :
    half * ((∑ b, ((f b : EReal) + (g b : EReal)) * ((f' b : EReal) + (g' b : EReal)))
        - (∑ b, ((f b : EReal) - (g b : EReal)) * ((f' b : EReal) - (g' b : EReal))))
      = (∑ b, (f b : EReal) * (g' b : EReal)) + (∑ b, (g b : EReal) * (f' b : EReal)) := by
  unfold half
  simp only [← EReal.coe_add, ← EReal.coe_sub, ← EReal.coe_mul, ← coe_sum]
  refine congrArg _ ?_
  rw [← Finset.sum_sub_distrib, ← Finset.sum_add_distrib, Finset.mul_sum]
  exact Finset.sum_congr rfl fun b _ => by ring

/-- THE LAW: on arrays `A`, `B` of real entries the two-product arrangement at `S = A + B`, `D = A − B` is the
    four-product arrangement at `A`, `B`. -/
theorem GK_eq_G (PT P1 NT N1 SPO SNO : Sq.Idx → EReal)
    (hspo : ∀ i, ∃ r : ℝ, SPO i = (r : EReal)) (hsno : ∀ i, ∃ r : ℝ, SNO i = (r : EReal)) :
    GK PT P1 NT N1 (fun i => SPO i + SNO i) (fun i => SPO i - SNO i) = G PT P1 NT N1 SPO SNO := by
  choose A hA using hspo
  choose B hB using hsno
  obtain rfl : SPO = fun i => (A i : EReal) := funext hA
  obtain rfl : SNO = fun i => (B i : EReal) := funext hB
  funext j
  obtain ⟨h, a, c, rfl⟩ : ∃ (h : Fin 2) (a c : Fin 4096), j = ix3 h a c := ⟨j 0, j 1, j 2, eq_ix3 j⟩
  rw [G_apply, GK_apply]
  match h with
  | ⟨0, _⟩ =>
    show GKat _ _ _ _ _ _ 0 a c = Gat _ _ _ _ _ _ 0 a c
    rw [GKat_zero, Gat_zero]
    rw [half_sum_add (fun b => A (ix2 a b)) (fun b => B (ix2 a b)) (fun b => A (ix2 b c)) (fun b => B (ix2 b c))]
  | ⟨1, _⟩ =>
    show GKat _ _ _ _ _ _ 1 a c = Gat _ _ _ _ _ _ 1 a c
    rw [GKat_one, Gat_one]
    rw [half_sum_sub (fun b => A (ix2 a b)) (fun b => B (ix2 a b)) (fun b => A (ix2 b c)) (fun b => B (ix2 b c))]

end Cert.Tri

end
-- ==== Proof.KValue.lean ====
/-
  The kernel's value at the extended reals: what its two result arrays end holding.

  The region's grid is 8 x 8 x 8, the inner tile k running fastest. At point (i, j, k) the body adds to the first scratch
  the product of s's block (i, k) with s's block (k, j), and to the second the same for d, after zeroing both at k = 0:
  so after point (i, j, k) the scratches hold the partial sums over the inner tiles 0 … k of block (i, j) of s·s and d·d
  (by induction on the point). At k = 7 those are the full products, and the body writes into the two outputs' block (i, j)

      (pt + p1 − 2·pt·p1) + (½·(s·s + d·d))·tri·(1 − p1)      and      (nt + n1 − 2·nt·n1) + (½·(s·s − d·d))·tri·(1 − n1),

  tri the indicator of (row < column). Those blocks are written back exactly at the points with k = 7, and the 64 blocks
  (i, j) cover each output array: the arrays end holding the two slabs of the two-product arrangement `Cert.Tri.GK` of the
  six arrays the windows sit on.
-/
import proofs.«154049_j57183194579701_2_alg».proof.Proof.KDat
import proofs.«154049_j57183194579701_2_alg».proof.Proof.KPieces
import proofs.«154049_j57183194579701_2_alg».proof.Proof.KPay
import proofs.«154049_j57183194579701_2_alg».proof.Proof.KPayTri
import proofs.«154049_j57183194579701_2_alg».proof.Proof.KBlocks
import proofs.«154049_j57183194579701_2_alg».proof.Proof.KAcc
import proofs.«154049_j57183194579701_2_alg».proof.Proof.TriSpec
import Idealize.ShloMosaic.Lib.Pipeline.Value

set_option maxRecDepth 16384

noncomputable section

open scoped BigOperators

namespace Cert.KernelIdeal.Val

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)
open Cert.Acc (at2 part upTo)

variable (V : (c : Dev nD) → (b : Ref sig .tc) → Buf (Elt Ideal) ((c : Thread nD τ).loc b)) (c : Dev nD)

/-- The six arrays the windows sit on, as functions to the extended reals. -/
abbrev aS : Cert.Acc.Sq.Idx → EReal := V c main_v95
abbrev aD : Cert.Acc.Sq.Idx → EReal := V c main_v96
abbrev aPT : Cert.Acc.Sq.Idx → EReal := V c main_v97
abbrev aP1 : Cert.Acc.Sq.Idx → EReal := V c main_v98
abbrev aNT : Cert.Acc.Sq.Idx → EReal := V c main_v99
abbrev aN1 : Cert.Acc.Sq.Idx → EReal := V c main_v100

theorem tN (t : Fin cfg0.N) : t.val < 512 := lt_of_lt_of_eq t.isLt N_0

/-! ## The blocks the body loads, as entries of the arrays -/
theorem blk0 (t : Fin cfg0.N) (r q : Fin 512) :
    ((iblk0 V c 0 t : Vec Ideal S512x512 .bf16) (ix2 r q) : EReal) = at2 (aS V c) (512 * (t.val / 64) + r.val) (512 * (t.val % 8) + q.val) := by
  have hN := tN t
  have ha : 512 * (t.val / 64) + r.val < 4096 := by have := r.isLt; omega
  have hb : 512 * (t.val % 8) + q.val < 4096 := by have := q.isLt; omega
  rw [Cert.Acc.at2_eq (aS V c) ⟨_, ha⟩ ⟨_, hb⟩ _ _ rfl rfl]
  exact Blocks.read0 (V c main_v95) t r q ⟨_, ha⟩ ⟨_, hb⟩ rfl rfl

theorem blk1 (t : Fin cfg0.N) (r q : Fin 512) :
    ((iblk0 V c 1 t : Vec Ideal S512x512 .bf16) (ix2 r q) : EReal) = at2 (aS V c) (512 * (t.val % 8) + r.val) (512 * (t.val / 8 % 8) + q.val) := by
  have hN := tN t
  have ha : 512 * (t.val % 8) + r.val < 4096 := by have := r.isLt; omega
  have hb : 512 * (t.val / 8 % 8) + q.val < 4096 := by have := q.isLt; omega
  rw [Cert.Acc.at2_eq (aS V c) ⟨_, ha⟩ ⟨_, hb⟩ _ _ rfl rfl]
  exact Blocks.read1 (V c main_v95) t r q ⟨_, ha⟩ ⟨_, hb⟩ rfl rfl

theorem blk2 (t : Fin cfg0.N) (r q : Fin 512) :
    ((iblk0 V c 2 t : Vec Ideal S512x512 .bf16) (ix2 r q) : EReal) = at2 (aD V c) (512 * (t.val / 64) + r.val) (512 * (t.val % 8) + q.val) := by
  have hN := tN t
  have ha : 512 * (t.val / 64) + r.val < 4096 := by have := r.isLt; omega
  have hb : 512 * (t.val % 8) + q.val < 4096 := by have := q.isLt; omega
  rw [Cert.Acc.at2_eq (aD V c) ⟨_, ha⟩ ⟨_, hb⟩ _ _ rfl rfl]
  exact Blocks.read2 (V c main_v96) t r q ⟨_, ha⟩ ⟨_, hb⟩ rfl rfl

theorem blk3 (t : Fin cfg0.N) (r q : Fin 512) :
    ((iblk0 V c 3 t : Vec Ideal S512x512 .bf16) (ix2 r q) : EReal) = at2 (aD V c) (512 * (t.val % 8) + r.val) (512 * (t.val / 8 % 8) + q.val) := by
  have hN := tN t
  have ha : 512 * (t.val % 8) + r.val < 4096 := by have := r.isLt; omega
  have hb : 512 * (t.val / 8 % 8) + q.val < 4096 := by have := q.isLt; omega
  rw [Cert.Acc.at2_eq (aD V c) ⟨_, ha⟩ ⟨_, hb⟩ _ _ rfl rfl]
  exact Blocks.read3 (V c main_v96) t r q ⟨_, ha⟩ ⟨_, hb⟩ rfl rfl

theorem blk4 (t : Fin cfg0.N) (r q : Fin 512) :
    ((iblk0 V c 4 t : Vec Ideal S512x512 .bf16) (ix2 r q) : EReal) = at2 (aPT V c) (512 * (t.val / 64) + r.val) (512 * (t.val / 8 % 8) + q.val) := by
  have hN := tN t
  have ha : 512 * (t.val / 64) + r.val < 4096 := by have := r.isLt; omega
  have hb : 512 * (t.val / 8 % 8) + q.val < 4096 := by have := q.isLt; omega
  rw [Cert.Acc.at2_eq (aPT V c) ⟨_, ha⟩ ⟨_, hb⟩ _ _ rfl rfl]
  exact Blocks.read4 (V c main_v97) t r q ⟨_, ha⟩ ⟨_, hb⟩ rfl rfl

theorem blk5 (t : Fin cfg0.N) (r q : Fin 512) :
    ((iblk0 V c 5 t : Vec Ideal S512x512 .bf16) (ix2 r q) : EReal) = at2 (aP1 V c) (512 * (t.val / 64) + r.val) (512 * (t.val / 8 % 8) + q.val) := by
  have hN := tN t
  have ha : 512 * (t.val / 64) + r.val < 4096 := by have := r.isLt; omega
  have hb : 512 * (t.val / 8 % 8) + q.val < 4096 := by have := q.isLt; omega
  rw [Cert.Acc.at2_eq (aP1 V c) ⟨_, ha⟩ ⟨_, hb⟩ _ _ rfl rfl]
  exact Blocks.read5 (V c main_v98) t r q ⟨_, ha⟩ ⟨_, hb⟩ rfl rfl

theorem blk6 (t : Fin cfg0.N) (r q : Fin 512) :
    ((iblk0 V c 6 t : Vec Ideal S512x512 .bf16) (ix2 r q) : EReal) = at2 (aNT V c) (512 * (t.val / 64) + r.val) (512 * (t.val / 8 % 8) + q.val) := by
  have hN := tN t
  have ha : 512 * (t.val / 64) + r.val < 4096 := by have := r.isLt; omega
  have hb : 512 * (t.val / 8 % 8) + q.val < 4096 := by have := q.isLt; omega
  rw [Cert.Acc.at2_eq (aNT V c) ⟨_, ha⟩ ⟨_, hb⟩ _ _ rfl rfl]
  exact Blocks.read6 (V c main_v99) t r q ⟨_, ha⟩ ⟨_, hb⟩ rfl rfl

theorem blk7 (t : Fin cfg0.N) (r q : Fin 512) :
    ((iblk0 V c 7 t : Vec Ideal S512x512 .bf16) (ix2 r q) : EReal) = at2 (aN1 V c) (512 * (t.val / 64) + r.val) (512 * (t.val / 8 % 8) + q.val) := by
  have hN := tN t
  have ha : 512 * (t.val / 64) + r.val < 4096 := by have := r.isLt; omega
  have hb : 512 * (t.val / 8 % 8) + q.val < 4096 := by have := q.isLt; omega
  rw [Cert.Acc.at2_eq (aN1 V c) ⟨_, ha⟩ ⟨_, hb⟩ _ _ rfl rfl]
  exact Blocks.read7 (V c main_v100) t r q ⟨_, ha⟩ ⟨_, hb⟩ rfl rfl

/-! ## The accumulate step is one inner tile's product -/

theorem dotS (t : Fin cfg0.N) (x0 x1 : Vec Ideal S512x512 .bf16) (h0 : x0 = iblk0 V c 0 t) (h1 : x1 = iblk0 V c 1 t) (r q : Fin 512) :
    (∑ k : Fin 512, (x0 (ix2 r k) : EReal) * (x1 (ix2 k q) : EReal))
      = part (aS V c) (aS V c) (t.val / 64) (t.val / 8 % 8) (t.val % 8) r q := by
  subst h0 h1
  unfold Cert.Acc.part
  exact Finset.sum_congr rfl fun k _ => by rw [blk0, blk1]

theorem dotD (t : Fin cfg0.N) (x2 x3 : Vec Ideal S512x512 .bf16) (h2 : x2 = iblk0 V c 2 t) (h3 : x3 = iblk0 V c 3 t) (r q : Fin 512) :
    (∑ k : Fin 512, (x2 (ix2 r k) : EReal) * (x3 (ix2 k q) : EReal))
      = part (aD V c) (aD V c) (t.val / 64) (t.val / 8 % 8) (t.val % 8) r q := by
  subst h2 h3
  unfold Cert.Acc.part
  exact Finset.sum_congr rfl fun k _ => by rw [blk2, blk3]

/-! ## The scratches after each point: the partial sums over the inner tiles so far -/

/-- What the two scratches hold after point n, at entry (r, q). -/
def ScratchAt (n : ℕ) (hn : n < cfg0.N) (r q : Fin 512) : Prop :=
  ((outsAt0 V c n hn).2.1 (ix2 r q) : EReal) = upTo (aS V c) (aS V c) (n / 64) (n / 8 % 8) (n % 8) r q
  ∧ ((outsAt0 V c n hn).2.2 (ix2 r q) : EReal) = upTo (aD V c) (aD V c) (n / 64) (n / 8 % 8) (n % 8) r q

/-- At a point with k = 0 the scratches are zeroed and one tile product is added. -/
theorem scratch_first (t : Fin cfg0.N) (h0 : t.val % 8 = 0) (r q : Fin 512) : ScratchAt V c t.val t.isLt r q := by
  have h1 : ¬t.val % 8 = 7 := by omega
  unfold ScratchAt
  rw [outsAt0_A V c t h0 h1]
  dsimp only [ptA0]
  rw [sout0_A_0_eq, sout0_A_1_eq, Pay.pay3_apply, Pay.pay4_apply, Pay.pay1_apply, Pay.pay2_apply, zero_add, zero_add, dotS V c t (iblk0 V c 0 t) (iblk0 V c 1 t) rfl rfl r q, dotD V c t (iblk0 V c 2 t) (iblk0 V c 3 t) rfl rfl r q, h0,
    Cert.Acc.upTo_zero, Cert.Acc.upTo_zero]
  exact ⟨rfl, rfl⟩

/-- At a later inner tile the scratches hold what the point before left plus this tile's product. -/
theorem scratch_next (t : Fin cfg0.N) (h0 : ¬t.val % 8 = 0)
    (ih : ∀ r q, ScratchAt V c (t.val - 1) (Nat.lt_of_le_of_lt (Nat.sub_le _ _) t.isLt) r q) (r q : Fin 512) :
    ScratchAt V c t.val t.isLt r q := by
  obtain ⟨k, hk⟩ : ∃ k, t.val % 8 = k + 1 := ⟨t.val % 8 - 1, by omega⟩
  have e1 : (t.val - 1) / 64 = t.val / 64 := by omega
  have e2 : (t.val - 1) / 8 % 8 = t.val / 8 % 8 := by omega
  have e3 : (t.val - 1) % 8 = k := by omega
  have ih' := ih r q
  unfold ScratchAt at ih' ⊢
  rw [e1, e2, e3] at ih'
  by_cases h7 : t.val % 8 = 7
  · rw [outsAt0_C V c t h0 h7]
    dsimp only [ptC0]
    rw [sout0_C_0_eq, sout0_C_1_eq, Pay.pay3_apply, Pay.pay4_apply, ih'.1, ih'.2, dotS V c t (iblk0 V c 0 t) (iblk0 V c 1 t) rfl rfl r q, dotD V c t (iblk0 V c 2 t) (iblk0 V c 3 t) rfl rfl r q, hk, Cert.Acc.upTo_succ, Cert.Acc.upTo_succ]
    exact ⟨rfl, rfl⟩
  · rw [outsAt0_B V c t h0 h7]
    dsimp only [ptB0]
    rw [sout0_B_0_eq, sout0_B_1_eq, Pay.pay3_apply, Pay.pay4_apply, ih'.1, ih'.2, dotS V c t (iblk0 V c 0 t) (iblk0 V c 1 t) rfl rfl r q, dotD V c t (iblk0 V c 2 t) (iblk0 V c 3 t) rfl rfl r q, hk, Cert.Acc.upTo_succ, Cert.Acc.upTo_succ]
    exact ⟨rfl, rfl⟩

/-- By induction on the point: after point n the scratches hold the partial sums over the inner tiles 0 … n % 8. -/
theorem scratch_eq : ∀ (n : ℕ) (hn : n < cfg0.N) (r q : Fin 512), ScratchAt V c n hn r q
  | 0, hn, r, q => scratch_first V c ⟨0, hn⟩ rfl r q
  | n + 1, hn, r, q => by
    by_cases h0 : (n + 1) % 8 = 0
    · exact scratch_first V c ⟨n + 1, hn⟩ h0 r q
    · exact scratch_next V c ⟨n + 1, hn⟩ h0 (fun r q => scratch_eq n (Nat.lt_of_succ_lt hn) r q) r q

/-! ## The grid coordinates of a point -/

theorem coords0 : ∀ t : Fin cfg0.N, (grid0.coords t 0).val = t.val / 64 :=
  (by decide +kernel : ∀ t : Fin grid0.N, (grid0.coords t 0).val = t.val / 64)
theorem coords1 : ∀ t : Fin cfg0.N, (grid0.coords t 1).val = t.val / 8 % 8 :=
  (by decide +kernel : ∀ t : Fin grid0.N, (grid0.coords t 1).val = t.val / 8 % 8)

/-! ## Output window 8 -/

/-- The array output 8 ends holding: slab 0 of the two-product arrangement of the six arrays. -/
def G8 : S4096x4096.Idx → EReal := fun idx =>
  Cert.Tri.GKat (aPT V c) (aP1 V c) (aNT V c) (aN1 V c) (aS V c) (aD V c) 0 (idx 0) (idx 1)

/-- At a point with k = 7 the body leaves in output 8's buffer the block (i, j) of that array. -/
theorem out8_eq (t : Fin cfg0.N) (h7 : t.val % 8 = 7) (r q : Fin 512) (a e : Fin 4096)
    (ha : a.val = 512 * (t.val / 64) + r.val) (he : e.val = 512 * (t.val / 8 % 8) + q.val) :
    ((outsAt0 V c t.val t.isLt).1.1 (ix2 r q) : EReal) = G8 V c (ix2 a e) := by
  have h0 : ¬t.val % 8 = 0 := by omega
  have hN := tN t
  have hs := scratch_eq V c t.val t.isLt r q
  unfold ScratchAt at hs
  rw [outsAt0_C V c t h0 h7] at hs ⊢
  dsimp only [ptC0] at hs ⊢
  rw [sout0_C_0_eq, sout0_C_1_eq] at hs
  rw [out0_C_8_eq, Pay.pay5_apply, hs.1, hs.2, h7, blk4, blk5, Pay.pay7_apply (grid0.coords t 0) (grid0.coords t 1) r q,
    coords0 t, coords1 t]
  have hi : t.val / 64 < 8 := by omega
  have hj : t.val / 8 % 8 < 8 := by omega
  rw [Cert.Acc.upTo_seven (aS V c) (aS V c) ⟨t.val / 64, hi⟩ ⟨t.val / 8 % 8, hj⟩ r q a e ha he,
    Cert.Acc.upTo_seven (aD V c) (aD V c) ⟨t.val / 64, hi⟩ ⟨t.val / 8 % 8, hj⟩ r q a e ha he,
    Cert.Acc.at2_eq (aPT V c) a e _ _ ha he, Cert.Acc.at2_eq (aP1 V c) a e _ _ ha he]
  unfold G8
  rw [show (ix2 a e : S4096x4096.Idx) 0 = a from rfl, show (ix2 a e : S4096x4096.Idx) 1 = e from rfl, Cert.Tri.GKat_zero]
  unfold Cert.Tri.tri Cert.Tri.half
  rw [ha, he]

/-- What a point with k = 7 writes back is block (i, j) of the array. -/
theorem flushed8_eq (t : Fin cfg0.N) (hf : (cfg0.win 8).flush t = true) :
    (dat0 V c).flushed 8 t = ((cfg0.win 8).blk t).view.read (Elt Ideal) (G8 V c) := by
  have h7 : t.val % 8 = 7 := (flush0_8 t).mp hf
  have hN := tN t
  show (cfg0.win 8).cut (grid0.coords t) ((dat0 V c).after 8 t) = _
  rw [after0_8]
  show ((outsAt0 V c t.val t.isLt).1.1 : Vec Ideal S512x512 .f32) = (((cfg0.win 8).blk t).view.read (Elt Ideal) (G8 V c) : Vec Ideal S512x512 .f32)
  funext j
  obtain ⟨r, q, rfl⟩ : ∃ (r q : Fin 512), j = ix2 r q := ⟨j 0, j 1, eq_ix2 j⟩
  have ha : 512 * (t.val / 64) + r.val < 4096 := by have := r.isLt; omega
  have he : 512 * (t.val / 8 % 8) + q.val < 4096 := by have := q.isLt; omega
  rw [Blocks.read8 (F := Ideal) (G8 V c) t r q ⟨_, ha⟩ ⟨_, he⟩ rfl rfl]
  exact out8_eq V c t h7 r q ⟨_, ha⟩ ⟨_, he⟩ rfl rfl

/-- An index of the array is in point t's block iff each coordinate is in the block's range on its axis. -/
theorem mem_blk8 (t : Fin cfg0.N) (i : S4096x4096.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v101_0).slice (win0_8.rect t)).set ↔ _
  rw [View.set_slice_whole, Rect.mem_set_unit]
  exact Iff.rfl

/-- Every entry of the array lies in the block of the point (row / 512, column / 512, 7), which is written back. -/
theorem cover8 (i : S4096x4096.Idx) : ∃ t : Fin cfg0.N, (cfg0.win 8).flush t = true ∧ i ∈ ((cfg0.win 8).blk t).view.set := by
  have h0 : (i 0).val < 4096 := (i 0).isLt
  have h1 : (i 1).val < 4096 := (i 1).isLt
  have hlt : 64 * ((i 0).val / 512) + 8 * ((i 1).val / 512) + 7 < cfg0.N := by rw [show cfg0.N = 512 from N_0]; omega
  refine ⟨⟨64 * ((i 0).val / 512) + 8 * ((i 1).val / 512) + 7, hlt⟩, (flush0_8 _).mpr (by show (64 * ((i 0).val / 512) + 8 * ((i 1).val / 512) + 7) % 8 = 7; omega), ?_⟩
  rw [mem_blk8]
  intro a
  match a with
  | ⟨0, _⟩ =>
    show win0_8.index _ 0 * 512 ≤ (i 0).val ∧ (i 0).val < win0_8.index _ 0 * 512 + 512
    rw [(Blocks.idx8 _).1]
    show (64 * ((i 0).val / 512) + 8 * ((i 1).val / 512) + 7) / 64 * 512 ≤ (i 0).val ∧ (i 0).val < (64 * ((i 0).val / 512) + 8 * ((i 1).val / 512) + 7) / 64 * 512 + 512
    omega
  | ⟨1, _⟩ =>
    show win0_8.index _ 1 * 512 ≤ (i 1).val ∧ (i 1).val < win0_8.index _ 1 * 512 + 512
    rw [(Blocks.idx8 _).2]
    show (64 * ((i 0).val / 512) + 8 * ((i 1).val / 512) + 7) / 8 % 8 * 512 ≤ (i 1).val ∧ (i 1).val < (64 * ((i 0).val / 512) + 8 * ((i 1).val / 512) + 7) / 8 % 8 * 512 + 512
    omega

/-- So the array ends holding it. -/
theorem final8 : (dat0 V c).arrAt 8 cfg0.N = G8 V c :=
  (dat0 V c).arrAt_eq_of_cover 8 (G8 V c) (flushed8_eq V c) (cover8)

/-! ## Output window 9 -/

/-- The array output 9 ends holding: slab 1 of the two-product arrangement of the six arrays. -/
def G9 : S4096x4096.Idx → EReal := fun idx =>
  Cert.Tri.GKat (aPT V c) (aP1 V c) (aNT V c) (aN1 V c) (aS V c) (aD V c) 1 (idx 0) (idx 1)

/-- At a point with k = 7 the body leaves in output 9's buffer the block (i, j) of that array. -/
theorem out9_eq (t : Fin cfg0.N) (h7 : t.val % 8 = 7) (r q : Fin 512) (a e : Fin 4096)
    (ha : a.val = 512 * (t.val / 64) + r.val) (he : e.val = 512 * (t.val / 8 % 8) + q.val) :
    ((outsAt0 V c t.val t.isLt).1.2 (ix2 r q) : EReal) = G9 V c (ix2 a e) := by
  have h0 : ¬t.val % 8 = 0 := by omega
  have hN := tN t
  have hs := scratch_eq V c t.val t.isLt r q
  unfold ScratchAt at hs
  rw [outsAt0_C V c t h0 h7] at hs ⊢
  dsimp only [ptC0] at hs ⊢
  rw [sout0_C_0_eq, sout0_C_1_eq] at hs
  rw [out0_C_9_eq, Pay.pay6_apply, hs.1, hs.2, h7, blk6, blk7, Pay.pay7_apply (grid0.coords t 0) (grid0.coords t 1) r q,
    coords0 t, coords1 t]
  have hi : t.val / 64 < 8 := by omega
  have hj : t.val / 8 % 8 < 8 := by omega
  rw [Cert.Acc.upTo_seven (aS V c) (aS V c) ⟨t.val / 64, hi⟩ ⟨t.val / 8 % 8, hj⟩ r q a e ha he,
    Cert.Acc.upTo_seven (aD V c) (aD V c) ⟨t.val / 64, hi⟩ ⟨t.val / 8 % 8, hj⟩ r q a e ha he,
    Cert.Acc.at2_eq (aNT V c) a e _ _ ha he, Cert.Acc.at2_eq (aN1 V c) a e _ _ ha he]
  unfold G9
  rw [show (ix2 a e : S4096x4096.Idx) 0 = a from rfl, show (ix2 a e : S4096x4096.Idx) 1 = e from rfl, Cert.Tri.GKat_one]
  unfold Cert.Tri.tri Cert.Tri.half
  rw [ha, he]

/-- What a point with k = 7 writes back is block (i, j) of the array. -/
theorem flushed9_eq (t : Fin cfg0.N) (hf : (cfg0.win 9).flush t = true) :
    (dat0 V c).flushed 9 t = ((cfg0.win 9).blk t).view.read (Elt Ideal) (G9 V c) := by
  have h7 : t.val % 8 = 7 := (flush0_9 t).mp hf
  have hN := tN t
  show (cfg0.win 9).cut (grid0.coords t) ((dat0 V c).after 9 t) = _
  rw [after0_9]
  show ((outsAt0 V c t.val t.isLt).1.2 : Vec Ideal S512x512 .f32) = (((cfg0.win 9).blk t).view.read (Elt Ideal) (G9 V c) : Vec Ideal S512x512 .f32)
  funext j
  obtain ⟨r, q, rfl⟩ : ∃ (r q : Fin 512), j = ix2 r q := ⟨j 0, j 1, eq_ix2 j⟩
  have ha : 512 * (t.val / 64) + r.val < 4096 := by have := r.isLt; omega
  have he : 512 * (t.val / 8 % 8) + q.val < 4096 := by have := q.isLt; omega
  rw [Blocks.read9 (F := Ideal) (G9 V c) t r q ⟨_, ha⟩ ⟨_, he⟩ rfl rfl]
  exact out9_eq V c t h7 r q ⟨_, ha⟩ ⟨_, he⟩ rfl rfl

/-- An index of the array is in point t's block iff each coordinate is in the block's range on its axis. -/
theorem mem_blk9 (t : Fin cfg0.N) (i : S4096x4096.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v101_1).slice (win0_9.rect t)).set ↔ _
  rw [View.set_slice_whole, Rect.mem_set_unit]
  exact Iff.rfl

/-- Every entry of the array lies in the block of the point (row / 512, column / 512, 7), which is written back. -/
theorem cover9 (i : S4096x4096.Idx) : ∃ t : Fin cfg0.N, (cfg0.win 9).flush t = true ∧ i ∈ ((cfg0.win 9).blk t).view.set := by
  have h0 : (i 0).val < 4096 := (i 0).isLt
  have h1 : (i 1).val < 4096 := (i 1).isLt
  have hlt : 64 * ((i 0).val / 512) + 8 * ((i 1).val / 512) + 7 < cfg0.N := by rw [show cfg0.N = 512 from N_0]; omega
  refine ⟨⟨64 * ((i 0).val / 512) + 8 * ((i 1).val / 512) + 7, hlt⟩, (flush0_9 _).mpr (by show (64 * ((i 0).val / 512) + 8 * ((i 1).val / 512) + 7) % 8 = 7; omega), ?_⟩
  rw [mem_blk9]
  intro a
  match a with
  | ⟨0, _⟩ =>
    show win0_9.index _ 0 * 512 ≤ (i 0).val ∧ (i 0).val < win0_9.index _ 0 * 512 + 512
    rw [(Blocks.idx9 _).1]
    show (64 * ((i 0).val / 512) + 8 * ((i 1).val / 512) + 7) / 64 * 512 ≤ (i 0).val ∧ (i 0).val < (64 * ((i 0).val / 512) + 8 * ((i 1).val / 512) + 7) / 64 * 512 + 512
    omega
  | ⟨1, _⟩ =>
    show win0_9.index _ 1 * 512 ≤ (i 1).val ∧ (i 1).val < win0_9.index _ 1 * 512 + 512
    rw [(Blocks.idx9 _).2]
    show (64 * ((i 0).val / 512) + 8 * ((i 1).val / 512) + 7) / 8 % 8 * 512 ≤ (i 1).val ∧ (i 1).val < (64 * ((i 0).val / 512) + 8 * ((i 1).val / 512) + 7) / 8 % 8 * 512 + 512
    omega

/-- So the array ends holding it. -/
theorem final9 : (dat0 V c).arrAt 9 cfg0.N = G9 V c :=
  (dat0 V c).arrAt_eq_of_cover 9 (G9 V c) (flushed9_eq V c) (cover9)

end Cert.KernelIdeal.Val

end
-- ==== Proof.KHost.lean ====
/-
  The kernel's host operations before the region, read as values.

  From each of the four edge lists the program builds a dense 4096 x 4096 array: zeros with a one scattered at every
  (wrapped) edge. With off = 1 - eye (one minus the indicator of the diagonal, as an equality of two iotas), spo = p1 * off
  and sno = (n1 * (1 - p1)) * off, the six arrays the region's windows sit on are s = spo + sno, d = spo - sno, and the four
  dense arrays, each rounded to bf16. These lemmas name those terms; they hold for any contents of the buffers before the
  operations run and for every float instance.
-/
import proofs.«154049_j57183194579701_2_alg».proof.Proof.Gen.KernelIdeal.Launch
import Idealize.ShloMosaic.Lib.StableHlo.Run

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo

variable {F : FTy → Type} [FloatOps F]

/-- The dense adjacency array of an edge list: zeros, with a one written at (e₀, e₁) for every edge, a negative coordinate
    wrapped by 4096 first. -/
def dense (x : (⟨S2x200000, .i32⟩ : BufTy).Contents (Elt F)) : (⟨S4096x4096, .f32⟩ : BufTy).Contents (Elt F) :=
  (Host.scatter scatter_S4096x4096_S200000x2_S200000_n_01_01_1 (fun _ b => b) (broadcastInDim S4096x4096 ![] bcast_S_S4096x4096 (constant (F := F) S_ .f32 0x00000000#32)) (concatenate S200000x2 1 [⟨S200000x1, (broadcastInDim S200000x1 ![0] bcast_S200000_S200000x1_0 (select (cmpi .slt (shapeCast _ (extractStridedSlice S1x200000 ![0, 0] x slices_S2x200000_S1x200000_0_0) shapeCasts_S1x200000_S200000) (broadcastInDim S200000 ![] bcast_S_S200000 (constantI S_ 32 0#32))) (addi (shapeCast _ (extractStridedSlice S1x200000 ![0, 0] x slices_S2x200000_S1x200000_0_0) shapeCasts_S1x200000_S200000) (broadcastInDim S200000 ![] bcast_S_S200000 (constantI S_ 32 4096#32))) (shapeCast _ (extractStridedSlice S1x200000 ![0, 0] x slices_S2x200000_S1x200000_0_0) shapeCasts_S1x200000_S200000)))⟩, ⟨S200000x1, (broadcastInDim S200000x1 ![0] bcast_S200000_S200000x1_0 (select (cmpi .slt (shapeCast _ (extractStridedSlice S1x200000 ![1, 0] x slices_S2x200000_S1x200000_1_0) shapeCasts_S1x200000_S200000) (broadcastInDim S200000 ![] bcast_S_S200000 (constantI S_ 32 0#32))) (addi (shapeCast _ (extractStridedSlice S1x200000 ![1, 0] x slices_S2x200000_S1x200000_1_0) shapeCasts_S1x200000_S200000) (broadcastInDim S200000 ![] bcast_S_S200000 (constantI S_ 32 4096#32))) (shapeCast _ (extractStridedSlice S1x200000 ![1, 0] x slices_S2x200000_S1x200000_1_0) shapeCasts_S1x200000_S200000)))⟩] concatenates_S200000x1_S200000x1_S200000x2_d1) (broadcastInDim S200000 ![] bcast_S_S200000 (constant (F := F) S_ .f32 0x3F800000#32)))

/-- The all-ones array. -/
def ones : (⟨S4096x4096, .f32⟩ : BufTy).Contents (Elt F) := broadcastInDim S4096x4096 ![] bcast_S_S4096x4096 (constant (F := F) S_ .f32 0x3F800000#32)

/-- One minus the indicator of the diagonal. -/
def off : (⟨S4096x4096, .f32⟩ : BufTy).Contents (Elt F) :=
  subf ones (uitofp .f32 (cmpi .eq (addi (iotaInDim S4096x4096 32 0) (broadcastInDim S4096x4096 ![] bcast_S_S4096x4096 (constantI S_ 32 0#32))) (iotaInDim S4096x4096 32 1)))

/-- The positive-sign indicator off the diagonal, and the negative-sign one (a positive edge has priority). -/
def spo (x1 : (⟨S2x200000, .i32⟩ : BufTy).Contents (Elt F)) : (⟨S4096x4096, .f32⟩ : BufTy).Contents (Elt F) := mulf (dense x1) off
def sno (x1 x3 : (⟨S2x200000, .i32⟩ : BufTy).Contents (Elt F)) : (⟨S4096x4096, .f32⟩ : BufTy).Contents (Elt F) := mulf (mulf (dense x3) (subf ones (dense x1))) off

end Cert.KernelIdeal.HostK

end
-- ==== Proof.KHostDense.lean ====
/-
  The four dense arrays the region's side windows sit on, after the host operations before the region: each is the dense
  adjacency array of one argument, rounded to bf16.
-/
import proofs.«154049_j57183194579701_2_alg».proof.Proof.KHost

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo

variable {F : FTy → Type} [FloatOps F]
variable (V : Valuation τ sig (Elt F))

set_option maxHeartbeats 20000000 in
/-- The window array v97 after the host operations: the dense array of argument 0, rounded to bf16. -/
theorem v97 : StableHlo.after hostOps0 V (Proc.devRef .tc main_v97) = truncf .bf16 (dense (V (Proc.devRef .tc main_arg0))) bitsLt_bf16_f32 := by
  after_results_simp <;> rfl
set_option maxHeartbeats 20000000 in
/-- The window array v98 after the host operations: the dense array of argument 1, rounded to bf16. -/
theorem v98 : StableHlo.after hostOps0 V (Proc.devRef .tc main_v98) = truncf .bf16 (dense (V (Proc.devRef .tc main_arg1))) bitsLt_bf16_f32 := by
  after_results_simp <;> rfl
set_option maxHeartbeats 20000000 in
/-- The window array v99 after the host operations: the dense array of argument 2, rounded to bf16. -/
theorem v99 : StableHlo.after hostOps0 V (Proc.devRef .tc main_v99) = truncf .bf16 (dense (V (Proc.devRef .tc main_arg2))) bitsLt_bf16_f32 := by
  after_results_simp <;> rfl
set_option maxHeartbeats 20000000 in
/-- The window array v100 after the host operations: the dense array of argument 3, rounded to bf16. -/
theorem v100 : StableHlo.after hostOps0 V (Proc.devRef .tc main_v100) = truncf .bf16 (dense (V (Proc.devRef .tc main_arg3))) bitsLt_bf16_f32 := by
  after_results_simp <;> rfl

end Cert.KernelIdeal.HostK

end
-- ==== Proof.KHostSD.lean ====
/-
  The two matrix operands the region's windows sit on, after the host operations before the region: s = spo + sno and
  d = spo - sno, each rounded to bf16.
-/
import proofs.«154049_j57183194579701_2_alg».proof.Proof.KHost

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo

variable {F : FTy → Type} [FloatOps F]
variable (V : Valuation τ sig (Elt F))

set_option maxHeartbeats 20000000 in
/-- The array s: the sum of the two sign indicators. -/
theorem v95 : StableHlo.after hostOps0 V (Proc.devRef .tc main_v95)
    = truncf .bf16 (addf (spo (V (Proc.devRef .tc main_arg1))) (sno (V (Proc.devRef .tc main_arg1)) (V (Proc.devRef .tc main_arg3)))) bitsLt_bf16_f32 := by
  after_results_simp <;> rfl
set_option maxHeartbeats 20000000 in
/-- The array d: their difference. -/
theorem v96 : StableHlo.after hostOps0 V (Proc.devRef .tc main_v96)
    = truncf .bf16 (subf (spo (V (Proc.devRef .tc main_arg1))) (sno (V (Proc.devRef .tc main_arg1)) (V (Proc.devRef .tc main_arg3)))) bitsLt_bf16_f32 := by
  after_results_simp <;> rfl

end Cert.KernelIdeal.HostK

end
-- ==== Proof.KStack.lean ====
/-
  The stacked result read at an index: a concatenation along the leading axis of two `[4096, 4096]` arrays, each
  first given a leading axis of extent one, is at `(h, a, e)` the first array at `(a, e)` when `h = 0` and the second
  when `h = 1`. The elements may be of any type, and the two shape facts may be any proofs of their statements.
-/
import proofs.«154049_j57183194579701_2_alg».proof.Proof.Gen.KernelIdeal
import Idealize.ShloMosaic.Lib.Pipeline.Value
import Idealize.ShloMosaic.Lib.ValueIdx

noncomputable section

namespace Cert.KernelIdeal.Stack

open Cert.KernelIdeal Cert.KernelIdeal.Gen Idealize.ShloMosaic Idealize.ShloMosaic.ValueIdx

variable {α : Type}

/-- A `[4096, 4096]` array given a leading unit axis, read at `(0, a, e)`, is the array at `(a, e)`. -/
theorem slab_apply (hb : S4096x4096.BroadcastsInDim S1x4096x4096 (![1, 2] : Fin 2 → Fin S1x4096x4096.rank))
    (A : S4096x4096.Idx → α) (a e : Fin 4096) :
    broadcastInDim S1x4096x4096 ![1, 2] hb A (ix3 (0 : Fin 1) a e) = A (ix2 a e) :=
  broadcastInDim_apply _ hb A (ix3 (0 : Fin 1) a e) (ix2 a e) (fun d => match d with
    | ⟨0, _⟩ => by show a.val = if (4096 : Nat) = 1 then 0 else a.val; rw [if_neg (by decide)]
    | ⟨1, _⟩ => by show e.val = if (4096 : Nat) = 1 then 0 else e.val; rw [if_neg (by decide)])

/-- The stack at `(0, a, e)` is the first array at `(a, e)`. -/
theorem stack_zero (hb : S4096x4096.BroadcastsInDim S1x4096x4096 (![1, 2] : Fin 2 → Fin S1x4096x4096.rank))
    (hc : Shape.Concatenates [S1x4096x4096, S1x4096x4096] S2x4096x4096 0)
    (A8 A9 : S4096x4096.Idx → α) (a e : Fin 4096) :
    concatenate S2x4096x4096 0 [⟨S1x4096x4096, broadcastInDim S1x4096x4096 ![1, 2] hb A8⟩,
        ⟨S1x4096x4096, broadcastInDim S1x4096x4096 ![1, 2] hb A9⟩] hc (ix3 (0 : Fin 2) a e) = A8 (ix2 a e) := by
  refine Eq.trans (concatenate_pair_apply_left (t := S2x4096x4096) (s₁ := S1x4096x4096) (s₂ := S1x4096x4096)
    (0 : Fin 3) _ _ _ _ rfl (ix3 (0 : Fin 1) a e) ?_) ?_
  · intro b
    match b with
    | ⟨0, _⟩ => rfl
    | ⟨1, _⟩ => rfl
    | ⟨2, _⟩ => rfl
  · exact slab_apply hb A8 a e

/-- The stack at `(1, a, e)` is the second array at `(a, e)`. -/
theorem stack_one (hb : S4096x4096.BroadcastsInDim S1x4096x4096 (![1, 2] : Fin 2 → Fin S1x4096x4096.rank))
    (hc : Shape.Concatenates [S1x4096x4096, S1x4096x4096] S2x4096x4096 0)
    (A8 A9 : S4096x4096.Idx → α) (a e : Fin 4096) :
    concatenate S2x4096x4096 0 [⟨S1x4096x4096, broadcastInDim S1x4096x4096 ![1, 2] hb A8⟩,
        ⟨S1x4096x4096, broadcastInDim S1x4096x4096 ![1, 2] hb A9⟩] hc (ix3 (1 : Fin 2) a e) = A9 (ix2 a e) := by
  refine Eq.trans (concatenate_pair_apply_right (t := S2x4096x4096) (s₁ := S1x4096x4096) (s₂ := S1x4096x4096)
    (0 : Fin 3) _ _ _ _ rfl rfl (ix3 (0 : Fin 1) a e) ?_ ?_) ?_
  · intro b hb'
    match b, hb' with
    | ⟨0, _⟩, hb' => exact absurd (Fin.ext rfl) hb'
    | ⟨1, _⟩, _ => rfl
    | ⟨2, _⟩, _ => rfl
  · rfl
  · exact slab_apply hb A9 a e

/-- The stack at `(h, a, e)`: the first array when `h = 0`, else the second. -/
theorem stack_if (hb : S4096x4096.BroadcastsInDim S1x4096x4096 (![1, 2] : Fin 2 → Fin S1x4096x4096.rank))
    (hc : Shape.Concatenates [S1x4096x4096, S1x4096x4096] S2x4096x4096 0)
    (A8 A9 : S4096x4096.Idx → α) (h : Fin 2) (a e : Fin 4096) :
    concatenate S2x4096x4096 0 [⟨S1x4096x4096, broadcastInDim S1x4096x4096 ![1, 2] hb A8⟩,
        ⟨S1x4096x4096, broadcastInDim S1x4096x4096 ![1, 2] hb A9⟩] hc (ix3 h a e)
      = if h = 0 then A8 (ix2 a e) else A9 (ix2 a e) := by
  match h with
  | ⟨0, _⟩ => exact (stack_zero hb hc A8 A9 a e).trans (if_pos rfl).symm
  | ⟨1, _⟩ =>
    exact (stack_one hb hc A8 A9 a e).trans (if_neg (fun hh => Nat.one_ne_zero (congrArg Fin.val hh))).symm

/-- The same over the generated module's own proofs of the two shape facts. -/
theorem stack_apply (A8 A9 : S4096x4096.Idx → α) (h : Fin 2) (a e : Fin 4096) :
    concatenate S2x4096x4096 0 [⟨S1x4096x4096, broadcastInDim S1x4096x4096 ![1, 2] bcast_S4096x4096_S1x4096x4096_1_2 A8⟩,
        ⟨S1x4096x4096, broadcastInDim S1x4096x4096 ![1, 2] bcast_S4096x4096_S1x4096x4096_1_2 A9⟩]
        concatenates_S1x4096x4096_S1x4096x4096_S2x4096x4096_d0 (ix3 h a e)
      = if h = 0 then A8 (ix2 a e) else A9 (ix2 a e) :=
  stack_if _ _ A8 A9 h a e

end Cert.KernelIdeal.Stack

end
-- ==== Proof.KBridge.lean ====
/-
  The two programs build their dense arrays and masked indicators by the same host operations.

  Each program spells the operations over its own copies of the shape names and dimension records; the copies have
  the same contents, so each of the kernel program's host stages — the dense array of an edge list, the
  off-diagonal mask `1 − eye`, `spo = p1 · off`, `sno = (n1 · (1 − p1)) · off` — is, as a function of the
  argument arrays, the reference's stage of the same name. Nothing is computed: the two terms unfold to one.
-/
import proofs.«154049_j57183194579701_2_alg».proof.Proof.RefReadP
import proofs.«154049_j57183194579701_2_alg».proof.Proof.KHost

set_option maxRecDepth 16384

noncomputable section

namespace Cert.Bridge

open Idealize.ShloMosaic
open Cert.ReferenceIdeal (S2x200000)

/-- An argument array: a `[2, 200000]` array of 32-bit words. -/
abbrev Arg : Type := (⟨S2x200000, .i32⟩ : BufTy).Contents (Elt Ideal)

/-- The kernel program's dense array of an edge list is the reference's first dense stage … -/
theorem dense_eq_v19 (x : Arg) :
    Cert.KernelIdeal.HostK.dense (F := Ideal) x = Cert.ReferenceIdeal.Read.val_main_v19 (F := Ideal) x := rfl
/-- … and its second … -/
theorem dense_eq_v39 (x : Arg) :
    Cert.KernelIdeal.HostK.dense (F := Ideal) x = Cert.ReferenceIdeal.Read.val_main_v39 (F := Ideal) x := rfl
/-- … and its third … -/
theorem dense_eq_v59 (x : Arg) :
    Cert.KernelIdeal.HostK.dense (F := Ideal) x = Cert.ReferenceIdeal.Read.val_main_v59 (F := Ideal) x := rfl
/-- … and its fourth: the four are one function of the edge list. -/
theorem dense_eq_v79 (x : Arg) :
    Cert.KernelIdeal.HostK.dense (F := Ideal) x = Cert.ReferenceIdeal.Read.val_main_v79 (F := Ideal) x := rfl

/-- The all-ones array is the reference's (each of its copies). -/
theorem ones_eq_v99 : Cert.KernelIdeal.HostK.ones (F := Ideal) = Cert.ReferenceIdeal.Read.val_main_v99 (F := Ideal) := rfl
theorem ones_eq_v90 : Cert.KernelIdeal.HostK.ones (F := Ideal) = Cert.ReferenceIdeal.Read.val_main_v90 (F := Ideal) := rfl

/-- The off-diagonal mask is the reference's. -/
theorem off_eq : Cert.KernelIdeal.HostK.off (F := Ideal) = Cert.ReferenceIdeal.Read.val_main_v100 (F := Ideal) := rfl

/-- `spo` is the reference's. -/
theorem spo_eq (x1 : Arg) :
    Cert.KernelIdeal.HostK.spo (F := Ideal) x1 = Cert.ReferenceIdeal.Read.val_main_v101 (F := Ideal) x1 := by
  unfold Cert.KernelIdeal.HostK.spo
  rw [dense_eq_v39, off_eq]
  rfl

/-- `sno` is the reference's. -/
theorem sno_eq (x1 x3 : Arg) :
    Cert.KernelIdeal.HostK.sno (F := Ideal) x1 x3 = Cert.ReferenceIdeal.Read.val_main_v102 (F := Ideal) x1 x3 := by
  unfold Cert.KernelIdeal.HostK.sno
  rw [dense_eq_v79, dense_eq_v39, off_eq, ones_eq_v90]
  rfl

end Cert.Bridge

end
-- ==== Proof.RefValue.lean ====
/-
  The reference's result as a function of its four argument arrays, in the four-product arrangement `Cert.Tri.G`.

  The stages the arrangement is over are the reference's own: the four dense arrays (the scatters of ones into
  zeros), and the two masked indicators `spo = p1 · (1 − eye)` and `sno = (n1 · (1 − p1)) · (1 − eye)`. Read at an
  index, the closing concatenation picks a slab by the leading coordinate; each slab is the symmetric difference
  `x + y − (2·x)·y` plus the path count times the strict-upper-triangle mask times `1 − y`; each matrix product is the
  sum over the middle index; and the mask `select (row ≥ column) 0 1` is `1` exactly where the row is below the
  column (`ref_eq`). Every entry of `spo` and `sno` is `0` or `1`, a product of such values, hence a real number
  (`spo_real`, `sno_real`), which is what the two-product law (`Cert.Tri.GK_eq_G`) asks (`ref_eq_GK`).
-/
import proofs.«154049_j57183194579701_2_alg».proof.Proof.RefReadP
import proofs.«154049_j57183194579701_2_alg».proof.Proof.TriSpec
import proofs.«154049_j57183194579701_2_alg».proof.Proof.DenseFacts

noncomputable section

open scoped BigOperators

namespace Cert.ReferenceIdeal.RefValue

open Cert.ReferenceIdeal Cert.ReferenceIdeal.Gen Idealize.ShloMosaic Idealize.ShloMosaic.ValueIdx
open Cert.ReferenceIdeal.Read Cert.Tri Cert.Dense

/-- An argument array: a `[2, 200000]` array of 32-bit words. -/
abbrev Arg : Type := (⟨S2x200000, .i32⟩ : BufTy).Contents (Elt Ideal)

/-- The dense array of the first edge list. -/
abbrev PT (x0 : Arg) : Sq.Idx → EReal := val_main_v19 (F := Ideal) x0
/-- The dense array of the second edge list. -/
abbrev P1 (x1 : Arg) : Sq.Idx → EReal := val_main_v39 (F := Ideal) x1
/-- The dense array of the third edge list. -/
abbrev NT (x2 : Arg) : Sq.Idx → EReal := val_main_v59 (F := Ideal) x2
/-- The dense array of the fourth edge list. -/
abbrev N1 (x3 : Arg) : Sq.Idx → EReal := val_main_v79 (F := Ideal) x3
/-- The positive indicator off the diagonal: `p1 · (1 − eye)`. -/
abbrev SPO (x1 : Arg) : Sq.Idx → EReal := val_main_v101 (F := Ideal) x1
/-- The negative indicator off the diagonal: `(n1 · (1 − p1)) · (1 − eye)`. -/
abbrev SNO (x1 x3 : Arg) : Sq.Idx → EReal := val_main_v102 (F := Ideal) x1 x3

/-! ## The literals, read at an index -/

theorem two81 (i : Sq.Idx) : val_main_v81 (F := Ideal) i = ((2 : ℝ) : EReal) := by
  rw [val_main_v81_apply, val_main_cst_22_apply]; exact ofBits_two_f32
theorem two86 (i : Sq.Idx) : val_main_v86 (F := Ideal) i = ((2 : ℝ) : EReal) := by
  rw [val_main_v86_apply, val_main_cst_23_apply]; exact ofBits_two_f32
theorem one90 (i : Sq.Idx) : val_main_v90 (F := Ideal) i = ((1 : ℝ) : EReal) := by
  rw [val_main_v90_apply, val_main_cst_24_apply]; exact ofBits_one_f32
theorem one99 (i : Sq.Idx) : val_main_v99 (F := Ideal) i = ((1 : ℝ) : EReal) := by
  rw [val_main_v99_apply, val_main_cst_26_apply]; exact ofBits_one_f32
theorem one109 (i : Sq.Idx) : val_main_v109 (F := Ideal) i = ((1 : ℝ) : EReal) := by
  rw [val_main_v109_apply, val_main_cst_27_apply]; exact ofBits_one_f32
theorem one112 (i : Sq.Idx) : val_main_v112 (F := Ideal) i = ((1 : ℝ) : EReal) := by
  rw [val_main_v112_apply, val_main_cst_28_apply]; exact ofBits_one_f32
theorem one116 (i : Sq.Idx) : val_main_v116 (F := Ideal) i = ((1 : ℝ) : EReal) := by
  rw [val_main_v116_apply, val_main_cst_29_apply]; exact ofBits_one_f32
theorem zero_call0_v5 (i : Sq.Idx) : val_main_call0_v5 (F := Ideal) i = ((0 : ℝ) : EReal) := by
  rw [val_main_call0_v5_apply, val_main_call0_cst_apply]; exact ofBits_zero_f32

/-! ## The strict-upper-triangle mask -/

/-- The mask `select (row + 0 ≥ column) 0 1` is the strict upper triangle's indicator. -/
theorem tri_apply (a c : Fin 4096) : val_main_v110 (F := Ideal) (ix2 a c) = tri a c := by
  rw [val_main_v110_apply, zero_call0_v5, one109, val_main_call0_v4_apply, val_main_call0_v2_apply,
    val_main_call0_v0_apply, val_main_call0_v3_apply, val_main_call0_v1_apply, val_main_call0_c_apply]
  show Scalar.select (IntOp.cmpi .sge (IntOp.addi (BitVec.ofNat 32 a.val) 0#32) (BitVec.ofNat 32 c.val))
    ((0 : ℝ) : EReal) ((1 : ℝ) : EReal) = tri a c
  rw [cmpi_sge_small a.val c.val a.isLt c.isLt]
  unfold tri
  by_cases h : a.val < c.val
  · rw [if_pos h, if_neg (show ¬ c.val ≤ a.val by omega), select_zero]
  · rw [if_neg h, if_pos (show c.val ≤ a.val by omega), select_one]

/-! ## The four matrix products, by coordinates -/

theorem dot103 (x1 : Arg) (a c : Fin 4096) :
    val_main_v103 (F := Ideal) x1 (ix2 a c) = ∑ b : Fin 4096, SPO x1 (ix2 a b) * SPO x1 (ix2 b c) := by
  rw [val_main_v103_apply]
  refine Finset.sum_congr rfl fun k _ => ?_
  have hl : lidx_main_v103 (ix2 a c) k = ix2 a k := by
    funext d; match d with | ⟨0, _⟩ => rfl | ⟨1, _⟩ => rfl
  have hr : ridx_main_v103 (ix2 a c) k = ix2 k c := by
    funext d; match d with | ⟨0, _⟩ => rfl | ⟨1, _⟩ => rfl
  rw [hl, hr]

theorem dot104 (x1 x3 : Arg) (a c : Fin 4096) :
    val_main_v104 (F := Ideal) x1 x3 (ix2 a c) = ∑ b : Fin 4096, SNO x1 x3 (ix2 a b) * SNO x1 x3 (ix2 b c) := by
  rw [val_main_v104_apply]
  refine Finset.sum_congr rfl fun k _ => ?_
  have hl : lidx_main_v104 (ix2 a c) k = ix2 a k := by
    funext d; match d with | ⟨0, _⟩ => rfl | ⟨1, _⟩ => rfl
  have hr : ridx_main_v104 (ix2 a c) k = ix2 k c := by
    funext d; match d with | ⟨0, _⟩ => rfl | ⟨1, _⟩ => rfl
  rw [hl, hr]

theorem dot106 (x1 x3 : Arg) (a c : Fin 4096) :
    val_main_v106 (F := Ideal) x1 x3 (ix2 a c) = ∑ b : Fin 4096, SPO x1 (ix2 a b) * SNO x1 x3 (ix2 b c) := by
  rw [val_main_v106_apply]
  refine Finset.sum_congr rfl fun k _ => ?_
  have hl : lidx_main_v106 (ix2 a c) k = ix2 a k := by
    funext d; match d with | ⟨0, _⟩ => rfl | ⟨1, _⟩ => rfl
  have hr : ridx_main_v106 (ix2 a c) k = ix2 k c := by
    funext d; match d with | ⟨0, _⟩ => rfl | ⟨1, _⟩ => rfl
  rw [hl, hr]

theorem dot107 (x1 x3 : Arg) (a c : Fin 4096) :
    val_main_v107 (F := Ideal) x1 x3 (ix2 a c) = ∑ b : Fin 4096, SNO x1 x3 (ix2 a b) * SPO x1 (ix2 b c) := by
  rw [val_main_v107_apply]
  refine Finset.sum_congr rfl fun k _ => ?_
  have hl : lidx_main_v107 (ix2 a c) k = ix2 a k := by
    funext d; match d with | ⟨0, _⟩ => rfl | ⟨1, _⟩ => rfl
  have hr : ridx_main_v107 (ix2 a c) k = ix2 k c := by
    funext d; match d with | ⟨0, _⟩ => rfl | ⟨1, _⟩ => rfl
  rw [hl, hr]

/-! ## The two slabs -/

/-- The first slab at `(a, c)`. -/
theorem slab0 (x0 x1 x2 x3 : Arg) (a c : Fin 4096) :
    val_main_v119 (F := Ideal) x0 x1 x3 (ix2 a c)
      = Gat (PT x0) (P1 x1) (NT x2) (N1 x3) (SPO x1) (SNO x1 x3) 0 a c := by
  rw [Gat_zero, val_main_v119_apply, val_main_v84_apply, val_main_v80_apply, val_main_v83_apply, val_main_v82_apply,
    two81, val_main_v114_apply, val_main_v111_apply, val_main_v105_apply, dot103, dot104, tri_apply,
    val_main_v113_apply, one112]
  all_goals rfl

/-- The second slab at `(a, c)`. -/
theorem slab1 (x0 x1 x2 x3 : Arg) (a c : Fin 4096) :
    val_main_v120 (F := Ideal) x1 x2 x3 (ix2 a c)
      = Gat (PT x0) (P1 x1) (NT x2) (N1 x3) (SPO x1) (SNO x1 x3) 1 a c := by
  rw [Gat_one, val_main_v120_apply, val_main_v89_apply, val_main_v85_apply, val_main_v88_apply, val_main_v87_apply,
    two86, val_main_v118_apply, val_main_v115_apply, val_main_v108_apply, dot106, dot107, tri_apply,
    val_main_v117_apply, one116]
  all_goals rfl

/-! ## The reference's result -/

/-- THE REFERENCE'S VALUE: the stacked result is the four-product arrangement of its own stages. -/
theorem ref_eq (x0 x1 x2 x3 : Arg) :
    val_main_v123 (F := Ideal) x0 x1 x2 x3 = G (PT x0) (P1 x1) (NT x2) (N1 x3) (SPO x1) (SNO x1 x3) := by
  funext j
  obtain ⟨h, a, c, rfl⟩ : ∃ (h : Fin 2) (a c : Fin 4096), j = ix3 h a c := ⟨j 0, j 1, j 2, eq_ix3 j⟩
  rw [G_apply]
  unfold val_main_v123
  match h with
  | ⟨0, _⟩ =>
    refine Eq.trans (concatenate_pair_apply_left (t := S2x4096x4096) (s₁ := S1x4096x4096) (s₂ := S1x4096x4096)
      (0 : Fin 3) _ _ _ _ rfl (ix3 (0 : Fin 1) a c) ?_) ?_
    · intro b
      match b with
      | ⟨0, _⟩ => rfl
      | ⟨1, _⟩ => rfl
      | ⟨2, _⟩ => rfl
    · rw [val_main_v121_apply]
      have hi : idx_main_v121 (ix3 (0 : Fin 1) a c) = ix2 a c := by
        funext d; match d with | ⟨0, _⟩ => rfl | ⟨1, _⟩ => rfl
      rw [hi]
      exact slab0 x0 x1 x2 x3 a c
  | ⟨1, _⟩ =>
    refine Eq.trans (concatenate_pair_apply_right (t := S2x4096x4096) (s₁ := S1x4096x4096) (s₂ := S1x4096x4096)
      (0 : Fin 3) _ _ _ _ rfl rfl (ix3 (0 : Fin 1) a c) ?_ ?_) ?_
    · intro b hb
      match b, hb with
      | ⟨0, _⟩, hb => exact absurd (Fin.ext rfl) hb
      | ⟨1, _⟩, _ => rfl
      | ⟨2, _⟩, _ => rfl
    · rfl
    · rw [val_main_v122_apply]
      have hi : idx_main_v122 (ix3 (0 : Fin 1) a c) = ix2 a c := by
        funext d; match d with | ⟨0, _⟩ => rfl | ⟨1, _⟩ => rfl
      rw [hi]
      exact slab1 x0 x1 x2 x3 a c

/-! ## The stages' entries are `0` or `1` -/

theorem PT_bit (x0 : Arg) (i : Sq.Idx) : Bit (PT x0 i) :=
  scatter_bit _ (val_main_v0 (F := Ideal)) (val_main_v17 (F := Ideal) x0) (val_main_v18 (F := Ideal))
    (fun i => (val_main_v0_apply (F := Ideal) i).trans rfl) (fun j => (val_main_v18_apply (F := Ideal) j).trans rfl) i
theorem P1_bit (x1 : Arg) (i : Sq.Idx) : Bit (P1 x1 i) :=
  scatter_bit _ (val_main_v20 (F := Ideal)) (val_main_v37 (F := Ideal) x1) (val_main_v38 (F := Ideal))
    (fun i => (val_main_v20_apply (F := Ideal) i).trans rfl) (fun j => (val_main_v38_apply (F := Ideal) j).trans rfl) i
theorem NT_bit (x2 : Arg) (i : Sq.Idx) : Bit (NT x2 i) :=
  scatter_bit _ (val_main_v40 (F := Ideal)) (val_main_v57 (F := Ideal) x2) (val_main_v58 (F := Ideal))
    (fun i => (val_main_v40_apply (F := Ideal) i).trans rfl) (fun j => (val_main_v58_apply (F := Ideal) j).trans rfl) i
theorem N1_bit (x3 : Arg) (i : Sq.Idx) : Bit (N1 x3 i) :=
  scatter_bit _ (val_main_v60 (F := Ideal)) (val_main_v77 (F := Ideal) x3) (val_main_v78 (F := Ideal))
    (fun i => (val_main_v60_apply (F := Ideal) i).trans rfl) (fun j => (val_main_v78_apply (F := Ideal) j).trans rfl) i

/-- The off-diagonal mask `1 − eye` is `0` or `1`. -/
theorem off_bit (i : Sq.Idx) : Bit (val_main_v100 (F := Ideal) i) := by
  rw [val_main_v100_apply, one99]
  exact Bit.one_sub (uitofp_bit (val_main_v97 (F := Ideal) i))

theorem SPO_bit (x1 : Arg) (i : Sq.Idx) : Bit (SPO x1 i) := by
  show Bit (val_main_v101 (F := Ideal) x1 i)
  rw [val_main_v101_apply]
  exact Bit.mul (P1_bit x1 i) (off_bit i)

theorem SNO_bit (x1 x3 : Arg) (i : Sq.Idx) : Bit (SNO x1 x3 i) := by
  show Bit (val_main_v102 (F := Ideal) x1 x3 i)
  rw [val_main_v102_apply, val_main_v92_apply, val_main_v91_apply, one90]
  exact Bit.mul (Bit.mul (N1_bit x3 i) (Bit.one_sub (P1_bit x1 i))) (off_bit i)

/-- Every entry of `spo` is a real number. -/
theorem spo_real (x1 : Arg) : ∀ i, ∃ r : ℝ, SPO x1 i = (r : EReal) := fun i => (SPO_bit x1 i).real
/-- Every entry of `sno` is a real number. -/
theorem sno_real (x1 x3 : Arg) : ∀ i, ∃ r : ℝ, SNO x1 x3 i = (r : EReal) := fun i => (SNO_bit x1 x3 i).real

/-- The reference's result in the two-product arrangement, at `S = spo + sno`, `D = spo − sno`. -/
theorem ref_eq_GK (x0 x1 x2 x3 : Arg) :
    val_main_v123 (F := Ideal) x0 x1 x2 x3
      = GK (PT x0) (P1 x1) (NT x2) (N1 x3) (fun i => SPO x1 i + SNO x1 x3 i) (fun i => SPO x1 i - SNO x1 x3 i) :=
  (ref_eq x0 x1 x2 x3).trans
    (GK_eq_G (PT x0) (P1 x1) (NT x2) (N1 x3) (SPO x1) (SNO x1 x3) (spo_real x1) (sno_real x1 x3)).symm

end Cert.ReferenceIdeal.RefValue

end
-- ==== Proof.RefLink.lean ====
/-
  The reference's run and its stages: the buffer the run of the 164 host operations leaves at the result is the last
  stage of the operation-by-operation reading, at the launch contents of the four arguments.

  The operations are cut into six consecutive runs: one per dense array (ending in its scatter), the elementwise and
  matrix-product middle, and the closing three (two re-shapings and the stack). Running a concatenation of lines is
  running them one after the other (`after_append`). Over ANY contents before it, each of the first four runs leaves
  the dense array of its edge list at its scatter's buffer and does not touch the arguments or the dense arrays written
  before it; from contents that hold the four dense arrays the middle run leaves the two slabs; and the last run
  stacks whatever the two slab buffers hold. Chained, these give the result (`res_eq`), for every float instance.
-/
import proofs.«154049_j57183194579701_2_alg».proof.Proof.RefReadP
import Idealize.ShloMosaic.Lib.StableHlo.Run

noncomputable section

namespace Cert.ReferenceIdeal.Link

open Cert.ReferenceIdeal Cert.ReferenceIdeal.Gen Idealize.ShloMosaic Idealize.ShloMosaic.TcCoe Idealize.SL.Sem Idealize.ShloMosaic.StableHlo

variable {F : FTy → Type} [FloatOps F]

/-! ## The operations, cut into six runs -/

abbrev s1 : List (HloOp τ sig (Elt F)) :=
  [ nullary main_cst (constant S_ .f32 0x00000000#32),
    unary main_cst main_v0 (broadcastInDim S4096x4096 ![] bcast_S_S4096x4096 : (⟨S_, .f32⟩ : BufTy).Contents (Elt F) → (⟨S4096x4096, .f32⟩ : BufTy).Contents (Elt F)),
    unary main_arg0 main_v1 ((extractStridedSlice S1x200000 ![0, 0] · slices_S2x200000_S1x200000_0_0) : (⟨S2x200000, .i32⟩ : BufTy).Contents (Elt F) → (⟨S1x200000, .i32⟩ : BufTy).Contents (Elt F)),
    reshape main_v1 main_v2 rfl shapeCasts_S1x200000_S200000,
    unary main_arg0 main_v3 ((extractStridedSlice S1x200000 ![1, 0] · slices_S2x200000_S1x200000_1_0) : (⟨S2x200000, .i32⟩ : BufTy).Contents (Elt F) → (⟨S1x200000, .i32⟩ : BufTy).Contents (Elt F)),
    reshape main_v3 main_v4 rfl shapeCasts_S1x200000_S200000,
    nullary main_c (constantI S_ 32 0#32),
    unary main_c main_v5 (broadcastInDim S200000 ![] bcast_S_S200000 : (⟨S_, .i32⟩ : BufTy).Contents (Elt F) → (⟨S200000, .i32⟩ : BufTy).Contents (Elt F)),
    binary main_v2 main_v5 main_v6 (cmpi .slt : (⟨S200000, .i32⟩ : BufTy).Contents (Elt F) → (⟨S200000, .i32⟩ : BufTy).Contents (Elt F) → (⟨S200000, .i1⟩ : BufTy).Contents (Elt F)),
    nullary main_c_0 (constantI S_ 32 4096#32),
    unary main_c_0 main_v7 (broadcastInDim S200000 ![] bcast_S_S200000 : (⟨S_, .i32⟩ : BufTy).Contents (Elt F) → (⟨S200000, .i32⟩ : BufTy).Contents (Elt F)),
    binary main_v2 main_v7 main_v8 (addi : (⟨S200000, .i32⟩ : BufTy).Contents (Elt F) → (⟨S200000, .i32⟩ : BufTy).Contents (Elt F) → (⟨S200000, .i32⟩ : BufTy).Contents (Elt F)),
    ternary main_v6 main_v8 main_v2 main_v9 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    nullary main_c_1 (constantI S_ 32 0#32),
    unary main_c_1 main_v10 (broadcastInDim S200000 ![] bcast_S_S200000 : (⟨S_, .i32⟩ : BufTy).Contents (Elt F) → (⟨S200000, .i32⟩ : BufTy).Contents (Elt F)),
    binary main_v4 main_v10 main_v11 (cmpi .slt : (⟨S200000, .i32⟩ : BufTy).Contents (Elt F) → (⟨S200000, .i32⟩ : BufTy).Contents (Elt F) → (⟨S200000, .i1⟩ : BufTy).Contents (Elt F)),
    nullary main_c_2 (constantI S_ 32 4096#32),
    unary main_c_2 main_v12 (broadcastInDim S200000 ![] bcast_S_S200000 : (⟨S_, .i32⟩ : BufTy).Contents (Elt F) → (⟨S200000, .i32⟩ : BufTy).Contents (Elt F)),
    binary main_v4 main_v12 main_v13 (addi : (⟨S200000, .i32⟩ : BufTy).Contents (Elt F) → (⟨S200000, .i32⟩ : BufTy).Contents (Elt F) → (⟨S200000, .i32⟩ : BufTy).Contents (Elt F)),
    ternary main_v11 main_v13 main_v4 main_v14 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v9 main_v15 (broadcastInDim S200000x1 ![0] bcast_S200000_S200000x1_0 : (⟨S200000, .i32⟩ : BufTy).Contents (Elt F) → (⟨S200000x1, .i32⟩ : BufTy).Contents (Elt F)),
    unary main_v14 main_v16 (broadcastInDim S200000x1 ![0] bcast_S200000_S200000x1_0 : (⟨S200000, .i32⟩ : BufTy).Contents (Elt F) → (⟨S200000x1, .i32⟩ : BufTy).Contents (Elt F)),
    binary main_v15 main_v16 main_v17 ((fun a b => concatenate S200000x2 1 [⟨S200000x1, a⟩, ⟨S200000x1, b⟩] concatenates_S200000x1_S200000x1_S200000x2_d1) : (⟨S200000x1, .i32⟩ : BufTy).Contents (Elt F) → (⟨S200000x1, .i32⟩ : BufTy).Contents (Elt F) → (⟨S200000x2, .i32⟩ : BufTy).Contents (Elt F)),
    nullary main_cst_3 (constant S_ .f32 0x3F800000#32),
    unary main_cst_3 main_v18 (broadcastInDim S200000 ![] bcast_S_S200000 : (⟨S_, .f32⟩ : BufTy).Contents (Elt F) → (⟨S200000, .f32⟩ : BufTy).Contents (Elt F)),
    ternary main_v0 main_v17 main_v18 main_v19 ((fun x i u => Host.scatter scatter_S4096x4096_S200000x2_S200000_n_01_01_1 (fun _ b => b) x i u) : (⟨S4096x4096, .f32⟩ : BufTy).Contents (Elt F) → (⟨S200000x2, .i32⟩ : BufTy).Contents (Elt F) → (⟨S200000, .f32⟩ : BufTy).Contents (Elt F) → (⟨S4096x4096, .f32⟩ : BufTy).Contents (Elt F)) ]

abbrev s2 : List (HloOp τ sig (Elt F)) :=
  [ nullary main_cst_4 (constant S_ .f32 0x00000000#32),
    unary main_cst_4 main_v20 (broadcastInDim S4096x4096 ![] bcast_S_S4096x4096 : (⟨S_, .f32⟩ : BufTy).Contents (Elt F) → (⟨S4096x4096, .f32⟩ : BufTy).Contents (Elt F)),
    unary main_arg1 main_v21 ((extractStridedSlice S1x200000 ![0, 0] · slices_S2x200000_S1x200000_0_0) : (⟨S2x200000, .i32⟩ : BufTy).Contents (Elt F) → (⟨S1x200000, .i32⟩ : BufTy).Contents (Elt F)),
    reshape main_v21 main_v22 rfl shapeCasts_S1x200000_S200000,
    unary main_arg1 main_v23 ((extractStridedSlice S1x200000 ![1, 0] · slices_S2x200000_S1x200000_1_0) : (⟨S2x200000, .i32⟩ : BufTy).Contents (Elt F) → (⟨S1x200000, .i32⟩ : BufTy).Contents (Elt F)),
    reshape main_v23 main_v24 rfl shapeCasts_S1x200000_S200000,
    nullary main_c_5 (constantI S_ 32 0#32),
    unary main_c_5 main_v25 (broadcastInDim S200000 ![] bcast_S_S200000 : (⟨S_, .i32⟩ : BufTy).Contents (Elt F) → (⟨S200000, .i32⟩ : BufTy).Contents (Elt F)),
    binary main_v22 main_v25 main_v26 (cmpi .slt : (⟨S200000, .i32⟩ : BufTy).Contents (Elt F) → (⟨S200000, .i32⟩ : BufTy).Contents (Elt F) → (⟨S200000, .i1⟩ : BufTy).Contents (Elt F)),
    nullary main_c_6 (constantI S_ 32 4096#32),
    unary main_c_6 main_v27 (broadcastInDim S200000 ![] bcast_S_S200000 : (⟨S_, .i32⟩ : BufTy).Contents (Elt F) → (⟨S200000, .i32⟩ : BufTy).Contents (Elt F)),
    binary main_v22 main_v27 main_v28 (addi : (⟨S200000, .i32⟩ : BufTy).Contents (Elt F) → (⟨S200000, .i32⟩ : BufTy).Contents (Elt F) → (⟨S200000, .i32⟩ : BufTy).Contents (Elt F)),
    ternary main_v26 main_v28 main_v22 main_v29 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    nullary main_c_7 (constantI S_ 32 0#32),
    unary main_c_7 main_v30 (broadcastInDim S200000 ![] bcast_S_S200000 : (⟨S_, .i32⟩ : BufTy).Contents (Elt F) → (⟨S200000, .i32⟩ : BufTy).Contents (Elt F)),
    binary main_v24 main_v30 main_v31 (cmpi .slt : (⟨S200000, .i32⟩ : BufTy).Contents (Elt F) → (⟨S200000, .i32⟩ : BufTy).Contents (Elt F) → (⟨S200000, .i1⟩ : BufTy).Contents (Elt F)),
    nullary main_c_8 (constantI S_ 32 4096#32),
    unary main_c_8 main_v32 (broadcastInDim S200000 ![] bcast_S_S200000 : (⟨S_, .i32⟩ : BufTy).Contents (Elt F) → (⟨S200000, .i32⟩ : BufTy).Contents (Elt F)),
    binary main_v24 main_v32 main_v33 (addi : (⟨S200000, .i32⟩ : BufTy).Contents (Elt F) → (⟨S200000, .i32⟩ : BufTy).Contents (Elt F) → (⟨S200000, .i32⟩ : BufTy).Contents (Elt F)),
    ternary main_v31 main_v33 main_v24 main_v34 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v29 main_v35 (broadcastInDim S200000x1 ![0] bcast_S200000_S200000x1_0 : (⟨S200000, .i32⟩ : BufTy).Contents (Elt F) → (⟨S200000x1, .i32⟩ : BufTy).Contents (Elt F)),
    unary main_v34 main_v36 (broadcastInDim S200000x1 ![0] bcast_S200000_S200000x1_0 : (⟨S200000, .i32⟩ : BufTy).Contents (Elt F) → (⟨S200000x1, .i32⟩ : BufTy).Contents (Elt F)),
    binary main_v35 main_v36 main_v37 ((fun a b => concatenate S200000x2 1 [⟨S200000x1, a⟩, ⟨S200000x1, b⟩] concatenates_S200000x1_S200000x1_S200000x2_d1) : (⟨S200000x1, .i32⟩ : BufTy).Contents (Elt F) → (⟨S200000x1, .i32⟩ : BufTy).Contents (Elt F) → (⟨S200000x2, .i32⟩ : BufTy).Contents (Elt F)),
    nullary main_cst_9 (constant S_ .f32 0x3F800000#32),
    unary main_cst_9 main_v38 (broadcastInDim S200000 ![] bcast_S_S200000 : (⟨S_, .f32⟩ : BufTy).Contents (Elt F) → (⟨S200000, .f32⟩ : BufTy).Contents (Elt F)),
    ternary main_v20 main_v37 main_v38 main_v39 ((fun x i u => Host.scatter scatter_S4096x4096_S200000x2_S200000_n_01_01_1 (fun _ b => b) x i u) : (⟨S4096x4096, .f32⟩ : BufTy).Contents (Elt F) → (⟨S200000x2, .i32⟩ : BufTy).Contents (Elt F) → (⟨S200000, .f32⟩ : BufTy).Contents (Elt F) → (⟨S4096x4096, .f32⟩ : BufTy).Contents (Elt F)) ]

abbrev s3 : List (HloOp τ sig (Elt F)) :=
  [ nullary main_cst_10 (constant S_ .f32 0x00000000#32),
    unary main_cst_10 main_v40 (broadcastInDim S4096x4096 ![] bcast_S_S4096x4096 : (⟨S_, .f32⟩ : BufTy).Contents (Elt F) → (⟨S4096x4096, .f32⟩ : BufTy).Contents (Elt F)),
    unary main_arg2 main_v41 ((extractStridedSlice S1x200000 ![0, 0] · slices_S2x200000_S1x200000_0_0) : (⟨S2x200000, .i32⟩ : BufTy).Contents (Elt F) → (⟨S1x200000, .i32⟩ : BufTy).Contents (Elt F)),
    reshape main_v41 main_v42 rfl shapeCasts_S1x200000_S200000,
    unary main_arg2 main_v43 ((extractStridedSlice S1x200000 ![1, 0] · slices_S2x200000_S1x200000_1_0) : (⟨S2x200000, .i32⟩ : BufTy).Contents (Elt F) → (⟨S1x200000, .i32⟩ : BufTy).Contents (Elt F)),
    reshape main_v43 main_v44 rfl shapeCasts_S1x200000_S200000,
    nullary main_c_11 (constantI S_ 32 0#32),
    unary main_c_11 main_v45 (broadcastInDim S200000 ![] bcast_S_S200000 : (⟨S_, .i32⟩ : BufTy).Contents (Elt F) → (⟨S200000, .i32⟩ : BufTy).Contents (Elt F)),
    binary main_v42 main_v45 main_v46 (cmpi .slt : (⟨S200000, .i32⟩ : BufTy).Contents (Elt F) → (⟨S200000, .i32⟩ : BufTy).Contents (Elt F) → (⟨S200000, .i1⟩ : BufTy).Contents (Elt F)),
    nullary main_c_12 (constantI S_ 32 4096#32),
    unary main_c_12 main_v47 (broadcastInDim S200000 ![] bcast_S_S200000 : (⟨S_, .i32⟩ : BufTy).Contents (Elt F) → (⟨S200000, .i32⟩ : BufTy).Contents (Elt F)),
    binary main_v42 main_v47 main_v48 (addi : (⟨S200000, .i32⟩ : BufTy).Contents (Elt F) → (⟨S200000, .i32⟩ : BufTy).Contents (Elt F) → (⟨S200000, .i32⟩ : BufTy).Contents (Elt F)),
    ternary main_v46 main_v48 main_v42 main_v49 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    nullary main_c_13 (constantI S_ 32 0#32),
    unary main_c_13 main_v50 (broadcastInDim S200000 ![] bcast_S_S200000 : (⟨S_, .i32⟩ : BufTy).Contents (Elt F) → (⟨S200000, .i32⟩ : BufTy).Contents (Elt F)),
    binary main_v44 main_v50 main_v51 (cmpi .slt : (⟨S200000, .i32⟩ : BufTy).Contents (Elt F) → (⟨S200000, .i32⟩ : BufTy).Contents (Elt F) → (⟨S200000, .i1⟩ : BufTy).Contents (Elt F)),
    nullary main_c_14 (constantI S_ 32 4096#32),
    unary main_c_14 main_v52 (broadcastInDim S200000 ![] bcast_S_S200000 : (⟨S_, .i32⟩ : BufTy).Contents (Elt F) → (⟨S200000, .i32⟩ : BufTy).Contents (Elt F)),
    binary main_v44 main_v52 main_v53 (addi : (⟨S200000, .i32⟩ : BufTy).Contents (Elt F) → (⟨S200000, .i32⟩ : BufTy).Contents (Elt F) → (⟨S200000, .i32⟩ : BufTy).Contents (Elt F)),
    ternary main_v51 main_v53 main_v44 main_v54 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v49 main_v55 (broadcastInDim S200000x1 ![0] bcast_S200000_S200000x1_0 : (⟨S200000, .i32⟩ : BufTy).Contents (Elt F) → (⟨S200000x1, .i32⟩ : BufTy).Contents (Elt F)),
    unary main_v54 main_v56 (broadcastInDim S200000x1 ![0] bcast_S200000_S200000x1_0 : (⟨S200000, .i32⟩ : BufTy).Contents (Elt F) → (⟨S200000x1, .i32⟩ : BufTy).Contents (Elt F)),
    binary main_v55 main_v56 main_v57 ((fun a b => concatenate S200000x2 1 [⟨S200000x1, a⟩, ⟨S200000x1, b⟩] concatenates_S200000x1_S200000x1_S200000x2_d1) : (⟨S200000x1, .i32⟩ : BufTy).Contents (Elt F) → (⟨S200000x1, .i32⟩ : BufTy).Contents (Elt F) → (⟨S200000x2, .i32⟩ : BufTy).Contents (Elt F)),
    nullary main_cst_15 (constant S_ .f32 0x3F800000#32),
    unary main_cst_15 main_v58 (broadcastInDim S200000 ![] bcast_S_S200000 : (⟨S_, .f32⟩ : BufTy).Contents (Elt F) → (⟨S200000, .f32⟩ : BufTy).Contents (Elt F)),
    ternary main_v40 main_v57 main_v58 main_v59 ((fun x i u => Host.scatter scatter_S4096x4096_S200000x2_S200000_n_01_01_1 (fun _ b => b) x i u) : (⟨S4096x4096, .f32⟩ : BufTy).Contents (Elt F) → (⟨S200000x2, .i32⟩ : BufTy).Contents (Elt F) → (⟨S200000, .f32⟩ : BufTy).Contents (Elt F) → (⟨S4096x4096, .f32⟩ : BufTy).Contents (Elt F)) ]

abbrev s4 : List (HloOp τ sig (Elt F)) :=
  [ nullary main_cst_16 (constant S_ .f32 0x00000000#32),
    unary main_cst_16 main_v60 (broadcastInDim S4096x4096 ![] bcast_S_S4096x4096 : (⟨S_, .f32⟩ : BufTy).Contents (Elt F) → (⟨S4096x4096, .f32⟩ : BufTy).Contents (Elt F)),
    unary main_arg3 main_v61 ((extractStridedSlice S1x200000 ![0, 0] · slices_S2x200000_S1x200000_0_0) : (⟨S2x200000, .i32⟩ : BufTy).Contents (Elt F) → (⟨S1x200000, .i32⟩ : BufTy).Contents (Elt F)),
    reshape main_v61 main_v62 rfl shapeCasts_S1x200000_S200000,
    unary main_arg3 main_v63 ((extractStridedSlice S1x200000 ![1, 0] · slices_S2x200000_S1x200000_1_0) : (⟨S2x200000, .i32⟩ : BufTy).Contents (Elt F) → (⟨S1x200000, .i32⟩ : BufTy).Contents (Elt F)),
    reshape main_v63 main_v64 rfl shapeCasts_S1x200000_S200000,
    nullary main_c_17 (constantI S_ 32 0#32),
    unary main_c_17 main_v65 (broadcastInDim S200000 ![] bcast_S_S200000 : (⟨S_, .i32⟩ : BufTy).Contents (Elt F) → (⟨S200000, .i32⟩ : BufTy).Contents (Elt F)),
    binary main_v62 main_v65 main_v66 (cmpi .slt : (⟨S200000, .i32⟩ : BufTy).Contents (Elt F) → (⟨S200000, .i32⟩ : BufTy).Contents (Elt F) → (⟨S200000, .i1⟩ : BufTy).Contents (Elt F)),
    nullary main_c_18 (constantI S_ 32 4096#32),
    unary main_c_18 main_v67 (broadcastInDim S200000 ![] bcast_S_S200000 : (⟨S_, .i32⟩ : BufTy).Contents (Elt F) → (⟨S200000, .i32⟩ : BufTy).Contents (Elt F)),
    binary main_v62 main_v67 main_v68 (addi : (⟨S200000, .i32⟩ : BufTy).Contents (Elt F) → (⟨S200000, .i32⟩ : BufTy).Contents (Elt F) → (⟨S200000, .i32⟩ : BufTy).Contents (Elt F)),
    ternary main_v66 main_v68 main_v62 main_v69 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    nullary main_c_19 (constantI S_ 32 0#32),
    unary main_c_19 main_v70 (broadcastInDim S200000 ![] bcast_S_S200000 : (⟨S_, .i32⟩ : BufTy).Contents (Elt F) → (⟨S200000, .i32⟩ : BufTy).Contents (Elt F)),
    binary main_v64 main_v70 main_v71 (cmpi .slt : (⟨S200000, .i32⟩ : BufTy).Contents (Elt F) → (⟨S200000, .i32⟩ : BufTy).Contents (Elt F) → (⟨S200000, .i1⟩ : BufTy).Contents (Elt F)),
    nullary main_c_20 (constantI S_ 32 4096#32),
    unary main_c_20 main_v72 (broadcastInDim S200000 ![] bcast_S_S200000 : (⟨S_, .i32⟩ : BufTy).Contents (Elt F) → (⟨S200000, .i32⟩ : BufTy).Contents (Elt F)),
    binary main_v64 main_v72 main_v73 (addi : (⟨S200000, .i32⟩ : BufTy).Contents (Elt F) → (⟨S200000, .i32⟩ : BufTy).Contents (Elt F) → (⟨S200000, .i32⟩ : BufTy).Contents (Elt F)),
    ternary main_v71 main_v73 main_v64 main_v74 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v69 main_v75 (broadcastInDim S200000x1 ![0] bcast_S200000_S200000x1_0 : (⟨S200000, .i32⟩ : BufTy).Contents (Elt F) → (⟨S200000x1, .i32⟩ : BufTy).Contents (Elt F)),
    unary main_v74 main_v76 (broadcastInDim S200000x1 ![0] bcast_S200000_S200000x1_0 : (⟨S200000, .i32⟩ : BufTy).Contents (Elt F) → (⟨S200000x1, .i32⟩ : BufTy).Contents (Elt F)),
    binary main_v75 main_v76 main_v77 ((fun a b => concatenate S200000x2 1 [⟨S200000x1, a⟩, ⟨S200000x1, b⟩] concatenates_S200000x1_S200000x1_S200000x2_d1) : (⟨S200000x1, .i32⟩ : BufTy).Contents (Elt F) → (⟨S200000x1, .i32⟩ : BufTy).Contents (Elt F) → (⟨S200000x2, .i32⟩ : BufTy).Contents (Elt F)),
    nullary main_cst_21 (constant S_ .f32 0x3F800000#32),
    unary main_cst_21 main_v78 (broadcastInDim S200000 ![] bcast_S_S200000 : (⟨S_, .f32⟩ : BufTy).Contents (Elt F) → (⟨S200000, .f32⟩ : BufTy).Contents (Elt F)),
    ternary main_v60 main_v77 main_v78 main_v79 ((fun x i u => Host.scatter scatter_S4096x4096_S200000x2_S200000_n_01_01_1 (fun _ b => b) x i u) : (⟨S4096x4096, .f32⟩ : BufTy).Contents (Elt F) → (⟨S200000x2, .i32⟩ : BufTy).Contents (Elt F) → (⟨S200000, .f32⟩ : BufTy).Contents (Elt F) → (⟨S4096x4096, .f32⟩ : BufTy).Contents (Elt F)) ]

abbrev s5 : List (HloOp τ sig (Elt F)) :=
  [ binary main_v19 main_v39 main_v80 (addf : (⟨S4096x4096, .f32⟩ : BufTy).Contents (Elt F) → (⟨S4096x4096, .f32⟩ : BufTy).Contents (Elt F) → (⟨S4096x4096, .f32⟩ : BufTy).Contents (Elt F)),
    nullary main_cst_22 (constant S_ .f32 0x40000000#32),
    unary main_cst_22 main_v81 (broadcastInDim S4096x4096 ![] bcast_S_S4096x4096 : (⟨S_, .f32⟩ : BufTy).Contents (Elt F) → (⟨S4096x4096, .f32⟩ : BufTy).Contents (Elt F)),
    binary main_v81 main_v19 main_v82 (mulf : (⟨S4096x4096, .f32⟩ : BufTy).Contents (Elt F) → (⟨S4096x4096, .f32⟩ : BufTy).Contents (Elt F) → (⟨S4096x4096, .f32⟩ : BufTy).Contents (Elt F)),
    binary main_v82 main_v39 main_v83 (mulf : (⟨S4096x4096, .f32⟩ : BufTy).Contents (Elt F) → (⟨S4096x4096, .f32⟩ : BufTy).Contents (Elt F) → (⟨S4096x4096, .f32⟩ : BufTy).Contents (Elt F)),
    binary main_v80 main_v83 main_v84 (subf : (⟨S4096x4096, .f32⟩ : BufTy).Contents (Elt F) → (⟨S4096x4096, .f32⟩ : BufTy).Contents (Elt F) → (⟨S4096x4096, .f32⟩ : BufTy).Contents (Elt F)),
    binary main_v59 main_v79 main_v85 (addf : (⟨S4096x4096, .f32⟩ : BufTy).Contents (Elt F) → (⟨S4096x4096, .f32⟩ : BufTy).Contents (Elt F) → (⟨S4096x4096, .f32⟩ : BufTy).Contents (Elt F)),
    nullary main_cst_23 (constant S_ .f32 0x40000000#32),
    unary main_cst_23 main_v86 (broadcastInDim S4096x4096 ![] bcast_S_S4096x4096 : (⟨S_, .f32⟩ : BufTy).Contents (Elt F) → (⟨S4096x4096, .f32⟩ : BufTy).Contents (Elt F)),
    binary main_v86 main_v59 main_v87 (mulf : (⟨S4096x4096, .f32⟩ : BufTy).Contents (Elt F) → (⟨S4096x4096, .f32⟩ : BufTy).Contents (Elt F) → (⟨S4096x4096, .f32⟩ : BufTy).Contents (Elt F)),
    binary main_v87 main_v79 main_v88 (mulf : (⟨S4096x4096, .f32⟩ : BufTy).Contents (Elt F) → (⟨S4096x4096, .f32⟩ : BufTy).Contents (Elt F) → (⟨S4096x4096, .f32⟩ : BufTy).Contents (Elt F)),
    binary main_v85 main_v88 main_v89 (subf : (⟨S4096x4096, .f32⟩ : BufTy).Contents (Elt F) → (⟨S4096x4096, .f32⟩ : BufTy).Contents (Elt F) → (⟨S4096x4096, .f32⟩ : BufTy).Contents (Elt F)),
    nullary main_cst_24 (constant S_ .f32 0x3F800000#32),
    unary main_cst_24 main_v90 (broadcastInDim S4096x4096 ![] bcast_S_S4096x4096 : (⟨S_, .f32⟩ : BufTy).Contents (Elt F) → (⟨S4096x4096, .f32⟩ : BufTy).Contents (Elt F)),
    binary main_v90 main_v39 main_v91 (subf : (⟨S4096x4096, .f32⟩ : BufTy).Contents (Elt F) → (⟨S4096x4096, .f32⟩ : BufTy).Contents (Elt F) → (⟨S4096x4096, .f32⟩ : BufTy).Contents (Elt F)),
    binary main_v79 main_v91 main_v92 (mulf : (⟨S4096x4096, .f32⟩ : BufTy).Contents (Elt F) → (⟨S4096x4096, .f32⟩ : BufTy).Contents (Elt F) → (⟨S4096x4096, .f32⟩ : BufTy).Contents (Elt F)),
    nullary main_v93 (iotaInDim S4096x4096 32 0),
    nullary main_v94 (iotaInDim S4096x4096 32 1),
    nullary main_c_25 (constantI S_ 32 0#32),
    unary main_c_25 main_v95 (broadcastInDim S4096x4096 ![] bcast_S_S4096x4096 : (⟨S_, .i32⟩ : BufTy).Contents (Elt F) → (⟨S4096x4096, .i32⟩ : BufTy).Contents (Elt F)),
    binary main_v93 main_v95 main_v96 (addi : (⟨S4096x4096, .i32⟩ : BufTy).Contents (Elt F) → (⟨S4096x4096, .i32⟩ : BufTy).Contents (Elt F) → (⟨S4096x4096, .i32⟩ : BufTy).Contents (Elt F)),
    binary main_v96 main_v94 main_v97 (cmpi .eq : (⟨S4096x4096, .i32⟩ : BufTy).Contents (Elt F) → (⟨S4096x4096, .i32⟩ : BufTy).Contents (Elt F) → (⟨S4096x4096, .i1⟩ : BufTy).Contents (Elt F)),
    unary main_v97 main_v98 (uitofp .f32 : (⟨S4096x4096, .i1⟩ : BufTy).Contents (Elt F) → (⟨S4096x4096, .f32⟩ : BufTy).Contents (Elt F)),
    nullary main_cst_26 (constant S_ .f32 0x3F800000#32),
    unary main_cst_26 main_v99 (broadcastInDim S4096x4096 ![] bcast_S_S4096x4096 : (⟨S_, .f32⟩ : BufTy).Contents (Elt F) → (⟨S4096x4096, .f32⟩ : BufTy).Contents (Elt F)),
    binary main_v99 main_v98 main_v100 (subf : (⟨S4096x4096, .f32⟩ : BufTy).Contents (Elt F) → (⟨S4096x4096, .f32⟩ : BufTy).Contents (Elt F) → (⟨S4096x4096, .f32⟩ : BufTy).Contents (Elt F)),
    binary main_v39 main_v100 main_v101 (mulf : (⟨S4096x4096, .f32⟩ : BufTy).Contents (Elt F) → (⟨S4096x4096, .f32⟩ : BufTy).Contents (Elt F) → (⟨S4096x4096, .f32⟩ : BufTy).Contents (Elt F)),
    binary main_v92 main_v100 main_v102 (mulf : (⟨S4096x4096, .f32⟩ : BufTy).Contents (Elt F) → (⟨S4096x4096, .f32⟩ : BufTy).Contents (Elt F) → (⟨S4096x4096, .f32⟩ : BufTy).Contents (Elt F)),
    binary main_v101 main_v101 main_v103 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v102 main_v102 main_v104 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v103 main_v104 main_v105 (addf : (⟨S4096x4096, .f32⟩ : BufTy).Contents (Elt F) → (⟨S4096x4096, .f32⟩ : BufTy).Contents (Elt F) → (⟨S4096x4096, .f32⟩ : BufTy).Contents (Elt F)),
    binary main_v101 main_v102 main_v106 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v102 main_v101 main_v107 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v106 main_v107 main_v108 (addf : (⟨S4096x4096, .f32⟩ : BufTy).Contents (Elt F) → (⟨S4096x4096, .f32⟩ : BufTy).Contents (Elt F) → (⟨S4096x4096, .f32⟩ : BufTy).Contents (Elt F)),
    nullary main_cst_27 (constant S_ .f32 0x3F800000#32),
    unary main_cst_27 main_v109 (broadcastInDim S4096x4096 ![] bcast_S_S4096x4096 : (⟨S_, .f32⟩ : BufTy).Contents (Elt F) → (⟨S4096x4096, .f32⟩ : BufTy).Contents (Elt F)),
    TRef.nullary (TRef.of (T := ⟨S4096x4096, .i32⟩) main_call0_v0) (iotaInDim S4096x4096 32 0),
    TRef.nullary (TRef.of (T := ⟨S_, .i32⟩) main_call0_c) (constantI S_ 32 0#32),
    TRef.unary (TRef.of (T := ⟨S_, .i32⟩) main_call0_c) (TRef.of (T := ⟨S4096x4096, .i32⟩) main_call0_v1) (broadcastInDim S4096x4096 ![] bcast_S_S4096x4096),
    TRef.binary (TRef.of (T := ⟨S4096x4096, .i32⟩) main_call0_v0) (TRef.of (T := ⟨S4096x4096, .i32⟩) main_call0_v1) (TRef.of (T := ⟨S4096x4096, .i32⟩) main_call0_v2) addi,
    TRef.nullary (TRef.of (T := ⟨S4096x4096, .i32⟩) main_call0_v3) (iotaInDim S4096x4096 32 1),
    TRef.binary (TRef.of (T := ⟨S4096x4096, .i32⟩) main_call0_v2) (TRef.of (T := ⟨S4096x4096, .i32⟩) main_call0_v3) (TRef.of (T := ⟨S4096x4096, .i1⟩) main_call0_v4) (cmpi .sge),
    TRef.nullary (TRef.of (T := ⟨S_, .f32⟩) main_call0_cst) (constant S_ .f32 0x00000000#32),
    TRef.unary (TRef.of (T := ⟨S_, .f32⟩) main_call0_cst) (TRef.of (T := ⟨S4096x4096, .f32⟩) main_call0_v5) (broadcastInDim S4096x4096 ![] bcast_S_S4096x4096),
    TRef.ternary (TRef.of (T := ⟨S4096x4096, .i1⟩) main_call0_v4) (TRef.of (T := ⟨S4096x4096, .f32⟩) main_call0_v5) (TRef.of (T := ⟨S4096x4096, .f32⟩) main_v109) (TRef.of (T := ⟨S4096x4096, .f32⟩) main_v110) select,
    binary main_v105 main_v110 main_v111 (mulf : (⟨S4096x4096, .f32⟩ : BufTy).Contents (Elt F) → (⟨S4096x4096, .f32⟩ : BufTy).Contents (Elt F) → (⟨S4096x4096, .f32⟩ : BufTy).Contents (Elt F)),
    nullary main_cst_28 (constant S_ .f32 0x3F800000#32),
    unary main_cst_28 main_v112 (broadcastInDim S4096x4096 ![] bcast_S_S4096x4096 : (⟨S_, .f32⟩ : BufTy).Contents (Elt F) → (⟨S4096x4096, .f32⟩ : BufTy).Contents (Elt F)),
    binary main_v112 main_v39 main_v113 (subf : (⟨S4096x4096, .f32⟩ : BufTy).Contents (Elt F) → (⟨S4096x4096, .f32⟩ : BufTy).Contents (Elt F) → (⟨S4096x4096, .f32⟩ : BufTy).Contents (Elt F)),
    binary main_v111 main_v113 main_v114 (mulf : (⟨S4096x4096, .f32⟩ : BufTy).Contents (Elt F) → (⟨S4096x4096, .f32⟩ : BufTy).Contents (Elt F) → (⟨S4096x4096, .f32⟩ : BufTy).Contents (Elt F)),
    binary main_v108 main_v110 main_v115 (mulf : (⟨S4096x4096, .f32⟩ : BufTy).Contents (Elt F) → (⟨S4096x4096, .f32⟩ : BufTy).Contents (Elt F) → (⟨S4096x4096, .f32⟩ : BufTy).Contents (Elt F)),
    nullary main_cst_29 (constant S_ .f32 0x3F800000#32),
    unary main_cst_29 main_v116 (broadcastInDim S4096x4096 ![] bcast_S_S4096x4096 : (⟨S_, .f32⟩ : BufTy).Contents (Elt F) → (⟨S4096x4096, .f32⟩ : BufTy).Contents (Elt F)),
    binary main_v116 main_v79 main_v117 (subf : (⟨S4096x4096, .f32⟩ : BufTy).Contents (Elt F) → (⟨S4096x4096, .f32⟩ : BufTy).Contents (Elt F) → (⟨S4096x4096, .f32⟩ : BufTy).Contents (Elt F)),
    binary main_v115 main_v117 main_v118 (mulf : (⟨S4096x4096, .f32⟩ : BufTy).Contents (Elt F) → (⟨S4096x4096, .f32⟩ : BufTy).Contents (Elt F) → (⟨S4096x4096, .f32⟩ : BufTy).Contents (Elt F)),
    binary main_v84 main_v114 main_v119 (addf : (⟨S4096x4096, .f32⟩ : BufTy).Contents (Elt F) → (⟨S4096x4096, .f32⟩ : BufTy).Contents (Elt F) → (⟨S4096x4096, .f32⟩ : BufTy).Contents (Elt F)),
    binary main_v89 main_v118 main_v120 (addf : (⟨S4096x4096, .f32⟩ : BufTy).Contents (Elt F) → (⟨S4096x4096, .f32⟩ : BufTy).Contents (Elt F) → (⟨S4096x4096, .f32⟩ : BufTy).Contents (Elt F)) ]

abbrev s6 : List (HloOp τ sig (Elt F)) :=
  [ unary main_v119 main_v121 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v120 main_v122 (broadcastInDim S1x4096x4096 ![1, 2] bcast_S4096x4096_S1x4096x4096_1_2 : (⟨S4096x4096, .f32⟩ : BufTy).Contents (Elt F) → (⟨S1x4096x4096, .f32⟩ : BufTy).Contents (Elt F)),
    binary main_v121 main_v122 main_v123 ((fun a b => concatenate S2x4096x4096 0 [⟨S1x4096x4096, a⟩, ⟨S1x4096x4096, b⟩] concatenates_S1x4096x4096_S1x4096x4096_S2x4096x4096_d0) : (⟨S1x4096x4096, .f32⟩ : BufTy).Contents (Elt F) → (⟨S1x4096x4096, .f32⟩ : BufTy).Contents (Elt F) → (⟨S2x4096x4096, .f32⟩ : BufTy).Contents (Elt F)) ]

set_option maxRecDepth 16384 in
set_option maxHeartbeats 4000000 in
/-- The program's operations are the six runs, in order. -/
theorem ops_split : (Cert.ReferenceIdeal.Value.ops : List (HloOp τ sig (Elt F))) = s1 ++ (s2 ++ (s3 ++ (s4 ++ (s5 ++ s6)))) := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each run leaves alone -/

theorem s1_keeps_arg1 (W : Valuation τ sig (Elt F)) :
    after s1 W (Proc.devRef .tc main_arg1) = W (Proc.devRef .tc main_arg1) := by
  after_results_simp <;> rfl
theorem s1_keeps_arg2 (W : Valuation τ sig (Elt F)) :
    after s1 W (Proc.devRef .tc main_arg2) = W (Proc.devRef .tc main_arg2) := by
  after_results_simp <;> rfl
theorem s1_keeps_arg3 (W : Valuation τ sig (Elt F)) :
    after s1 W (Proc.devRef .tc main_arg3) = W (Proc.devRef .tc main_arg3) := by
  after_results_simp <;> rfl
theorem s2_keeps_v19 (W : Valuation τ sig (Elt F)) :
    after s2 W (Proc.devRef .tc main_v19) = W (Proc.devRef .tc main_v19) := by
  after_results_simp <;> rfl
theorem s2_keeps_arg2 (W : Valuation τ sig (Elt F)) :
    after s2 W (Proc.devRef .tc main_arg2) = W (Proc.devRef .tc main_arg2) := by
  after_results_simp <;> rfl
theorem s2_keeps_arg3 (W : Valuation τ sig (Elt F)) :
    after s2 W (Proc.devRef .tc main_arg3) = W (Proc.devRef .tc main_arg3) := by
  after_results_simp <;> rfl
theorem s3_keeps_v19 (W : Valuation τ sig (Elt F)) :
    after s3 W (Proc.devRef .tc main_v19) = W (Proc.devRef .tc main_v19) := by
  after_results_simp <;> rfl
theorem s3_keeps_v39 (W : Valuation τ sig (Elt F)) :
    after s3 W (Proc.devRef .tc main_v39) = W (Proc.devRef .tc main_v39) := by
  after_results_simp <;> rfl
theorem s3_keeps_arg3 (W : Valuation τ sig (Elt F)) :
    after s3 W (Proc.devRef .tc main_arg3) = W (Proc.devRef .tc main_arg3) := by
  after_results_simp <;> rfl
theorem s4_keeps_v19 (W : Valuation τ sig (Elt F)) :
    after s4 W (Proc.devRef .tc main_v19) = W (Proc.devRef .tc main_v19) := by
  after_results_simp <;> rfl
theorem s4_keeps_v39 (W : Valuation τ sig (Elt F)) :
    after s4 W (Proc.devRef .tc main_v39) = W (Proc.devRef .tc main_v39) := by
  after_results_simp <;> rfl
theorem s4_keeps_v59 (W : Valuation τ sig (Elt F)) :
    after s4 W (Proc.devRef .tc main_v59) = W (Proc.devRef .tc main_v59) := by
  after_results_simp <;> rfl

/-! ## The last run: the two slabs stacked -/

set_option maxRecDepth 16384 in
theorem s6_v123 (W : Valuation τ sig (Elt F)) :
    after s6 W (Proc.devRef .tc main_v123)
      = concatenate S2x4096x4096 0
          [⟨S1x4096x4096, broadcastInDim S1x4096x4096 ![1, 2] bcast_S4096x4096_S1x4096x4096_1_2 (W (Proc.devRef .tc main_v119))⟩,
           ⟨S1x4096x4096, broadcastInDim S1x4096x4096 ![1, 2] bcast_S4096x4096_S1x4096x4096_1_2 (W (Proc.devRef .tc main_v120))⟩]
          concatenates_S1x4096x4096_S1x4096x4096_S2x4096x4096_d0 := by
  after_results
  all_goals rfl

/-! ## The four dense arrays -/

set_option maxRecDepth 16384 in
set_option maxHeartbeats 8000000 in
/-- The first run leaves at its scatter's buffer the dense array of its edge list. -/
theorem s1_v19 (W : Valuation τ sig (Elt F)) :
    after s1 W (Proc.devRef .tc main_v19) = Read.val_main_v19 (F := F) (W (Proc.devRef .tc main_arg0)) := by
  after_results
  all_goals rfl

set_option maxRecDepth 16384 in
set_option maxHeartbeats 8000000 in
/-- The second run leaves at its scatter's buffer the dense array of its edge list. -/
theorem s2_v39 (W : Valuation τ sig (Elt F)) :
    after s2 W (Proc.devRef .tc main_v39) = Read.val_main_v39 (F := F) (W (Proc.devRef .tc main_arg1)) := by
  after_results
  all_goals rfl

set_option maxRecDepth 16384 in
set_option maxHeartbeats 8000000 in
/-- The third run leaves at its scatter's buffer the dense array of its edge list. -/
theorem s3_v59 (W : Valuation τ sig (Elt F)) :
    after s3 W (Proc.devRef .tc main_v59) = Read.val_main_v59 (F := F) (W (Proc.devRef .tc main_arg2)) := by
  after_results
  all_goals rfl

set_option maxRecDepth 16384 in
set_option maxHeartbeats 8000000 in
/-- The fourth run leaves at its scatter's buffer the dense array of its edge list. -/
theorem s4_v79 (W : Valuation τ sig (Elt F)) :
    after s4 W (Proc.devRef .tc main_v79) = Read.val_main_v79 (F := F) (W (Proc.devRef .tc main_arg3)) := by
  after_results
  all_goals rfl

/-! ## The middle run: the two slabs -/

set_option maxRecDepth 16384 in
set_option maxHeartbeats 8000000 in
/-- The fifth run, from contents holding the four dense arrays, leaves at `main_v119` the reference's stage. -/
theorem s5_v119 (W : Valuation τ sig (Elt F)) (x0 x1 x2 x3 : (⟨S2x200000, .i32⟩ : BufTy).Contents (Elt F))
    (h19 : W (Proc.devRef .tc main_v19) = Read.val_main_v19 (F := F) x0)
    (h39 : W (Proc.devRef .tc main_v39) = Read.val_main_v39 (F := F) x1)
    (h59 : W (Proc.devRef .tc main_v59) = Read.val_main_v59 (F := F) x2)
    (h79 : W (Proc.devRef .tc main_v79) = Read.val_main_v79 (F := F) x3) :
    after s5 W (Proc.devRef .tc main_v119) = Read.val_main_v119 (F := F) x0 x1 x3 := by
  after_results_simp
  simp only [h19, h39, h59, h79]
  all_goals rfl

set_option maxRecDepth 16384 in
set_option maxHeartbeats 8000000 in
/-- The fifth run, from contents holding the four dense arrays, leaves at `main_v120` the reference's stage. -/
theorem s5_v120 (W : Valuation τ sig (Elt F)) (x0 x1 x2 x3 : (⟨S2x200000, .i32⟩ : BufTy).Contents (Elt F))
    (h19 : W (Proc.devRef .tc main_v19) = Read.val_main_v19 (F := F) x0)
    (h39 : W (Proc.devRef .tc main_v39) = Read.val_main_v39 (F := F) x1)
    (h59 : W (Proc.devRef .tc main_v59) = Read.val_main_v59 (F := F) x2)
    (h79 : W (Proc.devRef .tc main_v79) = Read.val_main_v79 (F := F) x3) :
    after s5 W (Proc.devRef .tc main_v120) = Read.val_main_v120 (F := F) x1 x2 x3 := by
  after_results_simp
  simp only [h19, h39, h59, h79]
  all_goals rfl

/-! ## The run's result is the stage chain's -/

set_option maxRecDepth 16384 in
set_option maxHeartbeats 8000000 in
/-- THE LINK: the buffer the run leaves at `main_v123` is the reference's last stage at the launch contents of the four
    arguments. -/
theorem res_eq (m : (ℓ : Loc nD τ sig) → Buf (Elt F) ℓ) (c : Dev nD) :
    Cert.ReferenceIdeal.Value.res_main_v123 m c
      = Read.val_main_v123 (F := F) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.Value.res_main_v123
  rw [ops_split, after_append, after_append, after_append, after_append, after_append, s6_v123]
  have e19 : after s4 (after s3 (after s2 (after s1 (launchContents m c)))) (Proc.devRef .tc main_v19)
      = Read.val_main_v19 (F := F) (launchContents m c (Proc.devRef .tc main_arg0)) := by
    rw [s4_keeps_v19, s3_keeps_v19, s2_keeps_v19, s1_v19]
  have e39 : after s4 (after s3 (after s2 (after s1 (launchContents m c)))) (Proc.devRef .tc main_v39)
      = Read.val_main_v39 (F := F) (launchContents m c (Proc.devRef .tc main_arg1)) := by
    rw [s4_keeps_v39, s3_keeps_v39, s2_v39, s1_keeps_arg1]
  have e59 : after s4 (after s3 (after s2 (after s1 (launchContents m c)))) (Proc.devRef .tc main_v59)
      = Read.val_main_v59 (F := F) (launchContents m c (Proc.devRef .tc main_arg2)) := by
    rw [s4_keeps_v59, s3_v59, s2_keeps_arg2, s1_keeps_arg2]
  have e79 : after s4 (after s3 (after s2 (after s1 (launchContents m c)))) (Proc.devRef .tc main_v79)
      = Read.val_main_v79 (F := F) (launchContents m c (Proc.devRef .tc main_arg3)) := by
    rw [s4_v79, s3_keeps_arg3, s2_keeps_arg3, s1_keeps_arg3]
  rw [s5_v119 _ _ _ _ _ e19 e39 e59 e79, s5_v120 _ _ _ _ _ e19 e39 e59 e79]
  rfl

end Cert.ReferenceIdeal.Link

end
-- ==== Proof.BBody.lean ====
/- The kernel body of the blocked triangle product, prepared for its runs: the two branch conditions of the body
   in closed form over the 8 x 8 x 8 grid (the innermost coordinate decides both: the first holds where it is 0,
   the second where it is 7), the staging memrefs of the ten windows at a grid point, the two accumulators the
   body carries from point to point, and the invariant of the pipeline with the accumulators as owned memrefs.
   Everything is stated for an arbitrary float instance. -/
import proofs.«154049_j57183194579701_2_alg».proof.Proof.Gen.Kernel.Launch
import proofs.«154049_j57183194579701_2_alg».proof.Proof.Gen.Kernel.Skeleton
import proofs.«154049_j57183194579701_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 512 x 512 extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first condition of the body (the accumulators are zero-filled under it): the innermost grid coordinate
    compared with 0, through the same integer chain the body computes. -/
abbrev cond0_0 (i : grid0.Coords) : Prop := (Scalar.cmpi .ne (Scalar.extui (Scalar.cmpi .eq (BitVec.ofNat 32 (i 2).val) 0#32)) 0#32) = 1#1
/-- The innermost coordinate of the linear point `t` is `t % 8`: the first condition holds exactly where it is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second condition of the body (the two results are formed and stored under it): the innermost grid
    coordinate compared with 7. -/
abbrev cond0_1 (i : grid0.Coords) : Prop := k0_cond2 i = 1#1
/-- It holds exactly where `t % 8 = 7`: at the last step of each accumulation. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## The memrefs the body is called with -/

/-- One staging buffer of each result window, through which its contents are stated (a read of covering writes
    does not depend on the choice). -/
abbrev VO0_8 : View sig .tc .vmem S512x512 .f32 := (Memref.whole cc0_stg8_0 : Memref sig .tc .vmem S512x512 .f32).view
abbrev VO0_9 : View sig .tc .vmem S512x512 .f32 := (Memref.whole cc0_stg9_0 : Memref sig .tc .vmem S512x512 .f32).view
/-- Each window's current staging memref at point `t`, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .f32 := win0_9.stage (cfg0.slots t 9)
abbrev hs0_9 (t : Fin cfg0.N) : (ms0_9 t).IsWhole := hstage0_9 ((cfg0.slots t 9).cast nbuf0_9)
/-- The two accumulators: whole scoped buffers of the kernel's own, passed beside the windows. -/
abbrev scM0_0 : Memref sig .tc .vmem S512x512 .f32 := Memref.whole cc0_scratch0
abbrev scM0_1 : Memref sig .tc .vmem S512x512 .f32 := Memref.whole cc0_scratch1
/-- The accumulators as views: what they hold after a point is stated through these. -/
abbrev VS0_0 : View sig .tc .vmem S512x512 .f32 := scM0_0.view
abbrev VS0_1 : View sig .tc .vmem S512x512 .f32 := scM0_1.view

/-- The body at point `t` is the kernel function on these memrefs. -/
theorem bodyAt0_eq (t : Fin cfg0.N) :
    (bodyAt0 t : Prog (TpuEff nD τ sig (Elt F) Λ₀ .tc) PUnit)
      = cc0__triangle_kernel (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) := rfl

/-- The pipeline's invariant beside the windows: the two accumulators, each an owned memref at some contents, and
    the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.BRunA.lean ====
/- The kernel body run at the FIRST step of an accumulation (innermost coordinate 0: the first condition holds, the second fails). The body zero-fills both accumulators and then adds this step's two block products to them: after it accumulator 0 holds 0 + (s-block) x (s-block) and accumulator 1 holds 0 + (d-block) x (d-block). It reads the four s / d blocks and nothing of the other four inputs; it stores into neither result block. What the accumulators held before is irrelevant (read once, then overwritten before any use).
   The statement is a triple over owned memrefs: from the twelve memrefs owned — an input the step reads at named
   contents, an input it does not read and a result block it does not store into at arbitrary contents handed back
   unchanged — the body runs to any continuation that is given the memrefs back, each one the step stored into as
   its view's `writes` of a list of pieces (last store first). The lists are components of the definition: they are
   found by running the body, and are what the later modules read the stored values from. -/
import proofs.«154049_j57183194579701_2_alg».proof.Proof.BBody

-- membership in a rectangle of 512 x 512 extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The pieces the body's stores leave in the two result blocks (`L8`, `L9`) and the two accumulators (`LS0`, `LS1`)
    in this case, with the proof of the body's triple stated over them. -/
noncomputable def kernelRun0_A (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) :
    Σ' (L8 : List (View.Piece (Elt F) S512x512 .f32)) (L9 : List (View.Piece (Elt F) S512x512 .f32)) (LS0 : List (View.Piece (Elt F) S512x512 .f32)), { LS1 : List (View.Piece (Elt F) S512x512 .f32) //
      ∀ (xi4 : Vec F S512x512 .bf16) (xi5 : Vec F S512x512 .bf16) (xi6 : Vec F S512x512 .bf16) (xi7 : Vec F S512x512 .bf16) (xi8 : Vec F S512x512 .f32) (xi9 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ owns (c : Thread nD τ) arg10 fullShare xi7 ∗ owns (c : Thread nD τ) arg11 fullShare xi8 ∗ owns (c : Thread nD τ) arg12 fullShare xi9 ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ owns (c : Thread nD τ) arg10 fullShare xi7 ∗ owns (c : Thread nD τ) arg11 fullShare xi8 ∗ owns (c : Thread nD τ) arg12 fullShare xi9 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__triangle_kernel i arg3 harg3 arg4 harg4 arg5 harg5 arg6 harg6 arg7 harg7 arg8 harg8 arg9 harg9 arg10 harg10 arg11 harg11 arg12 harg12 arg13 harg13 arg14 harg14) K } := by
  refine ⟨[], [], ?_, ?_, fun xi4 xi5 xi6 xi7 xi8 xi9 E K => ?run⟩
  case run =>
    simp only [cc0__triangle_kernel_eq_skeleton]; unfold cc0__triangle_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [HS0]; · iexists _; iexact HS0
    iexists _; iexact HS1

end Cert.Kernel.Body

end
-- ==== Proof.BRunB.lean ====
/- The kernel body run at a MIDDLE step of an accumulation (innermost coordinate 1..6: both conditions fail). The body adds this step's two block products to what the accumulators hold: accumulator 0 goes from xs0 to xs0 + (s-block) x (s-block), accumulator 1 from xs1 to xs1 + (d-block) x (d-block). It reads the four s / d blocks and nothing of the other four inputs; it stores into neither result block.
   The statement is a triple over owned memrefs: from the twelve memrefs owned — an input the step reads at named
   contents, an input it does not read and a result block it does not store into at arbitrary contents handed back
   unchanged — the body runs to any continuation that is given the memrefs back, each one the step stored into as
   its view's `writes` of a list of pieces (last store first). The lists are components of the definition: they are
   found by running the body, and are what the later modules read the stored values from. -/
import proofs.«154049_j57183194579701_2_alg».proof.Proof.BRunA

-- membership in a rectangle of 512 x 512 extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The pieces the body's stores leave in the two result blocks (`L8`, `L9`) and the two accumulators (`LS0`, `LS1`)
    in this case, with the proof of the body's triple stated over them. -/
noncomputable def kernelRun0_B (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) :
    Σ' (L8 : List (View.Piece (Elt F) S512x512 .f32)) (L9 : List (View.Piece (Elt F) S512x512 .f32)) (LS0 : List (View.Piece (Elt F) S512x512 .f32)), { LS1 : List (View.Piece (Elt F) S512x512 .f32) //
      ∀ (xi4 : Vec F S512x512 .bf16) (xi5 : Vec F S512x512 .bf16) (xi6 : Vec F S512x512 .bf16) (xi7 : Vec F S512x512 .bf16) (xi8 : Vec F S512x512 .f32) (xi9 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ owns (c : Thread nD τ) arg10 fullShare xi7 ∗ owns (c : Thread nD τ) arg11 fullShare xi8 ∗ owns (c : Thread nD τ) arg12 fullShare xi9 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__triangle_kernel i arg3 harg3 arg4 harg4 arg5 harg5 arg6 harg6 arg7 harg7 arg8 harg8 arg9 harg9 arg10 harg10 arg11 harg11 arg12 harg12 arg13 harg13 arg14 harg14) K } := by
  refine ⟨[], [], ?_, ?_, fun xi4 xi5 xi6 xi7 xi8 xi9 E K => ?run⟩
  case run =>
    simp only [cc0__triangle_kernel_eq_skeleton]; unfold cc0__triangle_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [HS0]; · iexists _; iexact HS0
    iexists _; iexact HS1

end Cert.Kernel.Body

end
-- ==== Proof.BRunC.lean ====
/- The kernel body run at the LAST step of an accumulation (innermost coordinate 7: the first condition fails, the second holds). The body adds this step's two block products to the accumulators (ss := xs0 + s x s, dd := xs1 + d x d), and then forms and stores both results: (pt + p1 - 2 pt p1) + (0.5 (ss + dd)) tri (1 - p1) into the first result block and (nt + n1 - 2 nt n1) + (0.5 (ss - dd)) tri (1 - n1) into the second, tri the strict upper triangle in GLOBAL coordinates of the block. It reads all eight input blocks.
   The statement is a triple over owned memrefs: from the twelve memrefs owned — an input the step reads at named
   contents, an input it does not read and a result block it does not store into at arbitrary contents handed back
   unchanged — the body runs to any continuation that is given the memrefs back, each one the step stored into as
   its view's `writes` of a list of pieces (last store first). The lists are components of the definition: they are
   found by running the body, and are what the later modules read the stored values from. -/
import proofs.«154049_j57183194579701_2_alg».proof.Proof.BRunB

-- membership in a rectangle of 512 x 512 extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The pieces the body's stores leave in the two result blocks (`L8`, `L9`) and the two accumulators (`LS0`, `LS1`)
    in this case, with the proof of the body's triple stated over them. -/
noncomputable def kernelRun0_C (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) :
    Σ' (L8 : List (View.Piece (Elt F) S512x512 .f32)) (L9 : List (View.Piece (Elt F) S512x512 .f32)) (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__triangle_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__triangle_kernel_eq_skeleton]; unfold cc0__triangle_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg13.eq_unread hfs0; obtain rfl := harg14.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [HS0]; · iexists _; iexact HS0
    iexists _; iexact HS1

end Cert.Kernel.Body

end
-- ==== Proof.BOuts.lean ====
/- What the kernel body leaves behind, case by case and then point by point. First, where the ten windows are idle.
   Then, at the region's entry contents `V` (a parameter): each window's block at a grid point, and that an input's staging
   buffer holds its block at every point. For each of the three cases: that the pieces the case's run found for a buffer
   cover the buffer (each store is of a whole 512 x 512 block), and the buffer's contents read back from those pieces.
   Last, by recursion over the linear grid point, the contents of the two result blocks and of the two accumulators
   after every point (the accumulators are carried: a step's accumulators start from what the step before left), with
   one equation per case. -/
import proofs.«154049_j57183194579701_2_alg».proof.Proof.BRunC

-- membership in a rectangle of 512 x 512 extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Input window 6 is never idle. -/
theorem liveAt0_6 : ∀ t : Fin cfg0.N, cfg0.idle 6 (grid0.coords t) = false := by decide +kernel
/-- Input window 7 is never idle. -/
theorem liveAt0_7 : ∀ t : Fin cfg0.N, cfg0.idle 7 (grid0.coords t) = false := by decide +kernel
/-- At the first step of an accumulation result window 8 is idle (nothing is stored into it) and its block is not written back. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
/-- The same at a middle step. -/
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
/-- At the last step result window 8 is live: the step stores into it. -/
theorem liveAt0_8_C : ∀ t : Fin cfg0.N, ¬cond0_0 (grid0.coords t) → cond0_1 (grid0.coords t) → cfg0.idle 8 (grid0.coords t) = false := by decide +kernel
/-- At the first step of an accumulation result window 9 is idle (nothing is stored into it) and its block is not written back. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
/-- The same at a middle step. -/
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
/-- At the last step result window 9 is live: the step stores into it. -/
theorem liveAt0_9_C : ∀ t : Fin cfg0.N, ¬cond0_0 (grid0.coords t) → cond0_1 (grid0.coords t) → cfg0.idle 9 (grid0.coords t) = false := by decide +kernel

section Region
-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not, for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or not, for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetches it or not, for any proof data whose
    array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetches it or not (it is
    fetched only at the first step of an accumulation, and its block index does not move until the next one), for any proof data whose
    array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetches it or not (it is
    fetched only at the first step of an accumulation, and its block index does not move until the next one), for any proof data whose
    array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the point fetches it or not (it is
    fetched only at the first step of an accumulation, and its block index does not move until the next one), for any proof data whose
    array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, whether the point fetches it or not (it is
    fetched only at the first step of an accumulation, and its block index does not move until the next one), for any proof data whose
    array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## Case A: the first step of an accumulation -/

/-- This step stores nothing into result block 0: no pieces, and this reading of them is a placeholder that nothing
    consults (the block is neither written back nor read at such a point). -/
def out0_A_8 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) : Vec F S512x512 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).1)

/-- This step stores nothing into result block 1: no pieces, and this reading of them is a placeholder that nothing
    consults (the block is neither written back nor read at such a point). -/
def out0_A_9 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) : Vec F S512x512 .f32 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.1)

/-- The pieces this step stores into accumulator 0 cover it (each store is of the whole accumulator). -/
theorem scover0_A_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) (y : S512x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.1 S512x512.size (by sl_kernel_rfl) y

/-- What this step leaves in accumulator 0: its pieces read back. -/
def sout0_A_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) : Vec F S512x512 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.1)

/-- The pieces this step stores into accumulator 1 cover it (each store is of the whole accumulator). -/
theorem scover0_A_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) (y : S512x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.2.1 S512x512.size (by sl_kernel_rfl) y

/-- What this step leaves in accumulator 1: its pieces read back. -/
def sout0_A_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 : Vec F S512x512 .bf16) (x1 : Vec F S512x512 .bf16) (x2 : Vec F S512x512 .bf16) (x3 : Vec F S512x512 .bf16) : Vec F S512x512 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 hc0 hc1 x0 x1 x2 x3).2.2.2.1)

/-! ## Case B: a middle step of an accumulation -/

/-- This step stores nothing into result block 0: no pieces, and this reading of them is a placeholder that nothing
    consults (the block is neither written back nor read at such a point). -/
def out0_B_8 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) : Vec F S512x512 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).1)

/-- This step stores nothing into result block 1: no pieces, and this reading of them is a placeholder that nothing
    consults (the block is neither written back nor read at such a point). -/
def out0_B_9 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) : Vec F S512x512 .f32 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.1)

/-- The pieces this step stores into accumulator 0 cover it (each store is of the whole accumulator). -/
theorem scover0_B_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) (y : S512x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.1 S512x512.size (by sl_kernel_rfl) y

/-- What this step leaves in accumulator 0: its pieces read back. -/
def sout0_B_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) : Vec F S512x512 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.1)

/-- The pieces this step stores into accumulator 1 cover it (each store is of the whole accumulator). -/
theorem scover0_B_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) (y : S512x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.2.1 S512x512.size (by sl_kernel_rfl) y

/-- What this step leaves in accumulator 1: its pieces read back. -/
def sout0_B_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 : Vec F S512x512 .bf16) (x1 : Vec F S512x512 .bf16) (x2 : Vec F S512x512 .bf16) (x3 : Vec F S512x512 .bf16) (xs0 : Vec F S512x512 .f32) (xs1 : Vec F S512x512 .f32) : Vec F S512x512 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 hc0 hc1 x0 x1 x2 x3 xs0 xs1).2.2.2.1)

/-! ## Case C: the last step of an accumulation -/

/-- The pieces the last step stores into result block 0 tile the block (one store of the whole block), so every index
    of the block lies in one of them. -/
theorem cover0_C_8 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1 S512x512.size (by sl_kernel_rfl) y

/-- What the last step leaves in result block 0: its pieces read back (over arbitrary contents, all of which they cover). -/
def out0_C_8 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) : Vec F S512x512 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1)

/-- The pieces the last step stores into result block 1 tile the block (one store of the whole block), so every index
    of the block lies in one of them. -/
theorem cover0_C_9 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1 S512x512.size (by sl_kernel_rfl) y

/-- What the last step leaves in result block 1: its pieces read back (over arbitrary contents, all of which they cover). -/
def out0_C_9 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) : Vec F S512x512 .f32 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1)

/-- The pieces this step stores into accumulator 0 cover it (each store is of the whole accumulator). -/
theorem scover0_C_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1 S512x512.size (by sl_kernel_rfl) y

/-- What this step leaves in accumulator 0: its pieces read back. -/
def sout0_C_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) : Vec F S512x512 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1)

/-- The pieces this step stores into accumulator 1 cover it (each store is of the whole accumulator). -/
theorem scover0_C_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1 S512x512.size (by sl_kernel_rfl) y

/-- What this step leaves in accumulator 1: its pieces read back. -/
def sout0_C_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (xs0 : Vec F S512x512 .f32) (xs1 : Vec F S512x512 .f32) : Vec F S512x512 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1)

/-! ## What the result blocks and the accumulators hold after each point -/

/-- The four contents after a point of case A (first step): the two result blocks' placeholders and the two accumulators,
    from the point's memrefs and its s / d blocks. -/
abbrev ptA0 (c : Dev nD) (t : Fin cfg0.N) (h0 : t.val % 8 = 0) (h1 : ¬t.val % 8 = 7) : (Vec F S512x512 .f32 × Vec F S512x512 .f32) × (Vec F S512x512 .f32 × Vec F S512x512 .f32) :=
  ((out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)), (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)))

/-- After a point of case B (middle step), over the accumulators' contents `prev` left by the point before. -/
abbrev ptB0 (c : Dev nD) (t : Fin cfg0.N) (h0 : ¬t.val % 8 = 0) (h1 : ¬t.val % 8 = 7) (prev : (Vec F S512x512 .f32 × Vec F S512x512 .f32) × (Vec F S512x512 .f32 × Vec F S512x512 .f32)) : (Vec F S512x512 .f32 × Vec F S512x512 .f32) × (Vec F S512x512 .f32 × Vec F S512x512 .f32) :=
  ((out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) prev.2.1 prev.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) prev.2.1 prev.2.2), (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) prev.2.1 prev.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) prev.2.1 prev.2.2))

/-- After a point of case C (last step), over the accumulators' contents `prev` left by the point before. -/
abbrev ptC0 (c : Dev nD) (t : Fin cfg0.N) (h0 : ¬t.val % 8 = 0) (h1 : t.val % 8 = 7) (prev : (Vec F S512x512 .f32 × Vec F S512x512 .f32) × (Vec F S512x512 .f32 × Vec F S512x512 .f32)) : (Vec F S512x512 .f32 × Vec F S512x512 .f32) × (Vec F S512x512 .f32 × Vec F S512x512 .f32) :=
  ((out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) prev.2.1 prev.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) prev.2.1 prev.2.2), (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) prev.2.1 prev.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) prev.2.1 prev.2.2))

/-- THE ACCUMULATION. What the two result blocks' staging buffers (first pair) and the two accumulators (second pair) hold
    after the body at linear point `n`: the case `n % 8` selects (0: first step; 7: last step; otherwise a middle step),
    run at the point's memrefs and input blocks, the accumulators at what point `n - 1` left in them. `n % 8` cannot be
    both 0 and 7. -/
def outsAt0 (c : Dev nD) : (n : ℕ) → n < cfg0.N → (Vec F S512x512 .f32 × Vec F S512x512 .f32) × (Vec F S512x512 .f32 × Vec F S512x512 .f32)
  | 0, hn => ptA0 V c ⟨0, hn⟩ (Nat.zero_mod _) (by show ¬(0 % 8 = 7); decide)
  | n + 1, hn =>
    if h0 : (n + 1) % 8 = 0 then
      if h1 : (n + 1) % 8 = 7 then
        False.elim (by omega)
      else
        ptA0 V c ⟨n + 1, hn⟩ h0 h1
    else
      if h1 : (n + 1) % 8 = 7 then
        ptC0 V c ⟨n + 1, hn⟩ h0 h1 (outsAt0 c n (Nat.lt_of_succ_lt hn))
      else
        ptB0 V c ⟨n + 1, hn⟩ h0 h1 (outsAt0 c n (Nat.lt_of_succ_lt hn))

/-- `outsAt0` at a point of case A: that case's contents. -/
theorem outsAt0_A (c : Dev nD) (t : Fin cfg0.N) (h0 : t.val % 8 = 0) (h1 : ¬t.val % 8 = 7) :
    outsAt0 V c t.val t.isLt = ptA0 V c t h0 h1 := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = ptB0 V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = ptC0 V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

end Region

end Cert.Kernel.Body

end
-- ==== Proof.BRun.lean ====
/-
  The run of the kernel's program, for windows that SHARE an array.

  The pallas_call hands the array s to two windows (its row blocks and its column blocks) and the array d to two more, so
  its ten windows sit on eight buffers. Between two segments of @main the core holds every unscoped buffer whole; at the
  region's entry each shared array's full share is dealt in two halves, one per window — an input window only reads its
  array, and a half share is enough to read —, every other window takes its own array whole; at the exit the halves are
  joined again, at the contents the region found, since no write-back touches an input's array. @main is then three
  segments in order — the host operations before the region, the region, the host operations behind it —, each entered
  from what the one before it left, and the last state is read against the final memory: every unscoped buffer at the
  contents the last stretch leaves, so the four argument arrays end as launched (no host operation writes them and the
  region's two outputs are other buffers) and the result buffer ends at the two outputs' final arrays, each recast as a
  [1,4096,4096] slab, joined along the leading axis.

  Everything is stated for any region proof data `dat0` with the properties gathered in `Given` (its arrays are the
  region-entry contents, the shares above, nothing owed, the body obligation, the class's invariant at both ends), and for
  every float instance.
-/
import proofs.«154049_j57183194579701_2_alg».proof.Proof.Gen.Kernel.Launch
import proofs.«154049_j57183194579701_2_alg».proof.Proof.Gen.Kernel.Points
import Idealize.ShloMosaic.Lib.Pipeline.Frame
import Idealize.ShloMosaic.Lib.Pipeline.Regions
import Idealize.ShloMosaic.Lib.Pipeline.RegionsLoop

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The distinct buffers behind the ten windows' arrays. -/
theorem arrImage : (Finset.univ.image (Pipeline.arrRef spec0)) = ([main_v95, main_v96, main_v97, main_v98, main_v99, main_v100, main_v101_0, main_v101_1] : List (Ref sig .tc)).toFinset := by decide

/-- A buffer's full share is its two halves, at one contents. -/
theorem share_split (ℓ : Loc nD τ sig) (f : ℓ.ty.Contents (Elt F)) :
    (ℓ ↦{fullShare} f : sProp 𝕄) ⊣⊢ iprop((ℓ ↦{fullShare.left} f) ∗ (ℓ ↦{fullShare.right} f)) :=
  pointsTo_share (I := Finset.univ) (ℓ := ℓ) (f := f) (Ix := Unit) (Name := ℕ) (U := UR sig nD τ) (Lvl := ℕ) (PosShare.mem_left_op_right fullShare)

theorem arrBufs_eq (c : Dev nD) (V : (b : Ref sig .tc) → Buf (Elt F) ((c.tc : Thread nD τ).loc b)) :
    (Pipeline.arrBufs spec0 c V : sProp 𝕄) = iprop(((c.tc : Thread nD τ).loc main_v95 ↦{fullShare} V main_v95) ∗ ((c.tc : Thread nD τ).loc main_v96 ↦{fullShare} V main_v96)
      ∗ ((c.tc : Thread nD τ).loc main_v97 ↦{fullShare} V main_v97) ∗ ((c.tc : Thread nD τ).loc main_v98 ↦{fullShare} V main_v98)
      ∗ ((c.tc : Thread nD τ).loc main_v99 ↦{fullShare} V main_v99) ∗ ((c.tc : Thread nD τ).loc main_v100 ↦{fullShare} V main_v100)
      ∗ ((c.tc : Thread nD τ).loc main_v101_0 ↦{fullShare} V main_v101_0) ∗ ((c.tc : Thread nD τ).loc main_v101_1 ↦{fullShare} V main_v101_1)) := by
  unfold Pipeline.arrBufs
  rw [bigSep_eq_bigSepL_of_eq _ arrImage (by decide)]
  rfl

/-- The share each window holds its array at: the two windows on one array a half each, every other window all of its own. -/
def sh : Fin 10 → PosShare TreeShare
  | ⟨0, _⟩ => fullShare.left | ⟨1, _⟩ => fullShare.right | ⟨2, _⟩ => fullShare.left | ⟨3, _⟩ => fullShare.right | _ => fullShare

theorem arrays_eq (c : Dev nD) (dat : Dat τ (Elt F) Unit ℕ (UR sig nD τ) ℕ cfg0 c) (hsh : ∀ w, dat.share w = sh w)
    (V : (b : Ref sig .tc) → Buf (Elt F) ((c.tc : Thread nD τ).loc b))
    (F' : (w : Fin cfg0.W) → Buf (Elt F) ((cfg0.win w).arr.view.loc (c.tc : Thread nD τ)))
    (hF : ∀ w, F' w = V (Pipeline.arrRef spec0 w)) :
    (dat.arrays F' : sProp 𝕄) = iprop(((c.tc : Thread nD τ).loc main_v95 ↦{fullShare.left} V main_v95) ∗ ((c.tc : Thread nD τ).loc main_v95 ↦{fullShare.right} V main_v95)
      ∗ ((c.tc : Thread nD τ).loc main_v96 ↦{fullShare.left} V main_v96) ∗ ((c.tc : Thread nD τ).loc main_v96 ↦{fullShare.right} V main_v96)
      ∗ ((c.tc : Thread nD τ).loc main_v97 ↦{fullShare} V main_v97) ∗ ((c.tc : Thread nD τ).loc main_v98 ↦{fullShare} V main_v98)
      ∗ ((c.tc : Thread nD τ).loc main_v99 ↦{fullShare} V main_v99) ∗ ((c.tc : Thread nD τ).loc main_v100 ↦{fullShare} V main_v100)
      ∗ ((c.tc : Thread nD τ).loc main_v101_0 ↦{fullShare} V main_v101_0) ∗ ((c.tc : Thread nD τ).loc main_v101_1 ↦{fullShare} V main_v101_1)) := by
  have h1 : (dat.arrays F' : sProp 𝕄) = bigSep Finset.univ fun w : Fin 10 => (((c.tc : Thread nD τ).loc (Pipeline.arrRef spec0 w)) ↦{sh w} V (Pipeline.arrRef spec0 w) : sProp 𝕄) := by
    unfold Dat.arrays
    exact bigSep_congr fun w _ => by rw [(arr_whole0 w).set_eq_univ, hsh w, hF w]
  rw [h1, bigSep_W0]
  rfl

/-! ## The buffers' contents at the segment boundaries -/

variable (m : (ℓ : Loc nD τ sig) → Buf (Elt F) ℓ) (ρ : Dev nD → PrngReg)

/-- Core `c`'s buffers at launch. -/
abbrev W0 : Dev nD → Valuation τ sig (Elt F) := fun c b => m (c, b)
/-- After the host operations before the region (the region's entry). -/
abbrev W1 : Dev nD → Valuation τ sig (Elt F) := fun c => StableHlo.after hostOps0 (W0 m c)
/-- The same read at the TensorCore's references (what the region's proof data take). -/
abbrev V1 : (c : Dev nD) → (b : Ref sig .tc) → Buf (Elt F) ((c : Thread nD τ).loc b) := fun c b => W1 m c b

/-- What is asked of the region's proof data: its arrays are the region-entry contents; the two windows on one array hold
    a half of it each; nothing is owed; the body obligation; the class's invariant at both ends. -/
structure Given (dat0 : (c : Dev nD) → Dat τ (Elt F) Unit ℕ (UR sig nD τ) ℕ cfg0 c) : Prop where
  hA : ∀ c w, (dat0 c).A w = V1 m c (Pipeline.arrRef spec0 w)
  hsh : ∀ c w, (dat0 c).share w = sh w
  howed : ∀ c t, (dat0 c).owed t = 0
  hrec : ∀ c t, (dat0 c).recorded t = Set.univ
  hbody : ∀ c, BodyObligation (dat0 c) (defs₀ (F := F)) Variants.none () Set.univ
  hin : ∀ c, Pipeline.ΦA spec0 c ⊢ (dat0 c).Φ 0
  hout : ∀ c, (dat0 c).Φ (Fin.last cfg0.N) ⊢ Pipeline.ΦA spec0 c

variable (dat0 : (c : Dev nD) → Dat τ (Elt F) Unit ℕ (UR sig nD τ) ℕ cfg0 c)

/-- At the region's exit: the two outputs' arrays at what the write-backs leave, every other buffer as entered. -/
def W2 (c : Dev nD) : Valuation τ sig (Elt F) :=
  Function.update (Function.update (W1 m c) (Proc.devRef .tc main_v101_0) ((dat0 c).arrAt 8 cfg0.N)) (Proc.devRef .tc main_v101_1) ((dat0 c).arrAt 9 cfg0.N)
abbrev V2 : (c : Dev nD) → (b : Ref sig .tc) → Buf (Elt F) ((c : Thread nD τ).loc b) := fun c b => W2 m dat0 c b
/-- After the host operations behind the region: the end. -/
abbrev W3 : Dev nD → Valuation τ sig (Elt F) := fun c => StableHlo.after hostOps1 (W2 m dat0 c)

theorem W2_of_ne (c : Dev nD) (b : Ref sig .tc) (h0 : b ≠ main_v101_0) (h1 : b ≠ main_v101_1) : W2 m dat0 c (Proc.devRef .tc b) = W1 m c (Proc.devRef .tc b) := by
  unfold W2
  rw [Function.update_of_ne (StableHlo.devRef_ne_of_ne h1), Function.update_of_ne (StableHlo.devRef_ne_of_ne h0)]
theorem W2_out0 (c : Dev nD) : W2 m dat0 c (Proc.devRef .tc main_v101_0) = (dat0 c).arrAt 8 cfg0.N := by
  unfold W2
  rw [Function.update_of_ne (StableHlo.devRef_ne_of_ne (by decide)), Function.update_self]
theorem W2_out1 (c : Dev nD) : W2 m dat0 c (Proc.devRef .tc main_v101_1) = (dat0 c).arrAt 9 cfg0.N := by
  unfold W2
  rw [Function.update_self]

/-! ## The region's arrays out of the unscoped buffers, and back -/

theorem split₀ (c : Dev nD) (V : (b : Ref sig .tc) → Buf (Elt F) ((c.tc : Thread nD τ).loc b)) :
    (unscopedBufs c V : sProp 𝕄) = iprop(Pipeline.arrBufs spec0 c V ∗ Pipeline.unscopedRest spec0 c V) :=
  Pipeline.unscopedBufs_split₀ (Ix := Unit) (Name := ℕ) (U := UR sig nD τ) (Lvl := ℕ) cfgs (0 : Fin 1) winFacts₀0.arr_unscoped c V

variable {m dat0}

/-- ENTRY: the unscoped buffers at the entry contents are the windows' arrays, each shared array dealt in halves to its two
    windows, beside the buffers that are no window's array. -/
theorem entry_split (hG : Given m dat0) (c : Dev nD) :
    (unscopedBufs c (V1 m c) : sProp 𝕄) ⊢ iprop((dat0 c).arrays ((dat0 c).arrAt · 0) ∗ Pipeline.unscopedRest spec0 c (V1 m c)) := by
  rw [split₀]
  refine sep_mono ?_ .rfl
  rw [arrBufs_eq, arrays_eq c (dat0 c) (hG.hsh c) (V1 m c) (fun w => (dat0 c).arrAt w 0) (fun w => (show (dat0 c).arrAt w 0 = (dat0 c).A w from rfl).trans (hG.hA c w))]
  iintro ⟨H95, H96, H97, H98, H99, H100, H1010, H1011⟩
  ihave A := (share_split _ _).1 $$ H95
  icases A with ⟨A0, A1⟩
  ihave B := (share_split _ _).1 $$ H96
  icases B with ⟨B0, B1⟩
  isplitl [A0]; · iexact A0
  isplitl [A1]; · iexact A1
  isplitl [B0]; · iexact B0
  isplitl [B1]; · iexact B1
  isplitl [H97]; · iexact H97
  isplitl [H98]; · iexact H98
  isplitl [H99]; · iexact H99
  isplitl [H100]; · iexact H100
  isplitl [H1010]; · iexact H1010
  iexact H1011

/-- Every window is an input or one of the two outputs; an input's array is neither output's. -/
theorem in_or_out : ∀ w : Fin 10, (cfg0.win w).isOut = false ∨ w = 8 ∨ w = 9 := by decide
theorem in_ne_out0 : ∀ w : Fin 10, (cfg0.win w).isOut = false → Pipeline.arrRef spec0 w ≠ main_v101_0 := by decide
theorem in_ne_out1 : ∀ w : Fin 10, (cfg0.win w).isOut = false → Pipeline.arrRef spec0 w ≠ main_v101_1 := by decide

/-- After the last point every window's array holds what the exit contents say: an input's array is never written, an
    output's is the fold of its write-backs. -/
theorem final_eq (hG : Given m dat0) (c : Dev nD) (w : Fin cfg0.W) : (dat0 c).arrAt w cfg0.N = V2 m dat0 c (Pipeline.arrRef spec0 w) := by
  rcases in_or_out w with h | rfl | rfl
  · exact (((dat0 c).arrAt_in w h _).trans (hG.hA c w)).trans (W2_of_ne m dat0 c _ (in_ne_out0 w h) (in_ne_out1 w h)).symm
  · exact (W2_out0 m dat0 c).symm
  · exact (W2_out1 m dat0 c).symm

/-- A buffer that is no window's array is not touched by the region. -/
theorem rest_eq (c : Dev nD) (b : Ref sig .tc) (hb : b ∉ Finset.univ.image (Pipeline.arrRef spec0)) : V2 m dat0 c b = V1 m c b :=
  W2_of_ne m dat0 c b (fun e => hb (e ▸ Finset.mem_image.mpr ⟨8, Finset.mem_univ _, rfl⟩)) (fun e => hb (e ▸ Finset.mem_image.mpr ⟨9, Finset.mem_univ _, rfl⟩))

/-- EXIT: the windows' arrays at their final contents — the halves of each shared array joined again, at the contents the
    region found (an input's array is unchanged, so the two halves agree) — and the untouched rest are the unscoped
    buffers at the exit contents. -/
theorem exit_join (hG : Given m dat0) (c : Dev nD) :
    iprop((dat0 c).arrays ((dat0 c).arrAt · cfg0.N) ∗ Pipeline.unscopedRest spec0 c (V1 m c)) ⊢ (unscopedBufs c (V2 m dat0 c) : sProp 𝕄) := by
  rw [split₀]
  refine sep_mono ?_ (Entails.of_eq ?_)
  · rw [arrBufs_eq, arrays_eq c (dat0 c) (hG.hsh c) (V2 m dat0 c) _ (final_eq hG c)]
    iintro ⟨A0, A1, B0, B1, H97, H98, H99, H100, H1010, H1011⟩
    isplitl [A0 A1]
    · iapply (share_split _ _).2
      isplitl [A0] <;> iassumption
    isplitl [B0 B1]
    · iapply (share_split _ _).2
      isplitl [B0] <;> iassumption
    isplitl [H97]; · iexact H97
    isplitl [H98]; · iexact H98
    isplitl [H99]; · iexact H99
    isplitl [H100]; · iexact H100
    isplitl [H1010]; · iexact H1010
    iexact H1011
  · unfold Pipeline.unscopedRest
    exact bigSep_congr fun b hb => by rw [rest_eq c b (Finset.mem_sdiff.mp hb).2]

/-! ## The proof data family, the thread state, the segments -/

variable (m dat0)

/-- The prefetched tables' admissible contents: the pipeline has no table. -/
abbrev adm : (p : Fin 1) → (pcfgs (F := F) p).Adm := fun p => (cfgs p).toPCfg_adm
/-- The one pipeline's proof data, as a family over the program's pipelines. -/
def pdats : (p : Fin 1) → (c : Dev nD) → Dat τ (Elt F) Unit ℕ (UR sig nD τ) ℕ (Pipeline.pin (pcfgs (F := F)) adm p) c
  | ⟨0, _⟩ => fun c => dat0 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W3 m dat0 c) ∗ ∃ r, prngReg c r)

variable {m dat0}

set_option backward.isDefEq.respectTransparency.types false in
/-- THE REGION over the thread state: entered from every unscoped buffer at the entry contents, left at the exit contents.
    Its arrays are sorted out of the unscoped buffers with each shared array dealt in halves (`entry_split`) and put back with
    the halves joined (`exit_join`); the generator register goes into the class invariant and comes out; nothing is owed. -/
def reg0 (hG : Given m dat0) : Pipeline.RegionSeg (pcfgs (F := F)) adm (pdats dat0) () defs₀ 𝒱₀ L lv 0 where
  win := winFacts₀0
  block_pos := block_pos0
  stage_whole := stage_whole0
  K := PEmpty
  osem k := k.elim
  ho := Pipeline.OwnSemFacts.none _
  hbody c := (hG.hbody c).loose
  hwaits := Pipeline.hwaits_of_owed_zero _ _ _ _ L lv 0 fun c t => hG.howed c t
  pre c := iprop(StableHlo.held (c : Thread nD τ) (Pipeline.ucRefs τ sig) (W1 m c) ∗ R c)
  post c := iprop(StableHlo.held (c : Thread nD τ) (Pipeline.ucRefs τ sig) (W2 m dat0 c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_split hG c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 0 c).owed 0 = 0 from hG.howed c 0]
      icases HO with ⟨%W, HO⟩; iexists W; isplitr
      · ipureintro; exact fun _ _ => Or.inl ((show (pdats dat0 0 c).recorded 0 = Set.univ from hG.hrec c 0) ▸ trivial)
      iexact HO
    isplitl [Hp]; · iexact Hp
    iexact Hrest
  hin c := by
    refine (show _ ⊢ (Pipeline.ΦA spec0 c : sProp 𝕄) from ?_).trans (hG.hin c)
    unfold Pipeline.ΦA
    iintro ⟨Hp, -, Hr⟩
    isplitl [Hr]; · iexact Hr
    iexact Hp
  hout c := by
    rw [Pipeline.ownSems0_none]
    refine (hG.hout c).trans ?_
    unfold Pipeline.ΦA
    iintro ⟨Hr, Hp⟩
    isplitl [Hp]; · iexact Hp
    isplitr; · iempintro
    iexact Hr
  hexit c := by
    have hjoin := exit_join hG c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats dat0 0 c).owed (Fin.last (Pipeline.pin (pcfgs (F := F)) adm 0).N) = 0 from hG.howed c _]
    icases HO with ⟨%W, -, HO⟩; iexists W; iexact HO

/-- @main's three segments in order: the host operations before the region, the region, the host operations behind it. -/
abbrev segs (hG : Given m dat0) : List (Pipeline.Seg (pcfgs (F := F)) adm (pdats dat0) () defs₀ 𝒱₀ L lv) :=
  [ .host (hseg hostOps0 hostOps0_sub hostOps0_fresh (W0 m)),
    .region (reg0 hG),
    .host (hseg hostOps1 hostOps1_sub hostOps1_fresh (W2 m dat0)) ]

set_option backward.isDefEq.respectTransparency.types false in
/-- THE RUN. At the compiled mesh, from any memory with zero counters: every weakly fair execution of @main on the
    TensorCores terminates, nothing faulting, and every final state holds every unscoped buffer at the last boundary's contents. -/
theorem run_main (hG : Given m dat0) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m dat0 c b) :=
  Pipeline.θ_run_regions_kit (pcfgs (F := F)) adm (pdats dat0) () cellOf_inj emb₁ defs₀ 𝒱₀ L lv m ρ main (segs hG)
    (fun c Q => by
      rewrite [main_chain c, Seg.run_eq_chain,
        show (segs hG).map Seg.prog = [
          StableHlo.seq hostOps0,
          Prog.lift (.customCall (Pipeline.entry 0) ()),
          StableHlo.seq hostOps1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat0)
    (hch := ⟨fun _ => .rfl, fun _ => .rfl, fun _ => .rfl, fun c => by
      show iprop(StableHlo.held (c : Thread nD τ) (Pipeline.ucRefs τ sig) (W3 m dat0 c) ∗ R c) ⊢ iprop(Tₙ m dat0 c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat0 c b)
    (hfin := fun c s' => by
      iintro ⟨⟨Hh, -⟩, HSI⟩
      unfold StableHlo.held
      imodintro
      iapply (pointsTo_read_all (Pipeline.ucRefs τ sig) (fun b => (((c : Thread nD τ)).1, b)) (W3 m dat0 c) s')
      isplitl [Hh] <;> iassumption)
    (hQ := fun s h c => h c)

/-! ## What the host stretches write, and what reaches the end untouched -/

variable (m dat0)

/-- The buffers the host operations before the region write. -/
abbrev hostOps0_W : List (Ref sig .tc) := [main_cst, main_v0, main_v1, main_v2, main_v3, main_v4, main_c, main_v5, main_v6, main_c_0, main_v7, main_v8, main_v9, main_c_1, main_v10, main_v11, main_c_2, main_v12, main_v13, main_v14, main_v15, main_v16, main_v17, main_cst_3, main_v18, main_v19, main_cst_4, main_v20, main_v21, main_v22, main_v23, main_v24, main_c_5, main_v25, main_v26, main_c_6, main_v27, main_v28, main_v29, main_c_7, main_v30, main_v31, main_c_8, main_v32, main_v33, main_v34, main_v35, main_v36, main_v37, main_cst_9, main_v38, main_v39, main_cst_10, main_v40, main_v41, main_v42, main_v43, main_v44, main_c_11, main_v45, main_v46, main_c_12, main_v47, main_v48, main_v49, main_c_13, main_v50, main_v51, main_c_14, main_v52, main_v53, main_v54, main_v55, main_v56, main_v57, main_cst_15, main_v58, main_v59, main_cst_16, main_v60, main_v61, main_v62, main_v63, main_v64, main_c_17, main_v65, main_v66, main_c_18, main_v67, main_v68, main_v69, main_c_19, main_v70, main_v71, main_c_20, main_v72, main_v73, main_v74, main_v75, main_v76, main_v77, main_cst_21, main_v78, main_v79, main_cst_22, main_v80, main_v81, main_v82, main_v83, main_v84, main_c_23, main_v85, main_v86, main_v87, main_v88, main_cst_24, main_v89, main_v90, main_v91, main_v92, main_v93, main_v94, main_v95, main_v96, main_v97, main_v98, main_v99, main_v100]
set_option maxHeartbeats 4000000 in
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the host operations behind the region write. -/
abbrev hostOps1_W : List (Ref sig .tc) := [main_v102, main_v103, main_v104]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m dat0 c r = W2 m dat0 c r :=
  StableHlo.after_of_writes_sub hostOps1 _ hostOps1_writes h

/-- An argument array reaches the end as launched: no host operation writes it and the region's outputs are other buffers. -/
theorem W3_arg (c : Dev nD) (r : Ref sig .tc) (h1 : r ∉ hostOps1_W) (ho0 : r ≠ main_v101_0) (ho1 : r ≠ main_v101_1) (h0 : r ∉ hostOps0_W) :
    W3 m dat0 c r = m ((c : Thread nD τ).loc r) :=
  (W3_of m dat0 c r h1).trans <| (W2_of_ne m dat0 c r ho0 ho1).trans <| (W1_of m c r h0).trans rfl

/-- The result buffer at the end: the two outputs' arrays, each recast as a [1,4096,4096] slab, joined along the leading axis. -/
theorem W3_result (c : Dev nD) :
    W3 m dat0 c main_v104 = concatenate S2x4096x4096 0 [⟨S1x4096x4096, broadcastInDim S1x4096x4096 ![1, 2] bcast_S4096x4096_S1x4096x4096_1_2 ((dat0 c).arrAt 8 cfg0.N)⟩,
      ⟨S1x4096x4096, broadcastInDim S1x4096x4096 ![1, 2] bcast_S4096x4096_S1x4096x4096_1_2 ((dat0 c).arrAt 9 cfg0.N)⟩] concatenates_S1x4096x4096_S1x4096x4096_S2x4096x4096_d0 := by
  show StableHlo.after hostOps1 (W2 m dat0 c) (Proc.devRef .tc main_v104) = _
  after_results
  rw [W2_out0, W2_out1]

variable {m dat0}

/-- THE FRAME, given the region's proof data: @main runs to the end, nothing faulting, and its four argument arrays end as launched. -/
theorem frame_of (hG : Given m dat0) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_arg m dat0 c main_arg0 (by decide) (by decide) (by decide) (by decide)),
     (h c _ (mem_uc main_arg1 (by decide))).trans (W3_arg m dat0 c main_arg1 (by decide) (by decide) (by decide) (by decide)),
     (h c _ (mem_uc main_arg2 (by decide))).trans (W3_arg m dat0 c main_arg2 (by decide) (by decide) (by decide) (by decide)),
     (h c _ (mem_uc main_arg3 (by decide))).trans (W3_arg m dat0 c main_arg3 (by decide) (by decide) (by decide) (by decide))⟩) (run_main hG ρ)

/-- THE RUN WITH THE RESULT NAMED: as the frame, and the result buffer ends at the two outputs' final arrays stacked. -/
theorem run_result (hG : Given m dat0) (ρ : Dev nD → PrngReg) :
    θ_run defs (onTc (τ := τ) (main (F := F))) ⟨m, fun _ => 0, ρ⟩ (fun r => ∀ c : Dev nD,
      r.2.mem ((c.tc : Thread nD τ).loc main_v104) = concatenate S2x4096x4096 0 [⟨S1x4096x4096, broadcastInDim S1x4096x4096 ![1, 2] bcast_S4096x4096_S1x4096x4096_1_2 ((dat0 c).arrAt 8 cfg0.N)⟩,
        ⟨S1x4096x4096, broadcastInDim S1x4096x4096 ![1, 2] bcast_S4096x4096_S1x4096x4096_1_2 ((dat0 c).arrAt 9 cfg0.N)⟩] concatenates_S1x4096x4096_S1x4096x4096_S2x4096x4096_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v104 (by decide))).trans (W3_result m dat0 c),
     (h c _ (mem_uc main_arg0 (by decide))).trans (W3_arg m dat0 c main_arg0 (by decide) (by decide) (by decide) (by decide)),
     (h c _ (mem_uc main_arg1 (by decide))).trans (W3_arg m dat0 c main_arg1 (by decide) (by decide) (by decide) (by decide)),
     (h c _ (mem_uc main_arg2 (by decide))).trans (W3_arg m dat0 c main_arg2 (by decide) (by decide) (by decide) (by decide)),
     (h c _ (mem_uc main_arg3 (by decide))).trans (W3_arg m dat0 c main_arg3 (by decide) (by decide) (by decide) (by decide))⟩) (run_main hG ρ)

end Cert.Kernel.Run
end
-- ==== Proof.BDat.lean ====
/- The proof data of the kernel's pipeline and its body obligation. Between two grid points the region holds the two
   accumulators at what the point before left in them (before the very first point: at anything). The proof data name,
   per window and point, what the body leaves in the window's staging buffer: an input's block, unchanged; a result
   block's contents after the step. The body obligation is proved point by point: the remainder of the linear point
   modulo 8 says which of the three cases the point is in, the case's run is applied, and each buffer the case stored
   into is handed on at the contents read back from the pieces the run found, which cover it. With the invariant at
   both ends this is everything the launch asks of the region's proof data. -/
import proofs.«154049_j57183194579701_2_alg».proof.Proof.BOuts
import proofs.«154049_j57183194579701_2_alg».proof.Proof.BRun

-- membership in a rectangle of 512 x 512 extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: a parameter
variable (V : (c : Dev nD) → (b : Ref sig .tc) → Buf (Elt F) ((c : Thread nD τ).loc b))

/-! ## The invariant between points -/

/-- The region's invariant before point `n`: before the first point the pipeline's own (both accumulators at anything);
    afterwards both accumulators at what point `n - 1` left in them (`outsAt0`'s second pair), and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2)) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2)) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2)) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the two results' at `outsAt0`'s first pair; the invariant `PhiS`; nothing owed;
    of an array two windows share each holds a half, of every other the whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1.1
    | ⟨9, _⟩ => (outsAt0 V c t.val t.isLt).1.2
  Φ t := PhiS V c t.val (Nat.le_of_lt_succ t.isLt)
  q := Run.sh
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1.1 := by dsimp only [dat0]
theorem after0_9 (c : Dev nD) (t : Fin cfg0.N) : (dat0 V c).after 9 t = (outsAt0 V c t.val t.isLt).1.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
/-- The body at any point. The inputs' memrefs hold their blocks; `t % 8` says which case the point is in; the invariant
    hands the body the accumulators at what the point before left (at anything at the very first point) and takes them
    back at this point's contents, each read back from pieces that cover it; at a first or middle step the two result
    blocks are idle and go back as found; at a last step they go back at the pieces the step stored, which cover them;
    the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_succ]
  have hN : t.val < 512 := lt_of_lt_of_eq t.isLt (show cfg0.N = 512 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dat0 V c) 9 t (idleAt0_9_A t ((hcond0_0 t).mpr h0) (fun h => h1 ((hcond0_1 t).mp h))) (noFlush0_9_A t ((hcond0_0 t).mpr h0) (fun h => h1 ((hcond0_1 t).mp h)))]
      rw [outsAt0_A V c t h0 h1]
      unfold ptA0; dsimp only; unfold sout0_A_0 sout0_A_1; (try dsimp only)
      by_cases hz : t.val = 0
      · rw [PhiS_castSucc V c t, PhiS_zero V c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      · rw [PhiS_castSucc V c t, PhiS_pos V c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        iintro ⟨H0, H1, H2, H3, H4, H5, H6, H7, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [show (dat0 V c).leavesExact 9 t = owns (c : Thread nD τ) (ms0_9 t) fullShare ((dat0 V c).after 9 t) from by
        unfold Dat.leavesExact; rw [liveAt0_9_C t (fun h => h0 ((hcond0_0 t).mp h)) ((hcond0_1 t).mpr h1)], after0_9]
      rw [outsAt0_C V c t h0 h1]
      unfold ptC0; dsimp only; unfold out0_C_8 out0_C_9 sout0_C_0 sout0_C_1; (try dsimp only)
      by_cases hz : t.val = 0
      · exfalso; omega
      · rw [PhiS_castSucc V c t, PhiS_pos V c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        isplitl [HS1]; · iexact HS1
        iintro ⟨H0, H1, H2, H3, H4, H5, H6, H7, ⟨%e8, H8⟩, ⟨%e9, H9⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dat0 V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B V c t h0 h1]
      unfold ptB0; dsimp only; unfold sout0_B_0 sout0_B_1; (try dsimp only)
      by_cases hz : t.val = 0
      · exfalso; omega
      · rw [PhiS_castSucc V c t, PhiS_pos V c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout0 (c : Dev nD) : (dat0 V c).Φ (Fin.last cfg0.N) ⊢ Pipeline.ΦA spec0 c :=
  Phi_out0 V c _ (by rw [Fin.val_last]; have : cfg0.N = 512 := N_0; omega)

end Region

/-! ## Everything the launch asks of the region's proof data -/

/-- The proof data at the region-entry contents of @main meets every requirement of the launch: its arrays are those
    contents; each window's share of its array is the stated one (a half for the four windows on the two shared arrays,
    the whole otherwise — a result window holds its array whole by definition); nothing is owed and no bound is put on
    the recorded waits; the body obligation; the invariant at both ends. -/
theorem given (m : (ℓ : Loc nD τ sig) → Buf (Elt F) ℓ) : Run.Given m (fun c => dat0 (Run.V1 m) c) where
  hA c w := A_eq0 (Run.V1 m) c w
  hsh c w := by
    unfold Dat.share
    fin_cases w <;> rfl
  howed c t := rfl
  hrec c t := rfl
  hbody c := body_obligation0 (Run.V1 m) c
  hin c := hin0 (Run.V1 m) c
  hout c := hout0 (Run.V1 m) c

end Cert.Kernel.Body

end
-- ==== Proof.KFinal.lean ====
/-
  The kernel's result as a function of the four edge lists, and the bridge to the reference.

  The region's windows sit on s = spo + sno, d = spo − sno and the four dense arrays (rounded to bf16, which changes nothing
  over the extended reals), so the two result arrays are the two slabs of the two-product arrangement of those, and the
  program's result — the two slabs stacked — is `Cert.Tri.GK` of them. The reference computes the four-product arrangement
  `Cert.Tri.G` of the same dense arrays and of spo, sno; both programs build those arrays by the same host operations, and
  every entry of spo and sno is 0 or 1, hence real, so the two arrangements are equal (the sum and difference laws on
  real entries).
-/
import proofs.«154049_j57183194579701_2_alg».proof.Defs
import proofs.«154049_j57183194579701_2_alg».proof.Proof.KValue
import proofs.«154049_j57183194579701_2_alg».proof.Proof.KHostDense
import proofs.«154049_j57183194579701_2_alg».proof.Proof.KHostSD
import proofs.«154049_j57183194579701_2_alg».proof.Proof.KStack
import proofs.«154049_j57183194579701_2_alg».proof.Proof.KBridge
import proofs.«154049_j57183194579701_2_alg».proof.Proof.RefValue
import proofs.«154049_j57183194579701_2_alg».proof.Proof.RefLink
import proofs.«154049_j57183194579701_2_alg».proof.Proof.BDat

set_option maxRecDepth 16384

noncomputable section

namespace Cert.KernelIdeal.Final

open Cert.KernelIdeal Cert.KernelIdeal.Gen Cert.KernelIdeal.Body
open Idealize.ShloMosaic Idealize.ShloMosaic.TcCoe Idealize.SL.Sem Idealize.ShloMosaic.ValueIdx

variable (m : (ℓ : Loc nD τ sig) → Buf (Elt Ideal) ℓ) (c : Dev nD)

/-- The four edge lists, as core c holds them at launch. -/
abbrev x0 : Cert.Bridge.Arg := m ((c.tc : Thread nD τ).loc main_arg0)
abbrev x1 : Cert.Bridge.Arg := m ((c.tc : Thread nD τ).loc main_arg1)
abbrev x2 : Cert.Bridge.Arg := m ((c.tc : Thread nD τ).loc main_arg2)
abbrev x3 : Cert.Bridge.Arg := m ((c.tc : Thread nD τ).loc main_arg3)

/-! ## The six window arrays, from the edge lists -/

theorem aPT_eq : Val.aPT (Run.V1 m) c = HostK.dense (F := Ideal) (x0 m c) := by
  funext i
  show (StableHlo.after hostOps0 (Run.W0 m c) (Proc.devRef .tc main_v97) : S4096x4096.Idx → EReal) i = _
  rw [HostK.v97, truncf_apply]
theorem aP1_eq : Val.aP1 (Run.V1 m) c = HostK.dense (F := Ideal) (x1 m c) := by
  funext i
  show (StableHlo.after hostOps0 (Run.W0 m c) (Proc.devRef .tc main_v98) : S4096x4096.Idx → EReal) i = _
  rw [HostK.v98, truncf_apply]
theorem aNT_eq : Val.aNT (Run.V1 m) c = HostK.dense (F := Ideal) (x2 m c) := by
  funext i
  show (StableHlo.after hostOps0 (Run.W0 m c) (Proc.devRef .tc main_v99) : S4096x4096.Idx → EReal) i = _
  rw [HostK.v99, truncf_apply]
theorem aN1_eq : Val.aN1 (Run.V1 m) c = HostK.dense (F := Ideal) (x3 m c) := by
  funext i
  show (StableHlo.after hostOps0 (Run.W0 m c) (Proc.devRef .tc main_v100) : S4096x4096.Idx → EReal) i = _
  rw [HostK.v100, truncf_apply]
theorem aS_eq : Val.aS (Run.V1 m) c = fun i => (HostK.spo (F := Ideal) (x1 m c) i : EReal) + (HostK.sno (F := Ideal) (x1 m c) (x3 m c) i : EReal) := by
  funext i
  show (StableHlo.after hostOps0 (Run.W0 m c) (Proc.devRef .tc main_v95) : S4096x4096.Idx → EReal) i = _
  rw [HostK.v95, truncf_apply, addf_apply]
theorem aD_eq : Val.aD (Run.V1 m) c = fun i => (HostK.spo (F := Ideal) (x1 m c) i : EReal) - (HostK.sno (F := Ideal) (x1 m c) (x3 m c) i : EReal) := by
  funext i
  show (StableHlo.after hostOps0 (Run.W0 m c) (Proc.devRef .tc main_v96) : S4096x4096.Idx → EReal) i = _
  rw [HostK.v96, truncf_apply, subf_apply]

/-! ## The program's result -/

/-- The result, as a function of the edge lists: the two-product arrangement of the dense arrays and of s = spo + sno, d = spo − sno. -/
def result : Cert.Tri.St.Idx → EReal :=
  Cert.Tri.GK (HostK.dense (F := Ideal) (x0 m c)) (HostK.dense (F := Ideal) (x1 m c)) (HostK.dense (F := Ideal) (x2 m c)) (HostK.dense (F := Ideal) (x3 m c))
    (fun i => (HostK.spo (F := Ideal) (x1 m c) i : EReal) + (HostK.sno (F := Ideal) (x1 m c) (x3 m c) i : EReal))
    (fun i => (HostK.spo (F := Ideal) (x1 m c) i : EReal) - (HostK.sno (F := Ideal) (x1 m c) (x3 m c) i : EReal))

/-- The two outputs' final arrays, each recast as a slab and stacked, are that function. -/
theorem kernel_value :
    concatenate S2x4096x4096 0 [⟨S1x4096x4096, broadcastInDim S1x4096x4096 ![1, 2] bcast_S4096x4096_S1x4096x4096_1_2 ((dat0 (Run.V1 m) c).arrAt 8 cfg0.N)⟩,
      ⟨S1x4096x4096, broadcastInDim S1x4096x4096 ![1, 2] bcast_S4096x4096_S1x4096x4096_1_2 ((dat0 (Run.V1 m) c).arrAt 9 cfg0.N)⟩] concatenates_S1x4096x4096_S1x4096x4096_S2x4096x4096_d0
      = result m c := by
  rw [Val.final8, Val.final9]
  funext j
  obtain ⟨h, a, e, rfl⟩ : ∃ (h : Fin 2) (a e : Fin 4096), j = ix3 h a e := ⟨j 0, j 1, j 2, eq_ix3 j⟩
  rw [Stack.stack_apply]
  unfold result
  rw [Cert.Tri.GK_apply, ← aPT_eq m c, ← aP1_eq m c, ← aNT_eq m c, ← aN1_eq m c, ← aS_eq m c, ← aD_eq m c]
  match h with
  | ⟨0, h0⟩ => rw [if_pos (show (⟨0, h0⟩ : Fin 2) = 0 from rfl)]; rfl
  | ⟨1, h1⟩ => rw [if_neg (show ¬(⟨1, h1⟩ : Fin 2) = 0 from Fin.ne_of_val_ne (show (1 : ℕ) ≠ 0 by decide))]; rfl

end Cert.KernelIdeal.Final

/-! ## The claims -/

namespace Cert.Proof.Claims

open Idealize.ShloMosaic Idealize.ShloMosaic.TcCoe Idealize.SL.Sem

/-- The word-level kernel runs, faults nowhere, and leaves its four arguments unchanged. -/
theorem frame_k : Cert.frame_Kernel (hKernel := Cert.Kernel.Gen.facts) := fun m ρ _ =>
  Cert.Kernel.Run.frame_of (Cert.Kernel.Body.given m) ρ
/-- The same for the idealized kernel. -/
theorem frame_ki : Cert.frame_KernelIdeal (hKernelIdeal := Cert.KernelIdeal.Gen.facts) := fun m ρ _ =>
  Cert.KernelIdeal.Run.frame_of (Cert.KernelIdeal.Body.given m) ρ
/-- The reference runs and leaves its arguments unchanged: its run, with the result dropped. -/
theorem frame_ri : Cert.frame_ReferenceIdeal (hReferenceIdeal := Cert.ReferenceIdeal.Gen.facts) := fun m ρ _ =>
  (θ_run Cert.ReferenceIdeal.defs _ _).mono (fun _ h c => (h c).2) (Cert.ReferenceIdeal.Value.run (F := Ideal) m ρ)

/-- At the extended reals the kernel's result is the two-product arrangement of the dense arrays and the reference's is
    the four-product arrangement of the same arrays: equal, since spo and sno have real entries. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Final.result m c, ?_, ?_⟩
  · exact (θ_run Cert.KernelIdeal.defs _ _).mono
      (fun _ h c => ⟨(h c).1.trans (Cert.KernelIdeal.Final.kernel_value m c), (h c).2⟩)
      (Cert.KernelIdeal.Run.run_result (Cert.KernelIdeal.Body.given m) ρ)
  · refine (θ_run Cert.ReferenceIdeal.defs _ _).mono (fun _ h c => ⟨(h c).1.trans ?_, (h c).2⟩)
      (Cert.ReferenceIdeal.Value.run (F := Ideal) m' ρ')
    show Cert.ReferenceIdeal.Value.res_main_v123 m' c = Cert.KernelIdeal.Final.result m c
    rw [Cert.ReferenceIdeal.Link.res_eq, (hagree c).1, (hagree c).2.1, (hagree c).2.2.1, (hagree c).2.2.2,
      Cert.ReferenceIdeal.RefValue.ref_eq_GK]
    unfold Cert.KernelIdeal.Final.result
    rw [Cert.Bridge.dense_eq_v19, Cert.Bridge.dense_eq_v39, Cert.Bridge.dense_eq_v59, Cert.Bridge.dense_eq_v79, Cert.Bridge.spo_eq, Cert.Bridge.sno_eq]

end Cert.Proof.Claims

end
-- ==== Proof.lean ====
/-
  The certificate of the triangle-closure kernel against its reference, over the extended reals.

  From four edge lists both programs build the same dense 0/1 adjacency arrays. The reference counts signed two-paths by
  four 4096 x 4096 products (spo·spo + sno·sno, spo·sno + sno·spo); the kernel, using that with s = spo + sno and
  d = spo − sno one has ½(s·s + d·d) = spo·spo + sno·sno and ½(s·s − d·d) = spo·sno + sno·spo whenever the entries are real,
  computes two products, tile by tile over a grid, in two accumulators, and finishes each 512 x 512 block of the two results at
  the last inner tile. The frames: the kernel's windows share two arrays (s and d each feed a row-block and a column-block
  window), so each shared array is held in halves across the region (Proof/KRun.lean); the body is run once per control
  case (Proof/KRunA … KRunC, KOuts, KDat). The values: the accumulators by induction on the grid point, the blocks covering
  the result arrays (Proof/KValue.lean); the reference's stages read at an index (Proof/RefValue.lean) and linked to its run
  (Proof/RefLink.lean); the two arrangements equal on real entries (Proof/TriSpec.lean), every entry of a dense array being
  0 or 1 (Proof/DenseFacts.lean). The claims are assembled in Proof/KFinal.lean.
-/
import proofs.«154049_j57183194579701_2_alg».proof.Defs
import proofs.«154049_j57183194579701_2_alg».proof.Proof.Gen.Kernel
import proofs.«154049_j57183194579701_2_alg».proof.Proof.Gen.Kernel.Skeleton
import proofs.«154049_j57183194579701_2_alg».proof.Proof.Gen.Kernel.Launch
import proofs.«154049_j57183194579701_2_alg».proof.Proof.Gen.Kernel.Points
import proofs.«154049_j57183194579701_2_alg».proof.Proof.Gen.KernelIdeal
import proofs.«154049_j57183194579701_2_alg».proof.Proof.Gen.KernelIdeal.Skeleton
import proofs.«154049_j57183194579701_2_alg».proof.Proof.Gen.KernelIdeal.Launch
import proofs.«154049_j57183194579701_2_alg».proof.Proof.Gen.KernelIdeal.Points
import proofs.«154049_j57183194579701_2_alg».proof.Proof.Gen.ReferenceIdeal
import proofs.«154049_j57183194579701_2_alg».proof.Proof.KFinal
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proof.Claims.frame_k, Cert.Proof.Claims.frame_ki, Cert.Proof.Claims.frame_ri, trivial, Cert.Proof.Claims.algebraic⟩

end Cert.Proof

end
